-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v151)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v151) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x32 : Shape := ⟨2, ![1048576, 32]⟩
abbrev S65x32 : Shape := ⟨2, ![65, 32]⟩
abbrev S64x64 : Shape := ⟨2, ![64, 64]⟩
abbrev S3x64 : Shape := ⟨2, ![3, 64]⟩
abbrev S3 : Shape := ⟨1, ![3]⟩
abbrev S_ : Shape := ⟨0, ![]⟩

class Facts : Prop where
  bcast_S_S1048576x32 : S_.BroadcastsInDim S1048576x32 (![] : Fin 0 → Fin S1048576x32.rank)
  reducesTo_S1048576x32_S_d0_1 : S1048576x32.ReducesTo [0, 1] S_
  h_S_ : 0 < S_.numel
  bcast_S_S65x32 : S_.BroadcastsInDim S65x32 (![] : Fin 0 → Fin S65x32.rank)
  reducesTo_S65x32_S_d0_1 : S65x32.ReducesTo [0, 1] S_
  bcast_S_S64x64 : S_.BroadcastsInDim S64x64 (![] : Fin 0 → Fin S64x64.rank)
  reducesTo_S64x64_S_d0_1 : S64x64.ReducesTo [0, 1] S_
  bcast_S_S3x64 : S_.BroadcastsInDim S3x64 (![] : Fin 0 → Fin S3x64.rank)
  reducesTo_S3x64_S_d0_1 : S3x64.ReducesTo [0, 1] S_
  bcast_S_S3 : S_.BroadcastsInDim S3 (![] : Fin 0 → Fin S3.rank)
  reducesTo_S3_S_d0 : S3.ReducesTo [0] S_
  reducesTo_S_S_d : S_.ReducesTo [] S_

variable [Facts]

def fn_part2 {F : FTy → Type} [FloatOps F] (main_v32 : IVec S_ 1) (main_v33 : FVec F S_ .f32) : IVec S_ 1 :=
  let main_cst_12 : FVec F S_ .f32 := constant S_ .f32 0x7F800000#32
  let main_v34 : IVec S_ 1 := cmpf .olt main_v33 main_cst_12
  let main_c_13 : IVec S_ 1 := constantI S_ 1 1#1
  let main_v35 : IVec S_ 1 := (fun x v => Host.reduce IntOp.andi x v reducesTo_S_S_d h_S_) main_v34 main_c_13
  let main_v36 : IVec S_ 1 := andi main_v32 main_v35
  main_v36

def fn_part1 {F : FTy → Type} [FloatOps F] (main_arg4 : FVec F S3x64 .f32) (main_arg5 : FVec F S3 .f32) (main_arg6 : FVec F S_ .f32) (main_arg7 : FVec F S_ .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S3x64 .f32 := Host.absf main_arg4
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3 .f32 := Host.absf main_arg5
  let main_cst_8 : FVec F S_ .f32 := constant S_ .f32 0x7F800000#32
  let main_v25 : FVec F S3 .f32 := broadcastInDim S3 ![] bcast_S_S3 main_cst_8
  let main_v26 : IVec S3 1 := cmpf .olt main_v24 main_v25
  let main_c_9 : IVec S_ 1 := constantI S_ 1 1#1
  let main_v27 : IVec S_ 1 := (fun x v => Host.reduce IntOp.andi x v reducesTo_S3_S_d0 h_S_) main_v26 main_c_9
  let main_v28 : IVec S_ 1 := andi main_v23 main_v27
  let main_v29 : FVec F S_ .f32 := Host.absf main_arg6
  let main_cst_10 : FVec F S_ .f32 := constant S_ .f32 0x7F800000#32
  let main_v30 : IVec S_ 1 := cmpf .olt main_v29 main_cst_10
  let main_c_11 : IVec S_ 1 := constantI S_ 1 1#1
  let main_v31 : IVec S_ 1 := (fun x v => Host.reduce IntOp.andi x v reducesTo_S_S_d h_S_) main_v30 main_c_11
  let main_v32 : IVec S_ 1 := andi main_v28 main_v31
  let main_v33 : FVec F S_ .f32 := Host.absf main_arg7
  fn_part2 (F := F) main_v32 main_v33

def fn {F : FTy → Type} [FloatOps F] (main_arg0 : FVec F S1048576x32 .f32) (main_arg1 : FVec F S65x32 .f32) (main_arg2 : FVec F S64x64 .f32) (main_arg3 : FVec F S64x64 .f32) (main_arg4 : FVec F S3x64 .f32) (main_arg5 : FVec F S3 .f32) (main_arg6 : FVec F S_ .f32) (main_arg7 : FVec F S_ .f32) : IVec S_ 1 :=
  let main_v0 : FVec F S1048576x32 .f32 := Host.absf main_arg0
  let main_cst : FVec F S_ .f32 := constant S_ .f32 0x7F800000#32
  let main_v1 : FVec F S1048576x32 .f32 := broadcastInDim S1048576x32 ![] bcast_S_S1048576x32 main_cst
  let main_v2 : IVec S1048576x32 1 := cmpf .olt main_v0 main_v1
  let main_c : IVec S_ 1 := constantI S_ 1 1#1
  let main_v3 : IVec S_ 1 := (fun x v => Host.reduce IntOp.andi x v reducesTo_S1048576x32_S_d0_1 h_S_) main_v2 main_c
  let main_v4 : FVec F S65x32 .f32 := Host.absf main_arg1
  let main_cst_0 : FVec F S_ .f32 := constant S_ .f32 0x7F800000#32
  let main_v5 : FVec F S65x32 .f32 := broadcastInDim S65x32 ![] bcast_S_S65x32 main_cst_0
  let main_v6 : IVec S65x32 1 := cmpf .olt main_v4 main_v5
  let main_c_1 : IVec S_ 1 := constantI S_ 1 1#1
  let main_v7 : IVec S_ 1 := (fun x v => Host.reduce IntOp.andi x v reducesTo_S65x32_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_v13 main_v16
-- ==== Kernel.lean ====
abbrev S1048576x32 : Shape := ⟨2, ![1048576, 32]⟩
abbrev S65x32 : Shape := ⟨2, ![65, 32]⟩
abbrev S64x64 : Shape := ⟨2, ![64, 64]⟩
abbrev S3x64 : Shape := ⟨2, ![3, 64]⟩
abbrev S3 : Shape := ⟨1, ![3]⟩
abbrev S_ : Shape := ⟨0, ![]⟩
abbrev S1x32 : Shape := ⟨2, ![1, 32]⟩
abbrev S64x32 : Shape := ⟨2, ![64, 32]⟩
abbrev S32x64 : Shape := ⟨2, ![32, 64]⟩
abbrev S128x256 : Shape := ⟨2, ![128, 256]⟩
abbrev S1 : Shape := ⟨1, ![1]⟩
abbrev S2 : Shape := ⟨1, ![2]⟩
abbrev S256x256 : Shape := ⟨2, ![256, 256]⟩
abbrev S64x3 : Shape := ⟨2, ![64, 3]⟩
abbrev S256x12 : Shape := ⟨2, ![256, 12]⟩
abbrev S16 : Shape := ⟨1, ![16]⟩
abbrev S1x16 : Shape := ⟨2, ![1, 16]⟩
abbrev S262144x128 : Shape := ⟨2, ![262144, 128]⟩
abbrev S262144x12 : Shape := ⟨2, ![262144, 12]⟩
abbrev S2048x128 : Shape := ⟨2, ![2048, 128]⟩
abbrev S2048x12 : Shape := ⟨2, ![2048, 12]⟩
abbrev S1x1 : Shape := ⟨2, ![1, 1]⟩
abbrev S2048x32 : Shape := ⟨2, ![2048, 32]⟩
abbrev S2048 : Shape := ⟨1, ![2048]⟩
abbrev S2048x1 : Shape := ⟨2, ![2048, 1]⟩
abbrev S2048x64 : Shape := ⟨2, ![2048, 64]⟩
abbrev S2048x256 : Shape := ⟨2, ![2048, 256]⟩
abbrev S1048576x3 : Shape := ⟨2, ![1048576, 3]⟩

abbrev nBuf : Space → Nat
  | .hbm => 243
  | .vmem => 10
  | .smem => 0
  | _ => 0

abbrev hbmTy0_0 (i : Nat) : BufTy := match i % 128 with
  | 0 => ⟨S1048576x32, .f32⟩
  | 1 => ⟨S65x32, .f32⟩
  | 2 => ⟨S64x64, .f32⟩
  | 3 => ⟨S64x64, .f32⟩
  | 4 => ⟨S3x64, .f32⟩
  | 5 => ⟨S3, .f32⟩
  | 6 => ⟨S_, .f32⟩
  | 7 => ⟨S_, .f32⟩
  | 8 => ⟨S65x32, .f32⟩
  | 9 => ⟨S_, .f32⟩
  | 10 => ⟨S_, .f32⟩
  | 11 => ⟨S_, .f32⟩
  | 12 => ⟨S_, .f32⟩
  | 13 => ⟨S65x32, .f32⟩
  | 14 => ⟨S65x32, .f32⟩
  | 15 => ⟨S65x32, .f32⟩
  | 16 => ⟨S_, .f32⟩
  | 17 => ⟨S_, .f32⟩
  | 18 => ⟨S_, .f32⟩
  | 19 => ⟨S65x32, .f32⟩
  | 20 => ⟨S65x32, .f32⟩
  | 21 => ⟨S_, .f32⟩
  | 22 => ⟨S65x32, .f32⟩
  | 23 => ⟨S65x32, .f32⟩
  | 24 => ⟨S65x32, .f32⟩
  | 25 => ⟨S65x32, .f32⟩
  | 26 => ⟨S64x64, .f32⟩
  | 27 => ⟨S_, .f32⟩
  | 28 => ⟨S_, .f32⟩
  | 29 => ⟨S_, .f32⟩
  | 30 => ⟨S_, .f32⟩
  | 31 => ⟨S64x64, .f32⟩
  | 32 => ⟨S64x64, .f32⟩
  | 33 => ⟨S64x64, .f32⟩
  | 34 => ⟨S_, .f32⟩
  | 35 => ⟨S_, .f32⟩
  | 36 => ⟨S_, .f32⟩
  | 37 => ⟨S64x64, .f32⟩
  | 38 => ⟨S64x64, .f32⟩
  | 39 => ⟨S_, .f32⟩
  | 40 => ⟨S64x64, .f32⟩
  | 41 => ⟨S64x64, .f32⟩
  | 42 => ⟨S64x64, .f32⟩
  | 43 => ⟨S64x64, .f32⟩
  | 44 => ⟨S64x64, .f32⟩
  | 45 => ⟨S_, .f32⟩
  | 46 => ⟨S_, .f32⟩
  | 47 => ⟨S_, .f32⟩
  | 48 => ⟨S_, .f32⟩
  | 49 => ⟨S64x64, .f32⟩
  | 50 => ⟨S64x64, .f32⟩
  | 51 => ⟨S64x64, .f32⟩
  | 52 => ⟨S_, .f32⟩
  | 53 => ⟨S_, .f32⟩
  | 54 => ⟨S_, .f32⟩
  | 55 => ⟨S64x64, .f32⟩
  | 56 => ⟨S64x64, .f32⟩
  | 57 => ⟨S_, .f32⟩
  | 58 => ⟨S64x64, .f32⟩
  | 59 => ⟨S64x64, .f32⟩
  | 60 => ⟨S64x64, .f32⟩
  | 61 => ⟨S64x64, .f32⟩
  | 62 => ⟨S3x64, .f32⟩
  | 63 => ⟨S_, .f32⟩
  | 64 => ⟨S_, .f32⟩
  | 65 => ⟨S_, .f32⟩
  | 66 => ⟨S_, .f32⟩
  | 67 => ⟨S3x64, .f32⟩
  | 68 => ⟨S3x64, .f32⟩
  | 69 => ⟨S3x64, .f32⟩
  | 70 => ⟨S_, .f32⟩
  | 71 => ⟨S_, .f32⟩
  | 72 => ⟨S_, .f32⟩
  | 73 => ⟨S3x64, .f32⟩
  | 74 => ⟨S3x64, .f32⟩
  | 75 => ⟨S_, .f32⟩
  | 76 => ⟨S3x64, .f32⟩
  | 77 => ⟨S3x64, .f32⟩
  | 78 => ⟨S3x64, .f32⟩
  | 79 => ⟨S3x64, .f32⟩
  | 80 => ⟨S1x32, .f32⟩
  | 81 => ⟨S64x32, .f32⟩
  | 82 => ⟨S32x64, .f32⟩
  | 83 => ⟨S_, .f32⟩
  | 84 => ⟨S128x256, .f32⟩
  | 85 => ⟨S_, .i32⟩
  | 86 => ⟨S1, .i32⟩
  | 87 => ⟨S_, .i32⟩
  | 88 => ⟨S1, .i32⟩
  | 89 => ⟨S2, .i32⟩
  | 90 => ⟨S128x256, .f32⟩
  | 91 => ⟨S_, .i32⟩
  | 92 => ⟨S1, .i32⟩
  | 93 => ⟨S_, .i32⟩
  | 94 => ⟨S1, .i32⟩
  | 95 => ⟨S2, .i32⟩
  | 96 => ⟨S128x256, .f32⟩
  | 97 => ⟨S_, .i32⟩
  | 98 => ⟨S1, .i32⟩
  | 99 => ⟨S_, .i32⟩
  | 100 => ⟨S1, .i32⟩
  | 101 => ⟨S2, .i32⟩
  | 102 => ⟨S128x256, .f32⟩
  | 103 => ⟨S_, .i32⟩
  | 104 => ⟨S1, .i32⟩
  | 105 => ⟨S_, .i32⟩
  | 106 => ⟨S1, .i32⟩
  | 107 => ⟨S2, .i32⟩
  | 108 => ⟨S128x256, .f32⟩
  | 109 => ⟨S128x256, .bf16⟩
  | 110 => ⟨S64x64, .f32⟩
  | 111 => ⟨S_, .f32⟩
  | 112 => ⟨S256x256, .f32⟩
  | 113 => ⟨S_, .i32⟩
  | 114 => ⟨S1, .i32⟩
  | 115 => ⟨S_, .i32⟩
  | 116 => ⟨S1, .i32⟩
  | 117 => ⟨S2, .i32⟩
  | 118 => ⟨S256x256, .f32⟩
  | 119 => ⟨S_, .i32⟩
  | 120 => ⟨S1, .i32⟩
  | 121 => ⟨S_, .i32⟩
  | 122 => ⟨S1, .i32⟩
  | 123 => ⟨S2, .i32⟩
  | 124 => ⟨S256x256, .f32⟩
  | 125 => ⟨S_, .i32⟩
  | 126 => ⟨S1, .i32⟩
  | 127 => ⟨S_, .i32⟩
  | _ => ⟨S1048576x32, .f32⟩

abbrev hbmTy0_1 (i : Nat) : BufTy := match i % 128 with
  | 0 => ⟨S1, .i32⟩
  | 1 => ⟨S2, .i32⟩
  | 2 => ⟨S256x256, .f32⟩
  | 3 => ⟨S_, .i32⟩
  | 4 => ⟨S1, .i32⟩
  | 5 => ⟨S_, .i32⟩
  | 6 => ⟨S1, .i32⟩
  | 7 => ⟨S2, .i32⟩
  | 8 => ⟨S256x256, .f32⟩
  | 9 => ⟨S256x256, .bf16⟩
  | 10 => ⟨S64x64, .f32⟩
  | 11 => ⟨S_, .f32⟩
  | 12 => ⟨S256x256, .f32⟩
  | 13 => ⟨S_, .i32⟩
  | 14 => ⟨S1, .i32⟩
  | 15 => ⟨S_, .i32⟩
  | 16 => ⟨S1, .i32⟩
  | 17 => ⟨S2, .i32⟩
  | 18 => ⟨S256x256, .f32⟩
  | 19 => ⟨S_, .i32⟩
  | 20 => ⟨S1, .i32⟩
  | 21 => ⟨S_, .i32⟩
  | 22 => ⟨S1, .i32⟩
  | 23 => ⟨S2, .i32⟩
  | 24 => ⟨S256x256, .f32⟩
  | 25 => ⟨S_, .i32⟩
  | 26 => ⟨S1, .i32⟩
  | 27 => ⟨S_, .i32⟩
  | 28 => ⟨S1, .i32⟩
  | 29 => ⟨S2, .i32⟩
  | 30 => ⟨S256x256, .f32⟩
  | 31 => ⟨S_, .i32⟩
  | 32 => ⟨S1, .i32⟩
  | 33 => ⟨S_, .i32⟩
  | 34 => ⟨S1, .i32⟩
  | 35 => ⟨S2, .i32⟩
  | 36 => ⟨S256x256, .f32⟩
  | 37 => ⟨S256x256, .bf16⟩
  | 38 => ⟨S64x3, .f32⟩
  | 39 => ⟨S_, .f32⟩
  | 40 => ⟨S256x12, .f32⟩
  | 41 => ⟨S_, .i32⟩
  | 42 => ⟨S1, .i32⟩
  | 43 => ⟨S_, .i32⟩
  | 44 => ⟨S1, .i32⟩
  | 45 => ⟨S2, .i32⟩
  | 46 => ⟨S256x12, .f32⟩
  | 47 => ⟨S_, .i32⟩
  | 48 => ⟨S1, .i32⟩
  | 49 => ⟨S_, .i32⟩
  | 50 => ⟨S1, .i32⟩
  | 51 => ⟨S2, .i32⟩
  | 52 => ⟨S256x12, .f32⟩
  | 53 => ⟨S_, .i32⟩
  | 54 => ⟨S1, .i32⟩
  | 55 => ⟨S_, .i32⟩
  | 56 => ⟨S1, .i32⟩
  | 57 => ⟨S2, .i32⟩
  | 58 => ⟨S256x12, .f32⟩
  | 59 => ⟨S_, .i32⟩
  | 60 => ⟨S1, .i32⟩
  | 61 => ⟨S_, .i32⟩
  | 62 => ⟨S1, .i32⟩
  | 63 => ⟨S2, .i32⟩
  | 64 => ⟨S256x12, .f32⟩
  | 65 => ⟨S256x12, .bf16⟩
  | 66 => ⟨S1, .f32⟩
  | 67 => ⟨S_, .f32⟩
  | 68 => ⟨S_, .f32⟩
  | 69 => ⟨S_, .f32⟩
  | 70 => ⟨S1, .f32⟩
  | 71 => ⟨S_, .f32⟩
  | 72 => ⟨S_, .f32⟩
  | 73 => ⟨S_, .f32⟩
  | 74 => ⟨S1, .f32⟩
  | 75 => ⟨S_, .f32⟩
  | 76 => ⟨S_, .f32⟩
  | 77 => ⟨S_, .f32⟩
  | 78 => ⟨S1, .f32⟩
  | 79 => ⟨S_, .f32⟩
  | 80 => ⟨S1, .f32⟩
  | 81 => ⟨S_, .f32⟩
  | 82 => ⟨S1, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S1, .f32⟩
  | 95 => ⟨S1, .f32⟩
  | 96 => ⟨S1, .f32⟩
  | 97 => ⟨S1, .f32⟩
  | 98 => ⟨S1, .f32⟩
  | 99 => ⟨S1, .f32⟩
  | 100 => ⟨S1, .f32⟩
  | 101 => ⟨S1, .f32⟩
  | 102 => ⟨S1, .f32⟩
  | 103 => ⟨S1, .f32⟩
  | 104 => ⟨S1, .f32⟩
  | 105 => ⟨S1, .f32⟩
  | 106 => ⟨S1, .f32⟩
  | 107 => ⟨S1, .f32⟩
  | 108 => ⟨S1, .f32⟩
  | 109 => ⟨S1, .f32⟩
  | 110 => ⟨S16, .f32⟩
  | 111 => ⟨S1x16, .f32⟩
  | 112 => ⟨S262144x128, .f32⟩
  | 113 => ⟨S262144x12, .f32⟩
  | 114 => ⟨S1048576x3, .f32⟩
  | _ => ⟨S1048576x32, .f32⟩

abbrev hbmTy (i : Nat) : BufTy := match i / 128 with
  | 0 => hbmTy0_0 i
  | 1 => hbmTy0_1 i
  | _ => ⟨S1048576x32, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S128x256, .bf16⟩
  | .local _ .vmem, ⟨3, _⟩ => ⟨S1x32, .f32⟩
  | .local _ .vmem, ⟨4, _⟩ => ⟨S256x256, .bf16⟩
  | .local _ .vmem, ⟨5, _⟩ => ⟨S256x256, .bf16⟩
  | .local _ .vmem, ⟨6, _⟩ => ⟨S256x12, .bf16⟩
  | .local _ .vmem, ⟨7, _⟩ => ⟨S1x16, .f32⟩
  | .local _ .vmem, ⟨8, _⟩ => ⟨S2048x12, .f32⟩
  | .local _ .vmem, ⟨9, _⟩ => ⟨S2048x12, .f32⟩
  | _, _ => ⟨S1048576x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_cst_2 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_3 : Ref sig .tc := ⟨.hbm, 27, rfl⟩
abbrev main_v10 : Ref sig .tc := ⟨.hbm, 28, rfl⟩
abbrev main_cst_4 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_5 : Ref sig .tc := ⟨.hbm, 34, rfl⟩
abbrev main_cst_6 : Ref sig .tc := ⟨.hbm, 35, rfl⟩
abbrev main_call3_v0 : Ref sig .tc := ⟨.hbm, 36, rfl⟩
abbrev main_call3_v1 : Ref sig .tc := ⟨.hbm, 37, rfl⟩
abbrev main_call3_v2 : Ref sig .tc := ⟨.hbm, 38, rfl⟩
abbrev main_call3_v3 : Ref sig .tc := ⟨.hbm, 39, rfl⟩
abbrev main_call3_v4 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_7 : Ref sig .tc := ⟨.hbm, 45, rfl⟩
abbrev main_v19 : Ref sig .tc := ⟨.hbm, 46, rfl⟩
abbrev main_cst_8 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_9 : Ref sig .tc := ⟨.hbm, 52, rfl⟩
abbrev main_cst_10 : Ref sig .tc := ⟨.hbm, 53, rfl⟩
abbrev main_call5_v0 : Ref sig .tc := ⟨.hbm, 54, rfl⟩
abbrev main_call5_v1 : Ref sig .tc := ⟨.hbm, 55, rfl⟩
abbrev main_call5_v2 : Ref sig .tc := ⟨.hbm, 56, rfl⟩
abbrev main_call5_v3 : Ref sig .tc := ⟨.hbm, 57, rfl⟩
abbrev main_call5_v4 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_cst_11 : Ref sig .tc := ⟨.hbm, 63, rfl⟩
abbrev main_v28 : Ref sig .tc := ⟨.hbm, 64, rfl⟩
abbrev main_cst_12 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_cst_13 : Ref sig .tc := ⟨.hbm, 70, rfl⟩
abbrev main_cst_14 : Ref sig .tc := ⟨.hbm, 71, rfl⟩
abbrev main_call7_v0 : Ref sig .tc := ⟨.hbm, 72, rfl⟩
abbrev main_call7_v1 : Ref sig .tc := ⟨.hbm, 73, rfl⟩
abbrev main_call7_v2 : Ref sig .tc := ⟨.hbm, 74, rfl⟩
abbrev main_call7_v3 : Ref sig .tc := ⟨.hbm, 75, rfl⟩
abbrev main_call7_v4 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_cst_15 : Ref sig .tc := ⟨.hbm, 83, rfl⟩
abbrev main_v39 : Ref sig .tc := ⟨.hbm, 84, rfl⟩
abbrev main_c : Ref sig .tc := ⟨.hbm, 85, rfl⟩
abbrev main_v40 : Ref sig .tc := ⟨.hbm, 86, rfl⟩
abbrev main_c_16 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_c_17 : Ref sig .tc := ⟨.hbm, 91, rfl⟩
abbrev main_v44 : Ref sig .tc := ⟨.hbm, 92, rfl⟩
abbrev main_c_18 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_c_19 : Ref sig .tc := ⟨.hbm, 97, rfl⟩
abbrev main_v48 : Ref sig .tc := ⟨.hbm, 98, rfl⟩
abbrev main_c_20 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_c_21 : Ref sig .tc := ⟨.hbm, 103, rfl⟩
abbrev main_v52 : Ref sig .tc := ⟨.hbm, 104, rfl⟩
abbrev main_c_22 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_cst_23 : Ref sig .tc := ⟨.hbm, 111, rfl⟩
abbrev main_v58 : Ref sig .tc := ⟨.hbm, 112, rfl⟩
abbrev main_c_24 : Ref sig .tc := ⟨.hbm, 113, rfl⟩
abbrev main_v59 : Ref sig .tc := ⟨.hbm, 114, rfl⟩
abbrev main_c_25 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_c_26 : Ref sig .tc := ⟨.hbm, 119, rfl⟩
abbrev main_v63 : Ref sig .tc := ⟨.hbm, 120, rfl⟩
abbrev main_c_27 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_c_28 : Ref sig .tc := ⟨.hbm, 125, rfl⟩
abbrev main_v67 : Ref sig .tc := ⟨.hbm, 126, rfl⟩
abbrev main_c_29 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_c_30 : Ref sig .tc := ⟨.hbm, 131, rfl⟩
abbrev main_v71 : Ref sig .tc := ⟨.hbm, 132, rfl⟩
abbrev main_c_31 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_cst_32 : Ref sig .tc := ⟨.hbm, 139, rfl⟩
abbrev main_v77 : Ref sig .tc := ⟨.hbm, 140, rfl⟩
abbrev main_c_33 : Ref sig .tc := ⟨.hbm, 141, rfl⟩
abbrev main_v78 : Ref sig .tc := ⟨.hbm, 142, rfl⟩
abbrev main_c_34 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_c_35 : Ref sig .tc := ⟨.hbm, 147, rfl⟩
abbrev main_v82 : Ref sig .tc := ⟨.hbm, 148, rfl⟩
abbrev main_c_36 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_c_37 : Ref sig .tc := ⟨.hbm, 153, rfl⟩
abbrev main_v86 : Ref sig .tc := ⟨.hbm, 154, rfl⟩
abbrev main_c_38 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_c_39 : Ref sig .tc := ⟨.hbm, 159, rfl⟩
abbrev main_v90 : Ref sig .tc := ⟨.hbm, 160, rfl⟩
abbrev main_c_40 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_cst_41 : Ref sig .tc := ⟨.hbm, 167, rfl⟩
abbrev main_v96 : Ref sig .tc := ⟨.hbm, 168, rfl⟩
abbrev main_c_42 : Ref sig .tc := ⟨.hbm, 169, rfl⟩
abbrev main_v97 : Ref sig .tc := ⟨.hbm, 170, rfl⟩
abbrev main_c_43 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_c_44 : Ref sig .tc := ⟨.hbm, 175, rfl⟩
abbrev main_v101 : Ref sig .tc := ⟨.hbm, 176, rfl⟩
abbrev main_c_45 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_c_46 : Ref sig .tc := ⟨.hbm, 181, rfl⟩
abbrev main_v105 : Ref sig .tc := ⟨.hbm, 182, rfl⟩
abbrev main_c_47 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_c_48 : Ref sig .tc := ⟨.hbm, 187, rfl⟩
abbrev main_v109 : Ref sig .tc := ⟨.hbm, 188, rfl⟩
abbrev main_c_49 : Ref sig .tc := ⟨.hbm, 189, rfl⟩
abbrev main_v110 : Ref sig .tc := ⟨.hbm, 190, rfl⟩
abbrev main_v111 : Ref sig .tc := ⟨.hbm, 191, rfl⟩
abbrev main_v112 : Ref sig .tc := ⟨.hbm, 192, rfl⟩
abbrev main_v113 : Ref sig .tc := ⟨.hbm, 193, rfl⟩
abbrev main_v114 : Ref sig .tc := ⟨.hbm, 194, rfl⟩
abbrev main_v115 : Ref sig .tc := ⟨.hbm, 195, rfl⟩
abbrev main_cst_50 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_cst_51 : Ref sig .tc := ⟨.hbm, 200, rfl⟩
abbrev main_v119 : Ref sig .tc := ⟨.hbm, 201, rfl⟩
abbrev main_v120 : Ref sig .tc := ⟨.hbm, 202, rfl⟩
abbrev main_v121 : Ref sig .tc := ⟨.hbm, 203, rfl⟩
abbrev main_cst_52 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_v125 : Ref sig .tc := ⟨.hbm, 208, rfl⟩
abbrev main_v126 : Ref sig .tc := ⟨.hbm, 209, rfl⟩
abbrev main_v127 : Ref sig .tc := ⟨.hbm, 210, rfl⟩
abbrev main_v128 : Ref sig .tc := ⟨.hbm, 211, rfl⟩
abbrev main_cst_53 : Ref sig .tc := ⟨.hbm, 212, rfl⟩
abbrev main_v129 : Ref sig .tc := ⟨.hbm, 213, rfl⟩
abbrev main_cst_54 : Ref sig .tc := ⟨.hbm, 214, rfl⟩
abbrev main_v130 : Ref sig .tc := ⟨.hbm, 215, rfl⟩
abbrev main_cst_55 : Ref sig .tc := ⟨.hbm, 216, rfl⟩
abbrev main_cst_56 : Ref sig .tc := ⟨.hbm, 217, rfl⟩
abbrev main_cst_57 : Ref sig .tc := ⟨.hbm, 218, rfl⟩
abbrev main_cst_58 : Ref sig .tc := ⟨.hbm, 219, rfl⟩
abbrev main_cst_59 : Ref sig .tc := ⟨.hbm, 220, rfl⟩
abbrev main_cst_60 : Ref sig .tc := ⟨.hbm, 221, rfl⟩
abbrev main_v131 : Ref sig .tc := ⟨.hbm, 222, rfl⟩
abbrev main_v132 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_v136 : Ref sig .tc := ⟨.hbm, 227, rfl⟩
abbrev main_v137 : Ref sig .tc := ⟨.hbm, 228, rfl⟩
abbrev main_v138 : Ref sig .tc := ⟨.hbm, 229, rfl⟩
abbrev main_v139 : Ref sig .tc := ⟨.hbm, 230, rfl⟩
abbrev main_v140 : Ref sig .tc := ⟨.hbm, 231, rfl⟩
abbrev main_v141 : Ref sig .tc := ⟨.hbm, 232, rfl⟩
abbrev main_v142 : Ref sig .tc := ⟨.hbm, 233, rfl⟩
abbrev main_v143 : Ref sig .tc := ⟨.hbm, 234, rfl⟩
abbrev main_v144 : Ref sig .tc := ⟨.hbm, 235, rfl⟩
abbrev main_v145 : Ref sig .tc := ⟨.hbm, 236, rfl⟩
abbrev main_v146 : Ref sig .tc := ⟨.hbm, 237, rfl⟩
abbrev main_v147 : Ref sig .tc := ⟨.hbm, 238, rfl⟩
abbrev main_v148 : Ref sig .tc := ⟨.hbm, 239, rfl⟩
abbrev main_v149 : Ref sig .tc := ⟨.hbm, 240, rfl⟩
abbrev main_v150 : Ref sig .tc := ⟨.hbm, 241, rfl⟩
abbrev main_v151 : Ref sig .tc := ⟨.hbm, 242, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x12 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x12 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  reducesTo_S65x32_S_d0_1 : S65x32.ReducesTo [0, 1] S_
  h_S_ : 0 < S_.numel
  bcast_S_S65x32 : S_.BroadcastsInDim S65x32 (![] : Fin 0 → Fin S65x32.rank)
  reducesTo_S64x64_S_d0_1 : S64x64.ReducesTo [0, 1] S_
  bcast_S_S64x64 : S_.BroadcastsInDim S64x64 (![] : Fin 0 → Fin S64x64.rank)
  reducesTo_S3x64_S_d0_1 : S3x64.ReducesTo [0, 1] S_
  bcast_S_S3x64 : S_.BroadcastsInDim S3x64 (![] : Fin 0 → Fin S3x64.rank)
  slices_S65x32_S1x32_0_0 : S65x32.Slices ![0, 0] S1x32
  slices_S65x32_S64x32_1_0 : S65x32.Slices ![1, 0] S64x32
  transposes_S64x32_S32x64_1_0 : S64x32.Transposes [1, 0] S32x64
  bcast_S_S128x256 : S_.BroadcastsInDim S128x256 (![] : Fin 0 → Fin S128x256.rank)
  bcast_S_S1 : S_.BroadcastsInDim S1 (![] : Fin 0 → Fin S1.rank)
  concatenates_S1_S1_S2_d0 : Shape.Concatenates [S1, S1] S2 0
  bitsLt_bf16_f32 : FTy.bits .bf16 < FTy.bits .f32
  transposes_S64x64_S64x64_1_0 : S64x64.Transposes [1, 0] S64x64
  bcast_S_S256x256 : S_.BroadcastsInDim S256x256 (![] : Fin 0 → Fin S256x256.rank)
  transposes_S3x64_S64x3_1_0 : S3x64.Transposes [1, 0] S64x3
  bcast_S_S256x12 : S_.BroadcastsInDim S256x12 (![] : Fin 0 → Fin S256x12.rank)
  slices_S3_S1_0 : S3.Slices ![0] S1
  shapeCasts_S1_S_ : S1.ShapeCasts S_
  slices_S3_S1_1 : S3.Slices ![1] S1
  slices_S3_S1_2 : S3.Slices ![2] S1
  concatenates_S1_S1_S1_S1_S1_S1_S1_S1_S1_S1_S1_S1_S1_S1_S1_S1_S16_d0 : Shape.Concatenates [S1, S1, S1, S1, S1, S1, S1, S1, S1, S1, S1, S1, S1, S1, S1, S1] S16 0
  shapeCasts_S16_S1x16 : S16.ShapeCasts S1x16
  shapeCasts_S1048576x32_S262144x128 : S1048576x32.ShapeCasts S262144x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x12_S256x12_0_0 : ∀ a, (![0, 0] : Fin 2 → Nat) a + S256x12.size a ≤ S256x12.size a
  h_S256x12 : 0 < S256x12.numel
  shapeCasts_S256x12_S256x12 : S256x12.ShapeCasts S256x12
  inb_S1x16_S1x16_0_0 : ∀ a, (![0, 0] : Fin 2 → Nat) a + S1x16.size a ≤ S1x16.size a
  h_S1x16 : 0 < S1x16.numel
  shapeCasts_S1x16_S1x16 : S1x16.ShapeCasts S1x16
  slices_S1x16_o0_0_S1x1 : S1x16.Slices ![0, 0] S1x1
  inpos_S1x1_p0_0 : ∀ a, (![0, 0] : Fin 2 → Nat) a < S1x1.size a
  slices_S1x16_o0_1_S1x1 : S1x16.Slices ![0, 1] S1x1
  slices_S1x16_o0_2_S1x1 : S1x16.Slices ![0, 2] S1x1
  slices_S1x16_o0_3_S1x1 : S1x16.Slices ![0, 3] S1x1
  slices_S1x16_o0_4_S1x1 : S1x16.Slices ![0, 4] S1x1
  slices_S1x16_o0_5_S1x1 : S1x16.Slices ![0, 5] S1x1
  slices_S1x16_o0_6_S1x1 : S1x16.Slices ![0, 6] S1x1
  slices_S1x16_o0_7_S1x1 : S1x16.Slices ![0, 7] S1x1
  slices_S1x16_o0_8_S1x1 : S1x16.Slices ![0, 8] S1x1
  slices_S1x16_o0_9_S1x1 : S1x16.Slices ![0, 9] S1x1
  slices_S2048x128_o0_0_S2048x32 : S2048x128.Slices ![0, 0] S2048x32
  broadcasts_S1x32_S2048x32 : S1x32.Broadcasts S2048x32
  reduces_S2048x32_S2048 : S2048x32.Reduces [1] S2048
  shapeCasts_S2048_S2048x1 : S2048.ShapeCasts S2048x1
  shapeCasts_S2048x1_S2048x1 : S2048x1.ShapeCasts S2048x1
  broadcasts_S2048x1_S2048x64 : S2048x1.Broadcasts S2048x64
  slices_S2048x128_o0_32_S2048x32 : S2048x128.Slices ![0, 32] S2048x32
  slices_S2048x128_o0_64_S2048x32 : S2048x128.Slices ![0, 64] S2048x32
  slices_S2048x128_o0_96_S2048x32 : S2048x128.Slices ![0, 96] S2048x32
  concatenates_S2048x64_S2048x64_S2048x64_S2048x64_S2048x256_d1 : Shape.Concatenates [S2048x64, S2048x64, S2048x64, S2048x64] S2048x256 1
  inb_S2048x12_S2048x12_0_0 : ∀ a, (![0, 0] : Fin 2 → Nat) a + S2048x12.size a ≤ S2048x12.size a
  h_S2048x12 : 0 < S2048x12.numel
  shapeCasts_S262144x12_S1048576x3 : S262144x12.ShapeCasts S1048576x3
  scatter_S128x256_S2_S32x64_01_n_01_0_wf : ScatterDims.WF S128x256 S2 S32x64 [0, 1] [] [0, 1] 0
  scatter_S256x256_S2_S64x64_01_n_01_0_wf : ScatterDims.WF S256x256 S2 S64x64 [0, 1] [] [0, 1] 0
  scatter_S256x12_S2_S64x3_01_n_01_0_wf : ScatterDims.WF S256x12 S2 S64x3 [0, 1] [] [0, 1] 0
  dot_S2048x128_S128x256_S2048x256_1_0_0_1_n_n_wf : DotDims.WF S2048x128 S128x256 S2048x256 [1] [0] [0] [1] [] []
  dot_S2048x256_S256x256_S2048x256_1_0_0_1_n_n_wf : DotDims.WF S2048x256 S256x256 S2048x256 [1] [0] [0] [1] [] []
  dot_S2048x256_S256x12_S2048x12_1_0_0_1_n_n_wf : DotDims.WF S2048x256 S256x12 S2048x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S262144x128.size a
  hwx0_0 : ∀ i : grid0.Coords, EltTy.bits .f32 = 32 ∨ (Rect.block (s := S262144x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x12.size a ≤ S256x12.size a
  hwx0_5 : ∀ i : grid0.Coords, EltTy.bits .bf16 = 32 ∨ (Rect.block (s := S256x12) S256x12.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x12.size a ≤ S262144x12.size a
  hwx0_7 : ∀ i : grid0.Coords, EltTy.bits .f32 = 32 ∨ (Rect.block (s := S262144x12) S2048x12.size (cc0_transform_7 i) (hinb0_7 i)).WholeWords (EltTy.packing .f32)

variable [Facts₀]

def scatter_S128x256_S2_S32x64_01_n_01_0 : ScatterDims S128x256 S2 S32x64 where
  updateWindowDims := [0, 1]
  insertedWindowDims := []
  scatterDimsToOperandDims := [0, 1]
  indexVectorDim := 0
  wf := scatter_S128x256_S2_S32x64_01_n_01_0_wf
def scatter_S256x256_S2_S64x64_01_n_01_0 : ScatterDims S256x256 S2 S64x64 where
  updateWindowDims := [0, 1]
  insertedWindowDims := []
  scatterDimsToOperandDims := [0, 1]
  indexVectorDim := 0
  wf := scatter_S256x256_S2_S64x64_01_n_01_0_wf
def scatter_S256x12_S2_S64x3_01_n_01_0 : ScatterDims S256x12 S2 S64x3 where
  updateWindowDims := [0, 1]
  insertedWindowDims := []
  scatterDimsToOperandDims := [0, 1]
  indexVectorDim := 0
  wf := scatter_S256x12_S2_S64x3_01_n_01_0_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x12_S2048x12_1_0_0_1_n_n : DotDims S2048x256 S256x12 S2048x12 where
  lhsContracting := [1]
  rhsContracting := [0]
  lhsNonContracting := [0]
  rhsNonContracting := [1]
  lhsBatch := []
  rhsBatch := []
  wf := dot_S2048x256_S256x12_S2048x12_1_0_0_1_n_n_wf

abbrev win0_0 : Pipeline.Window sig grid0 :=
  Pipeline.Window.ofSpec (Memref.whole main_v149) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v56) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v75) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v94) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v113) S256x12.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v148) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v150) S2048x12.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1048576x32 : Shape := ⟨2, ![1048576, 32]⟩
abbrev S65x32 : Shape := ⟨2, ![65, 32]⟩
abbrev S64x64 : Shape := ⟨2, ![64, 64]⟩
abbrev S3x64 : Shape := ⟨2, ![3, 64]⟩
abbrev S3 : Shape := ⟨1, ![3]⟩
abbrev S_ : Shape := ⟨0, ![]⟩
abbrev S32x65 : Shape := ⟨2, ![32, 65]⟩
abbrev S1048576x65 : Shape := ⟨2, ![1048576, 65]⟩
abbrev S1048576x1 : Shape := ⟨2, ![1048576, 1]⟩
abbrev S1048576x64 : Shape := ⟨2, ![1048576, 64]⟩
abbrev S1 : Shape := ⟨1, ![1]⟩
abbrev S64x3 : Shape := ⟨2, ![64, 3]⟩
abbrev S1048576x3 : Shape := ⟨2, ![1048576, 3]⟩

abbrev nBuf : Space → Nat
  | .hbm => 209
  | .vmem => 0
  | .smem => 0
  | _ => 0

abbrev hbmTy0_0 (i : Nat) : BufTy := match i % 128 with
  | 0 => ⟨S1048576x32, .f32⟩
  | 1 => ⟨S65x32, .f32⟩
  | 2 => ⟨S64x64, .f32⟩
  | 3 => ⟨S64x64, .f32⟩
  | 4 => ⟨S3x64, .f32⟩
  | 5 => ⟨S3, .f32⟩
  | 6 => ⟨S_, .f32⟩
  | 7 => ⟨S_, .f32⟩
  | 8 => ⟨S65x32, .f32⟩
  | 9 => ⟨S_, .f32⟩
  | 10 => ⟨S_, .f32⟩
  | 11 => ⟨S_, .f32⟩
  | 12 => ⟨S_, .f32⟩
  | 13 => ⟨S65x32, .f32⟩
  | 14 => ⟨S65x32, .f32⟩
  | 15 => ⟨S65x32, .f32⟩
  | 16 => ⟨S65x32, .f32⟩
  | 17 => ⟨S65x32, .f32⟩
  | 18 => ⟨S_, .f32⟩
  | 19 => ⟨S_, .f32⟩
  | 20 => ⟨S_, .f32⟩
  | 21 => ⟨S65x32, .f32⟩
  | 22 => ⟨S65x32, .f32⟩
  | 23 => ⟨S_, .f32⟩
  | 24 => ⟨S65x32, .f32⟩
  | 25 => ⟨S65x32, .f32⟩
  | 26 => ⟨S65x32, .f32⟩
  | 27 => ⟨S65x32, .f32⟩
  | 28 => ⟨S32x65, .f32⟩
  | 29 => ⟨S1048576x65, .f32⟩
  | 30 => ⟨S1048576x1, .f32⟩
  | 31 => ⟨S1048576x64, .f32⟩
  | 32 => ⟨S_, .f32⟩
  | 33 => ⟨S1048576x64, .f32⟩
  | 34 => ⟨S1048576x64, .f32⟩
  | 35 => ⟨S1, .f32⟩
  | 36 => ⟨S_, .f32⟩
  | 37 => ⟨S1048576x64, .f32⟩
  | 38 => ⟨S1048576x64, .f32⟩
  | 39 => ⟨S1048576x64, .f32⟩
  | 40 => ⟨S1048576x64, .f32⟩
  | 41 => ⟨S1048576x64, .f32⟩
  | 42 => ⟨S_, .f32⟩
  | 43 => ⟨S_, .f32⟩
  | 44 => ⟨S_, .f32⟩
  | 45 => ⟨S1048576x64, .f32⟩
  | 46 => ⟨S1048576x64, .f32⟩
  | 47 => ⟨S_, .f32⟩
  | 48 => ⟨S1048576x64, .f32⟩
  | 49 => ⟨S1048576x64, .f32⟩
  | 50 => ⟨S1048576x64, .f32⟩
  | 51 => ⟨S1048576x64, .f32⟩
  | 52 => ⟨S1048576x1, .f32⟩
  | 53 => ⟨S1048576x1, .f32⟩
  | 54 => ⟨S_, .f32⟩
  | 55 => ⟨S1048576x1, .f32⟩
  | 56 => ⟨S1048576x1, .f32⟩
  | 57 => ⟨S_, .f32⟩
  | 58 => ⟨S1048576x1, .f32⟩
  | 59 => ⟨S1048576x1, .f32⟩
  | 60 => ⟨S_, .f32⟩
  | 61 => ⟨S1048576x1, .f32⟩
  | 62 => ⟨S1048576x1, .i1⟩
  | 63 => ⟨S64x64, .f32⟩
  | 64 => ⟨S_, .f32⟩
  | 65 => ⟨S_, .f32⟩
  | 66 => ⟨S_, .f32⟩
  | 67 => ⟨S_, .f32⟩
  | 68 => ⟨S64x64, .f32⟩
  | 69 => ⟨S64x64, .f32⟩
  | 70 => ⟨S64x64, .f32⟩
  | 71 => ⟨S64x64, .f32⟩
  | 72 => ⟨S64x64, .f32⟩
  | 73 => ⟨S_, .f32⟩
  | 74 => ⟨S_, .f32⟩
  | 75 => ⟨S_, .f32⟩
  | 76 => ⟨S64x64, .f32⟩
  | 77 => ⟨S64x64, .f32⟩
  | 78 => ⟨S_, .f32⟩
  | 79 => ⟨S64x64, .f32⟩
  | 80 => ⟨S64x64, .f32⟩
  | 81 => ⟨S64x64, .f32⟩
  | 82 => ⟨S64x64, .f32⟩
  | 83 => ⟨S64x64, .f32⟩
  | 84 => ⟨S1048576x64, .f32⟩
  | 85 => ⟨S_, .f32⟩
  | 86 => ⟨S1048576x64, .f32⟩
  | 87 => ⟨S1048576x64, .f32⟩
  | 88 => ⟨S1, .f32⟩
  | 89 => ⟨S_, .f32⟩
  | 90 => ⟨S1048576x64, .f32⟩
  | 91 => ⟨S1048576x64, .f32⟩
  | 92 => ⟨S1048576x64, .f32⟩
  | 93 => ⟨S1048576x64, .f32⟩
  | 94 => ⟨S1048576x64, .f32⟩
  | 95 => ⟨S_, .f32⟩
  | 96 => ⟨S_, .f32⟩
  | 97 => ⟨S_, .f32⟩
  | 98 => ⟨S1048576x64, .f32⟩
  | 99 => ⟨S1048576x64, .f32⟩
  | 100 => ⟨S_, .f32⟩
  | 101 => ⟨S1048576x64, .f32⟩
  | 102 => ⟨S1048576x64, .f32⟩
  | 103 => ⟨S1048576x64, .f32⟩
  | 104 => ⟨S1048576x64, .f32⟩
  | 105 => ⟨S64x64, .f32⟩
  | 106 => ⟨S_, .f32⟩
  | 107 => ⟨S_, .f32⟩
  | 108 => ⟨S_, .f32⟩
  | 109 => ⟨S_, .f32⟩
  | 110 => ⟨S64x64, .f32⟩
  | 111 => ⟨S64x64, .f32⟩
  | 112 => ⟨S64x64, .f32⟩
  | 113 => ⟨S64x64, .f32⟩
  | 114 => ⟨S64x64, .f32⟩
  | 115 => ⟨S_, .f32⟩
  | 116 => ⟨S_, .f32⟩
  | 117 => ⟨S_, .f32⟩
  | 118 => ⟨S64x64, .f32⟩
  | 119 => ⟨S64x64, .f32⟩
  | 120 => ⟨S_, .f32⟩
  | 121 => ⟨S64x64, .f32⟩
  | 122 => ⟨S64x64, .f32⟩
  | 123 => ⟨S64x64, .f32⟩
  | 124 => ⟨S64x64, .f32⟩
  | 125 => ⟨S64x64, .f32⟩
  | 126 => ⟨S1048576x64, .f32⟩
  | 127 => ⟨S_, .f32⟩
  | _ => ⟨S1048576x32, .f32⟩

abbrev hbmTy0_1 (i : Nat) : BufTy := match i % 128 with
  | 0 => ⟨S1048576x64, .f32⟩
  | 1 => ⟨S1048576x64, .f32⟩
  | 2 => ⟨S1, .f32⟩
  | 3 => ⟨S_, .f32⟩
  | 4 => ⟨S1048576x64, .f32⟩
  | 5 => ⟨S1048576x64, .f32⟩
  | 6 => ⟨S1048576x64, .f32⟩
  | 7 => ⟨S1048576x64, .f32⟩
  | 8 => ⟨S1048576x64, .f32⟩
  | 9 => ⟨S_, .f32⟩
  | 10 => ⟨S_, .f32⟩
  | 11 => ⟨S_, .f32⟩
  | 12 => ⟨S1048576x64, .f32⟩
  | 13 => ⟨S1048576x64, .f32⟩
  | 14 => ⟨S_, .f32⟩
  | 15 => ⟨S1048576x64, .f32⟩
  | 16 => ⟨S1048576x64, .f32⟩
  | 17 => ⟨S1048576x64, .f32⟩
  | 18 => ⟨S1048576x64, .f32⟩
  | 19 => ⟨S1048576x64, .i1⟩
  | 20 => ⟨S1048576x64, .f32⟩
  | 21 => ⟨S3x64, .f32⟩
  | 22 => ⟨S_, .f32⟩
  | 23 => ⟨S_, .f32⟩
  | 24 => ⟨S_, .f32⟩
  | 25 => ⟨S_, .f32⟩
  | 26 => ⟨S3x64, .f32⟩
  | 27 => ⟨S3x64, .f32⟩
  | 28 => ⟨S3x64, .f32⟩
  | 29 => ⟨S3x64, .f32⟩
  | 30 => ⟨S3x64, .f32⟩
  | 31 => ⟨S_, .f32⟩
  | 32 => ⟨S_, .f32⟩
  | 33 => ⟨S_, .f32⟩
  | 34 => ⟨S3x64, .f32⟩
  | 35 => ⟨S3x64, .f32⟩
  | 36 => ⟨S_, .f32⟩
  | 37 => ⟨S3x64, .f32⟩
  | 38 => ⟨S3x64, .f32⟩
  | 39 => ⟨S3x64, .f32⟩
  | 40 => ⟨S3x64, .f32⟩
  | 41 => ⟨S64x3, .f32⟩
  | 42 => ⟨S1048576x3, .f32⟩
  | 43 => ⟨S1048576x3, .f32⟩
  | 44 => ⟨S1048576x3, .f32⟩
  | 45 => ⟨S1048576x3, .f32⟩
  | 46 => ⟨S1048576x3, .f32⟩
  | 47 => ⟨S1048576x3, .f32⟩
  | 48 => ⟨S_, .f32⟩
  | 49 => ⟨S_, .f32⟩
  | 50 => ⟨S_, .f32⟩
  | 51 => ⟨S1048576x3, .f32⟩
  | 52 => ⟨S1048576x3, .f32⟩
  | 53 => ⟨S_, .f32⟩
  | 54 => ⟨S1048576x3, .f32⟩
  | 55 => ⟨S1048576x3, .f32⟩
  | 56 => ⟨S1048576x3, .f32⟩
  | 57 => ⟨S1048576x3, .f32⟩
  | 58 => ⟨S1048576x3, .f32⟩
  | 59 => ⟨S1048576x3, .f32⟩
  | 60 => ⟨S_, .f32⟩
  | 61 => ⟨S1048576x3, .f32⟩
  | 62 => ⟨S1048576x3, .f32⟩
  | 63 => ⟨S_, .f32⟩
  | 64 => ⟨S1048576x3, .f32⟩
  | 65 => ⟨S1048576x3, .f32⟩
  | 66 => ⟨S1048576x3, .f32⟩
  | 67 => ⟨S1048576x3, .f32⟩
  | 68 => ⟨S1048576x3, .f32⟩
  | 69 => ⟨S1048576x3, .f32⟩
  | 70 => ⟨S1048576x3, .f32⟩
  | 71 => ⟨S_, .f32⟩
  | 72 => ⟨S_, .f32⟩
  | 73 => ⟨S_, .f32⟩
  | 74 => ⟨S1048576x3, .f32⟩
  | 75 => ⟨S1048576x3, .f32⟩
  | 76 => ⟨S_, .f32⟩
  | 77 => ⟨S1048576x3, .f32⟩
  | 78 => ⟨S1048576x3, .f32⟩
  | 79 => ⟨S1048576x3, .f32⟩
  | 80 => ⟨S1048576x3, .f32⟩
  | _ => ⟨S1048576x32, .f32⟩

abbrev hbmTy (i : Nat) : BufTy := match i / 128 with
  | 0 => hbmTy0_0 i
  | 1 => hbmTy0_1 i
  | _ => ⟨S1048576x32, .f32⟩

abbrev bufTy : (tb : Table) → Fin (tcTables nBuf tb) → BufTy
  | .hbm, ⟨i, _⟩ => hbmTy i
  | _, _ => ⟨S1048576x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_cst_2 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_call2_cst : Ref sig .tc := ⟨.hbm, 32, rfl⟩
abbrev main_call2_v0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_cst_4 : Ref sig .tc := ⟨.hbm, 43, rfl⟩
abbrev main_call4_v0 : Ref sig .tc := ⟨.hbm, 44, rfl⟩
abbrev main_call4_v1 : Ref sig .tc := ⟨.hbm, 45, rfl⟩
abbrev main_call4_v2 : Ref sig .tc := ⟨.hbm, 46, rfl⟩
abbrev main_call4_v3 : Ref sig .tc := ⟨.hbm, 47, rfl⟩
abbrev main_call4_v4 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_5 : Ref sig .tc := ⟨.hbm, 54, rfl⟩
abbrev main_v28 : Ref sig .tc := ⟨.hbm, 55, rfl⟩
abbrev main_v29 : Ref sig .tc := ⟨.hbm, 56, rfl⟩
abbrev main_cst_6 : Ref sig .tc := ⟨.hbm, 57, rfl⟩
abbrev main_v30 : Ref sig .tc := ⟨.hbm, 58, rfl⟩
abbrev main_v31 : Ref sig .tc := ⟨.hbm, 59, rfl⟩
abbrev main_cst_7 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_8 : Ref sig .tc := ⟨.hbm, 64, rfl⟩
abbrev main_v35 : Ref sig .tc := ⟨.hbm, 65, rfl⟩
abbrev main_cst_9 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_10 : Ref sig .tc := ⟨.hbm, 73, rfl⟩
abbrev main_cst_11 : Ref sig .tc := ⟨.hbm, 74, rfl⟩
abbrev main_call6_v0 : Ref sig .tc := ⟨.hbm, 75, rfl⟩
abbrev main_call6_v1 : Ref sig .tc := ⟨.hbm, 76, rfl⟩
abbrev main_call6_v2 : Ref sig .tc := ⟨.hbm, 77, rfl⟩
abbrev main_call6_v3 : Ref sig .tc := ⟨.hbm, 78, rfl⟩
abbrev main_call6_v4 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_call7_cst : Ref sig .tc := ⟨.hbm, 85, rfl⟩
abbrev main_call7_v0 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_cst_12 : Ref sig .tc := ⟨.hbm, 95, rfl⟩
abbrev main_cst_13 : Ref sig .tc := ⟨.hbm, 96, rfl⟩
abbrev main_call9_v0 : Ref sig .tc := ⟨.hbm, 97, rfl⟩
abbrev main_call9_v1 : Ref sig .tc := ⟨.hbm, 98, rfl⟩
abbrev main_call9_v2 : Ref sig .tc := ⟨.hbm, 99, rfl⟩
abbrev main_call9_v3 : Ref sig .tc := ⟨.hbm, 100, rfl⟩
abbrev main_call9_v4 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_cst_14 : Ref sig .tc := ⟨.hbm, 106, rfl⟩
abbrev main_v59 : Ref sig .tc := ⟨.hbm, 107, rfl⟩
abbrev main_cst_15 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_cst_16 : Ref sig .tc := ⟨.hbm, 115, rfl⟩
abbrev main_cst_17 : Ref sig .tc := ⟨.hbm, 116, rfl⟩
abbrev main_call11_v0 : Ref sig .tc := ⟨.hbm, 117, rfl⟩
abbrev main_call11_v1 : Ref sig .tc := ⟨.hbm, 118, rfl⟩
abbrev main_call11_v2 : Ref sig .tc := ⟨.hbm, 119, rfl⟩
abbrev main_call11_v3 : Ref sig .tc := ⟨.hbm, 120, rfl⟩
abbrev main_call11_v4 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_call12_cst : Ref sig .tc := ⟨.hbm, 127, rfl⟩
abbrev main_call12_v0 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_cst_18 : Ref sig .tc := ⟨.hbm, 137, rfl⟩
abbrev main_cst_19 : Ref sig .tc := ⟨.hbm, 138, rfl⟩
abbrev main_call14_v0 : Ref sig .tc := ⟨.hbm, 139, rfl⟩
abbrev main_call14_v1 : Ref sig .tc := ⟨.hbm, 140, rfl⟩
abbrev main_call14_v2 : Ref sig .tc := ⟨.hbm, 141, rfl⟩
abbrev main_call14_v3 : Ref sig .tc := ⟨.hbm, 142, rfl⟩
abbrev main_call14_v4 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_call15_v0 : Ref sig .tc := ⟨.hbm, 147, rfl⟩
abbrev main_v82 : Ref sig .tc := ⟨.hbm, 148, rfl⟩
abbrev main_v83 : Ref sig .tc := ⟨.hbm, 149, rfl⟩
abbrev main_cst_20 : Ref sig .tc := ⟨.hbm, 150, rfl⟩
abbrev main_v84 : Ref sig .tc := ⟨.hbm, 151, rfl⟩
abbrev main_cst_21 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_cst_22 : Ref sig .tc := ⟨.hbm, 159, rfl⟩
abbrev main_cst_23 : Ref sig .tc := ⟨.hbm, 160, rfl⟩
abbrev main_call17_v0 : Ref sig .tc := ⟨.hbm, 161, rfl⟩
abbrev main_call17_v1 : Ref sig .tc := ⟨.hbm, 162, rfl⟩
abbrev main_call17_v2 : Ref sig .tc := ⟨.hbm, 163, rfl⟩
abbrev main_call17_v3 : Ref sig .tc := ⟨.hbm, 164, rfl⟩
abbrev main_call17_v4 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_cst_24 : Ref sig .tc := ⟨.hbm, 176, rfl⟩
abbrev main_cst_25 : Ref sig .tc := ⟨.hbm, 177, rfl⟩
abbrev main_call19_v0 : Ref sig .tc := ⟨.hbm, 178, rfl⟩
abbrev main_call19_v1 : Ref sig .tc := ⟨.hbm, 179, rfl⟩
abbrev main_call19_v2 : Ref sig .tc := ⟨.hbm, 180, rfl⟩
abbrev main_call19_v3 : Ref sig .tc := ⟨.hbm, 181, rfl⟩
abbrev main_call19_v4 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_cst_26 : Ref sig .tc := ⟨.hbm, 188, rfl⟩
abbrev main_v106 : Ref sig .tc := ⟨.hbm, 189, rfl⟩
abbrev main_v107 : Ref sig .tc := ⟨.hbm, 190, rfl⟩
abbrev main_cst_27 : Ref sig .tc := ⟨.hbm, 191, rfl⟩
abbrev main_v108 : Ref sig .tc := ⟨.hbm, 192, rfl⟩
abbrev main_v109 : Ref sig .tc := ⟨.hbm, 193, rfl⟩
abbrev main_v110 : Ref sig .tc := ⟨.hbm, 194, rfl⟩
abbrev main_v111 : Ref sig .tc := ⟨.hbm, 195, rfl⟩
abbrev main_v112 : Ref sig .tc := ⟨.hbm, 196, rfl⟩
abbrev main_v113 : Ref sig .tc := ⟨.hbm, 197, rfl⟩
abbrev main_v114 : Ref sig .tc := ⟨.hbm, 198, rfl⟩
abbrev main_cst_28 : Ref sig .tc := ⟨.hbm, 199, rfl⟩
abbrev main_cst_29 : Ref sig .tc := ⟨.hbm, 200, rfl⟩
abbrev main_call21_v0 : Ref sig .tc := ⟨.hbm, 201, rfl⟩
abbrev main_call21_v1 : Ref sig .tc := ⟨.hbm, 202, rfl⟩
abbrev main_call21_v2 : Ref sig .tc := ⟨.hbm, 203, rfl⟩
abbrev main_call21_v3 : Ref sig .tc := ⟨.hbm, 204, rfl⟩
abbrev main_call21_v4 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩

abbrev nD : Nat := 1
abbrev τ : Topo := Topo.v7x

variable {F : FTy → Type} [FloatOps F]

class Facts₀ : Prop where
  reducesTo_S65x32_S_d0_1 : S65x32.ReducesTo [0, 1] S_
  h_S_ : 0 < S_.numel
  bcast_S_S65x32 : S_.BroadcastsInDim S65x32 (![] : Fin 0 → Fin S65x32.rank)
  transposes_S65x32_S32x65_1_0 : S65x32.Transposes [1, 0] S32x65
  slices_S1048576x65_S1048576x1_0_0 : S1048576x65.Slices ![0, 0] S1048576x1
  slices_S1048576x65_S1048576x64_0_1 : S1048576x65.Slices ![0, 1] S1048576x64
  bcast_S_S1048576x64 : S_.BroadcastsInDim S1048576x64 (![] : Fin 0 → Fin S1048576x64.rank)
  slices_S3_S1_0 : S3.Slices ![0] S1
  shapeCasts_S1_S_ : S1.ShapeCasts S_
  bcast_S_S1048576x1 : S_.BroadcastsInDim S1048576x1 (![] : Fin 0 → Fin S1048576x1.rank)
  reducesTo_S64x64_S_d0_1 : S64x64.ReducesTo [0, 1] S_
  bcast_S_S64x64 : S_.BroadcastsInDim S64x64 (![] : Fin 0 → Fin S64x64.rank)
  transposes_S64x64_S64x64_1_0 : S64x64.Transposes [1, 0] S64x64
  slices_S3_S1_1 : S3.Slices ![1] S1
  slices_S3_S1_2 : S3.Slices ![2] S1
  bcast_S1048576x1_S1048576x64_0_1 : S1048576x1.BroadcastsInDim S1048576x64 (![0, 1] : Fin 2 → Fin S1048576x64.rank)
  reducesTo_S3x64_S_d0_1 : S3x64.ReducesTo [0, 1] S_
  bcast_S_S3x64 : S_.BroadcastsInDim S3x64 (![] : Fin 0 → Fin S3x64.rank)
  transposes_S3x64_S64x3_1_0 : S3x64.Transposes [1, 0] S64x3
  bcast_S_S1048576x3 : S_.BroadcastsInDim S1048576x3 (![] : Fin 0 → Fin S1048576x3.rank)
  dot_S1048576x32_S32x65_S1048576x65_1_0_0_1_n_n_wf : DotDims.WF S1048576x32 S32x65 S1048576x65 [1] [0] [0] [1] [] []
  dot_S1048576x64_S64x64_S1048576x64_1_0_0_1_n_n_wf : DotDims.WF S1048576x64 S64x64 S1048576x64 [1] [0] [0] [1] [] []
  dot_S1048576x64_S64x3_S1048576x3_1_0_0_1_n_n_wf : DotDims.WF S1048576x64 S64x3 S1048576x3 [1] [0] [0] [1] [] []

variable [Facts₀]

def dot_S1048576x32_S32x65_S1048576x65_1_0_0_1_n_n : DotDims S1048576x32 S32x65 S1048576x65 where
  lhsContracting := [1]
  rhsContracting := [0]
  lhsNonContracting := [0]
  rhsNonContracting := [1]
  lhsBatch := []
  rhsBatch := []
  wf := dot_S1048576x32_S32x65_S1048576x65_1_0_0_1_n_n_wf
def dot_S1048576x64_S64x64_S1048576x64_1_0_0_1_n_n : DotDims S1048576x64 S64x64 S1048576x64 where
  lhsContracting := [1]
  rhsContracting := [0]
  lhsNonContracting := [0]
  rhsNonContracting := [1]
  lhsBatch := []
  rhsBatch := []
  wf := dot_S1048576x64_S64x64_S1048576x64_1_0_0_1_n_n_wf
def dot_S1048576x64_S64x3_S1048576x3_1_0_0_1_n_n : DotDims S1048576x64 S64x3 S1048576x3 where
  lhsContracting := [1]
  rhsContracting := [0]
  lhsNonContracting := [0]
  rhsNonContracting := [1]
  lhsBatch := []
  rhsBatch := []
  wf := dot_S1048576x64_S64x3_S1048576x3_1_0_0_1_n_n_wf

class Facts : Prop extends Facts₀ where

variable [Facts]
-- ==== Proof.FrameK.lean ====
/-
  The frame of this program: @main is host operations, ONE region on a grid of 128 points, and one host operation after it.
  The region's body loads its seven input blocks whole, computes, and overwrites its output block whole (after a load of
  that block whose value it never uses).  So after the body at a point every input's staging buffer still holds the
  point's block of its array, and the output's holds one function of those seven blocks (`outBlock`).  With that as the
  proof data the pipeline's frame theorem runs @main: every array the region stages ends at what the write-backs leave,
  and every other buffer at what the host operations compute; no host operation writes an argument array, so each
  argument ends as it was launched.  Stated for any float instance `F`.
-/
import proofs.«160214_j15659450761872_2_alg».proof.Proof.Gen.Kernel.Launch
import proofs.«160214_j15659450761872_2_alg».proof.Proof.Gen.Kernel.Skeleton
import proofs.«160214_j15659450761872_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations before the region, stretch by stretch (a called function's operations are a stretch of their own). -/
abbrev preOps : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]

/-- Core `c`'s buffer contents when the region is entered: the launch memory after the host operations before the region. -/
abbrev V0 (c : Dev nD) : Valuation τ sig (Elt F) := StableHlo.after (List.flatten (preOps (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the operation after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (preOps (F := F)) [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩) main_chain

/-- The operation after the region touches unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array the region stages (it writes its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the operation after it: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the operation after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the operation after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the operation after it: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the operation after it: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the operation after it: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the operation after it: argument 6 ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the operation after it: argument 7 ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, the
    block index has not moved), for any proof data over these arrays whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (unfetched, the
    block index has not moved), for any proof data over these arrays whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (unfetched, the
    block index has not moved), for any proof data over these arrays whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (unfetched, the
    block index has not moved), for any proof data over these arrays whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not (unfetched, the
    block index has not moved), for any proof data over these arrays whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not (unfetched, the
    block index has not moved), for any proof data over these arrays whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not (unfetched, the
    block index has not moved), for any proof data over these arrays whose body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame claim from a frame run: each argument array is staged by no window, so the run's post reads it at what
    the operation after the region leaves, which is the launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c)⟩) h

/-! ## The body's accesses and what it leaves -/

abbrev r0 : Rect S2048x128 := Rect.unit (s := S2048x128) ![0, 0] S2048x128.size inb_S2048x128_S2048x128_0_0
abbrev r1 : Rect S128x256 := Rect.unit (s := S128x256) ![0, 0] S128x256.size inb_S128x256_S128x256_0_0
abbrev r2 : Rect S1x32 := Rect.unit (s := S1x32) ![0, 0] S1x32.size inb_S1x32_S1x32_0_0
abbrev r3 : Rect S256x256 := Rect.unit (s := S256x256) ![0, 0] S256x256.size inb_S256x256_S256x256_0_0
abbrev r4 : Rect S256x256 := Rect.unit (s := S256x256) ![0, 0] S256x256.size inb_S256x256_S256x256_0_0
abbrev r5 : Rect S256x12 := Rect.unit (s := S256x12) ![0, 0] S256x12.size inb_S256x12_S256x12_0_0
abbrev r6 : Rect S1x16 := Rect.unit (s := S1x16) ![0, 0] S1x16.size inb_S1x16_S1x16_0_0
abbrev r7 : Rect S2048x12 := Rect.unit (s := S2048x12) ![0, 0] S2048x12.size inb_S2048x12_S2048x12_0_0

/-- The output block after the body, as a function of the seven input blocks: the one store's value, the body's
    arithmetic over the loaded blocks. -/
def outBlock (x0 : Vec F S2048x128 .f32) (x1 : Vec F S128x256 .bf16) (x2 : Vec F S1x32 .f32) (x3 : Vec F S256x256 .bf16) (x4 : Vec F S256x256 .bf16) (x5 : Vec F S256x12 .bf16) (x6 : Vec F S1x16 .f32) : Vec F S2048x12 .f32 :=
  View.canon [⟨r7, k0_pay1 (k0_pay17 (View.ld x6 r6)) (k0_pay18 (View.ld x6 r6)) (k0_pay19 (View.ld x6 r6))
    (k0_pay23 (k0_pay6 (View.ld x3 r3)) (k0_pay7 (View.ld x4 r4)) (k0_pay8 (View.ld x5 r5)) (k0_pay10 (View.ld x6 r6)) (k0_pay11 (View.ld x6 r6)) (k0_pay12 (View.ld x6 r6)) (k0_pay13 (View.ld x6 r6)) (k0_pay14 (View.ld x6 r6)) (k0_pay15 (View.ld x6 r6)) (k0_pay16 (View.ld x6 r6))
      (k0_pay21 (k0_pay2 (View.ld x0 r0)) (k0_pay5 (View.ld x2 r2)) (k0_pay20 (View.ld x0 r0) (View.ld x2 r2)) (Scalar.ofBits .f32 0x3F800000#32))
      (k0_pay22 (k0_pay3 (View.ld x0 r0)) (k0_pay4 (View.ld x1 r1))))
    (Scalar.ofBits .f32 0x42FE0000#32) (k0_pay24 (F := F))⟩]

/-- The one store covers the output block. -/
theorem cover7 (p0 : Vec F S2048x12 .f32) (y : S2048x12.Idx) :
    ∃ pc ∈ ([⟨r7, p0⟩] : List (View.Piece (Elt F) S2048x12 .f32)), y ∈ pc.1.set :=
  View.cover_of_tiled [⟨r7, p0⟩] S2048x12.size (by rfl) y

/-! ## The body's triple -/

set_option maxHeartbeats 4000000 in
/-- The body on whole staging buffers, the inputs' at contents `xW` and the output's at anything, runs to the
    continuation with the inputs' as they were and the output's at `outBlock` of them. -/
theorem sound_kernel (c : Dev nD) (E : Set ℕ) (i : grid0.Coords)
    (arg1 : Memref sig .tc .vmem S2048x128 .f32) (harg1 : arg1.IsWhole)
    (arg2 : Memref sig .tc .vmem S128x256 .bf16) (harg2 : arg2.IsWhole)
    (arg3 : Memref sig .tc .vmem S1x32 .f32) (harg3 : arg3.IsWhole)
    (arg4 : Memref sig .tc .vmem S256x256 .bf16) (harg4 : arg4.IsWhole)
    (arg5 : Memref sig .tc .vmem S256x256 .bf16) (harg5 : arg5.IsWhole)
    (arg6 : Memref sig .tc .vmem S256x12 .bf16) (harg6 : arg6.IsWhole)
    (arg7 : Memref sig .tc .vmem S1x16 .f32) (harg7 : arg7.IsWhole)
    (arg8 : Memref sig .tc .vmem S2048x12 .f32) (harg8 : arg8.IsWhole)
    (x0 : Vec F S2048x128 .f32) (x1 : Vec F S128x256 .bf16) (x2 : Vec F S1x32 .f32) (x3 : Vec F S256x256 .bf16) (x4 : Vec F S256x256 .bf16) (x5 : Vec F S256x12 .bf16) (x6 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (outBlock x0 x1 x2 x3 x4 x5 x6)) -∗ K ⟨⟩))
      ⊢ wp frame (wpE (defs₀ (F := F)) Variants.none c none) E (cc0__qcolor_kernel i arg1 harg1 arg2 harg2 arg3 harg3 arg4 harg4 arg5 harg5 arg6 harg6 arg7 harg7 arg8 harg8) K := by
  simp only [cc0__qcolor_kernel_eq_skeleton]; unfold cc0__qcolor_kernel_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover7 _)

/-! ## The pipeline's proof data -/

/-- The proof data on core `c`: the arrays as the region finds them; after the body at point `t` each input's buffer at
    its block and the output's at `outBlock` of the input blocks; the invariant the scoped rest, untouched; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlock (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outBlock (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and in every final state each array the region stages holds what
    the write-backs leave and every other unscoped buffer what the operation after the region leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (run_main m ρ)

end Cert.Kernel.Fr

end
-- ==== Proof.FrameKI.lean ====
/-
  The frame of this program: @main is host operations, ONE region on a grid of 128 points, and one host operation after it.
  The region's body loads its seven input blocks whole, computes, and overwrites its output block whole (after a load of
  that block whose value it never uses).  So after the body at a point every input's staging buffer still holds the
  point's block of its array, and the output's holds one function of those seven blocks (`outBlock`).  With that as the
  proof data the pipeline's frame theorem runs @main: every array the region stages ends at what the write-backs leave,
  and every other buffer at what the host operations compute; no host operation writes an argument array, so each
  argument ends as it was launched.  Stated for any float instance `F`.
-/
import proofs.«160214_j15659450761872_2_alg».proof.Proof.Gen.KernelIdeal.Launch
import proofs.«160214_j15659450761872_2_alg».proof.Proof.Gen.KernelIdeal.Skeleton
import proofs.«160214_j15659450761872_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations before the region, stretch by stretch (a called function's operations are a stretch of their own). -/
abbrev preOps : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]

/-- Core `c`'s buffer contents when the region is entered: the launch memory after the host operations before the region. -/
abbrev V0 (c : Dev nD) : Valuation τ sig (Elt F) := StableHlo.after (List.flatten (preOps (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the operation after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (preOps (F := F)) [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩) main_chain

/-- The operation after the region touches unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array the region stages (it writes its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the operation after it: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the operation after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the operation after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the operation after it: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the operation after it: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the operation after it: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the operation after it: argument 6 ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the operation after it: argument 7 ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, the
    block index has not moved), for any proof data over these arrays whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (unfetched, the
    block index has not moved), for any proof data over these arrays whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (unfetched, the
    block index has not moved), for any proof data over these arrays whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (unfetched, the
    block index has not moved), for any proof data over these arrays whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not (unfetched, the
    block index has not moved), for any proof data over these arrays whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not (unfetched, the
    block index has not moved), for any proof data over these arrays whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not (unfetched, the
    block index has not moved), for any proof data over these arrays whose body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame claim from a frame run: each argument array is staged by no window, so the run's post reads it at what
    the operation after the region leaves, which is the launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c)⟩) h

/-! ## The body's accesses and what it leaves -/

abbrev r0 : Rect S2048x128 := Rect.unit (s := S2048x128) ![0, 0] S2048x128.size inb_S2048x128_S2048x128_0_0
abbrev r1 : Rect S128x256 := Rect.unit (s := S128x256) ![0, 0] S128x256.size inb_S128x256_S128x256_0_0
abbrev r2 : Rect S1x32 := Rect.unit (s := S1x32) ![0, 0] S1x32.size inb_S1x32_S1x32_0_0
abbrev r3 : Rect S256x256 := Rect.unit (s := S256x256) ![0, 0] S256x256.size inb_S256x256_S256x256_0_0
abbrev r4 : Rect S256x256 := Rect.unit (s := S256x256) ![0, 0] S256x256.size inb_S256x256_S256x256_0_0
abbrev r5 : Rect S256x12 := Rect.unit (s := S256x12) ![0, 0] S256x12.size inb_S256x12_S256x12_0_0
abbrev r6 : Rect S1x16 := Rect.unit (s := S1x16) ![0, 0] S1x16.size inb_S1x16_S1x16_0_0
abbrev r7 : Rect S2048x12 := Rect.unit (s := S2048x12) ![0, 0] S2048x12.size inb_S2048x12_S2048x12_0_0

/-- The output block after the body, as a function of the seven input blocks: the one store's value, the body's
    arithmetic over the loaded blocks. -/
def outBlock (x0 : Vec F S2048x128 .f32) (x1 : Vec F S128x256 .bf16) (x2 : Vec F S1x32 .f32) (x3 : Vec F S256x256 .bf16) (x4 : Vec F S256x256 .bf16) (x5 : Vec F S256x12 .bf16) (x6 : Vec F S1x16 .f32) : Vec F S2048x12 .f32 :=
  View.canon [⟨r7, k0_pay1 (k0_pay17 (View.ld x6 r6)) (k0_pay18 (View.ld x6 r6)) (k0_pay19 (View.ld x6 r6))
    (k0_pay23 (k0_pay6 (View.ld x3 r3)) (k0_pay7 (View.ld x4 r4)) (k0_pay8 (View.ld x5 r5)) (k0_pay10 (View.ld x6 r6)) (k0_pay11 (View.ld x6 r6)) (k0_pay12 (View.ld x6 r6)) (k0_pay13 (View.ld x6 r6)) (k0_pay14 (View.ld x6 r6)) (k0_pay15 (View.ld x6 r6)) (k0_pay16 (View.ld x6 r6))
      (k0_pay21 (k0_pay2 (View.ld x0 r0)) (k0_pay5 (View.ld x2 r2)) (k0_pay20 (View.ld x0 r0) (View.ld x2 r2)) (Scalar.ofBits .f32 0x3F800000#32))
      (k0_pay22 (k0_pay3 (View.ld x0 r0)) (k0_pay4 (View.ld x1 r1))))
    (Scalar.ofBits .f32 0x42FE0000#32) (k0_pay24 (F := F))⟩]

/-- The one store covers the output block. -/
theorem cover7 (p0 : Vec F S2048x12 .f32) (y : S2048x12.Idx) :
    ∃ pc ∈ ([⟨r7, p0⟩] : List (View.Piece (Elt F) S2048x12 .f32)), y ∈ pc.1.set :=
  View.cover_of_tiled [⟨r7, p0⟩] S2048x12.size (by rfl) y

/-! ## The body's triple -/

set_option maxHeartbeats 4000000 in
/-- The body on whole staging buffers, the inputs' at contents `xW` and the output's at anything, runs to the
    continuation with the inputs' as they were and the output's at `outBlock` of them. -/
theorem sound_kernel (c : Dev nD) (E : Set ℕ) (i : grid0.Coords)
    (arg1 : Memref sig .tc .vmem S2048x128 .f32) (harg1 : arg1.IsWhole)
    (arg2 : Memref sig .tc .vmem S128x256 .bf16) (harg2 : arg2.IsWhole)
    (arg3 : Memref sig .tc .vmem S1x32 .f32) (harg3 : arg3.IsWhole)
    (arg4 : Memref sig .tc .vmem S256x256 .bf16) (harg4 : arg4.IsWhole)
    (arg5 : Memref sig .tc .vmem S256x256 .bf16) (harg5 : arg5.IsWhole)
    (arg6 : Memref sig .tc .vmem S256x12 .bf16) (harg6 : arg6.IsWhole)
    (arg7 : Memref sig .tc .vmem S1x16 .f32) (harg7 : arg7.IsWhole)
    (arg8 : Memref sig .tc .vmem S2048x12 .f32) (harg8 : arg8.IsWhole)
    (x0 : Vec F S2048x128 .f32) (x1 : Vec F S128x256 .bf16) (x2 : Vec F S1x32 .f32) (x3 : Vec F S256x256 .bf16) (x4 : Vec F S256x256 .bf16) (x5 : Vec F S256x12 .bf16) (x6 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (outBlock x0 x1 x2 x3 x4 x5 x6)) -∗ K ⟨⟩))
      ⊢ wp frame (wpE (defs₀ (F := F)) Variants.none c none) E (cc0__qcolor_kernel i arg1 harg1 arg2 harg2 arg3 harg3 arg4 harg4 arg5 harg5 arg6 harg6 arg7 harg7 arg8 harg8) K := by
  simp only [cc0__qcolor_kernel_eq_skeleton]; unfold cc0__qcolor_kernel_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover7 _)

/-! ## The pipeline's proof data -/

/-- The proof data on core `c`: the arrays as the region finds them; after the body at point `t` each input's buffer at
    its block and the output's at `outBlock` of the input blocks; the invariant the scoped rest, untouched; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlock (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outBlock (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and in every final state each array the region stages holds what
    the write-backs leave and every other unscoped buffer what the operation after the region leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (run_main m ρ)

end Cert.KernelIdeal.Fr

end
-- ==== Proof.Spec.lean ====
/-
  The network both programs compute, one logical row at a time, on the extended reals.

  A row `x` of 32 numbers goes through a linear layer with 65 outputs; output 0 is the routing score, outputs 1..64 are
  rectified and fake-quantized (`r0`).  Two more linear layers of width 64, each rectified and fake-quantized, give
  `a2`.  Where the routing score is nonnegative the row continues with `a2`, elsewhere with `r0`.  A last linear layer
  with 3 outputs is fake-quantized (signed), passed through the logistic function and fake-quantized again.

  The two programs spell three things differently, and each spelling is written down here as it is computed:
  * fake-quantizing `x` at scale `s`: the kernel rounds `x · (1/s)`, the reference rounds `x / s` through
    `q + (round q − q)`;
  * the routing test: the kernel compares the score with 0, the reference compares its logistic with 1/2;
  * the choice: the kernel blends with a 0/1 factor, the reference selects.
  The kernel also runs four rows at once against block-diagonal weights (`blockNet`).
-/
import Idealize.ShloMosaic.PureOps.Ideal

noncomputable section

namespace Cert.QNet

open Idealize.ShloMosaic

/-- Round to nearest, ties to even, on the extended reals. -/
abbrev RE (x : EReal) : EReal := Ideal.liftRound Ideal.roundHalfEven x

abbrev c0 : EReal := Ideal.ofBits .f32 0x00000000#32
abbrev c1 : EReal := Ideal.ofBits .f32 0x3F800000#32
abbrev chalf : EReal := Ideal.ofBits .f32 0x3F000000#32
abbrev c127 : EReal := Ideal.ofBits .f32 0x42FE0000#32
abbrev cm127 : EReal := Ideal.ofBits .f32 0xC2FE0000#32
abbrev c255 : EReal := Ideal.ofBits .f32 0x437F0000#32

/-- Fake-quantize with the reciprocal scale given: clamp the rounded product, scale back. -/
def fqRaw (lo hi x inv s : EReal) : EReal := min hi (max lo (RE (x * inv))) * s
/-- The kernel's fake-quantize at scale `s`: the reciprocal is `1 / s`. -/
def fqK (lo hi x s : EReal) : EReal := fqRaw lo hi x (Ideal.div c1 s) s
/-- The reference's: the quotient rounded through `q + (round q − q)`. -/
def fqR (lo hi x s : EReal) : EReal :=
  min hi (max lo (Ideal.div x s + (RE (Ideal.div x s) - Ideal.div x s))) * s
/-- A weight fake-quantized at the tensor's scale `s`, the kernel's way (round the quotient). -/
def qwK (w s : EReal) : EReal := min c127 (max cm127 (RE (Ideal.div w s))) * s
/-- And the reference's way. -/
def qwR (w s : EReal) : EReal :=
  min c127 (max cm127 (Ideal.div w s + (RE (Ideal.div w s) - Ideal.div w s))) * s

/-- The first layer's output `j` of a row. -/
def pre0 (W0 : Fin 65 → Fin 32 → EReal) (x : Fin 32 → EReal) (j : Fin 65) : EReal := ∑ k, x k * W0 j k
/-- A width-64 layer's output `k`. -/
def lin64 (W : Fin 64 → Fin 64 → EReal) (a : Fin 64 → EReal) (k : Fin 64) : EReal := ∑ j, a j * W k j
/-- The last layer's output `o`. -/
def lin3 (W : Fin 3 → Fin 64 → EReal) (a : Fin 64 → EReal) (o : Fin 3) : EReal := ∑ j, a j * W o j

/-- The kernel's network on one row, with the reciprocal scales given (`cs`: 1/s0, 1/s1, 1/s2, s0, s1, s2, 1/s_in, s_in,
    1/s_out, s_out at positions 0..9). -/
def netRaw (W0 : Fin 65 → Fin 32 → EReal) (W1 W2 : Fin 64 → Fin 64 → EReal) (W3 : Fin 3 → Fin 64 → EReal)
    (cs : Fin 16 → EReal) (x : Fin 32 → EReal) (o : Fin 3) : EReal :=
  let r0 : Fin 64 → EReal := fun k => fqRaw c0 c255 (max (pre0 W0 x k.succ) c0) (cs 0) (cs 3)
  let mk : EReal := Scalar.select (Ideal.cmp .oge (pre0 W0 x 0) c0) c1 c0
  let a1 : Fin 64 → EReal := fun k => fqRaw c0 c255 (max (lin64 W1 r0 k) c0) (cs 1) (cs 4)
  let a2 : Fin 64 → EReal := fun k => fqRaw c0 c255 (max (lin64 W2 a1 k) c0) (cs 2) (cs 5)
  let rr : Fin 64 → EReal := fun k => mk * a2 k + (c1 - mk) * r0 k
  let y : EReal := fqRaw cm127 c127 (lin3 W3 rr o) (cs 6) (cs 7)
  fqRaw c0 c255 (Ideal.logistic y) (cs 8) (cs 9)

/-- The table of scales the kernel is handed. -/
def scales (s0 s1 s2 si so : EReal) : Fin 16 → EReal :=
  ![Ideal.div c1 s0, Ideal.div c1 s1, Ideal.div c1 s2, s0, s1, s2, Ideal.div c1 si, si, Ideal.div c1 so, so,
    c0, c0, c0, c0, c0, c0]

/-- The kernel's network on one row at the scales `s0 s1 s2 si so`. -/
def netK (W0 : Fin 65 → Fin 32 → EReal) (W1 W2 : Fin 64 → Fin 64 → EReal) (W3 : Fin 3 → Fin 64 → EReal)
    (s0 s1 s2 si so : EReal) (x : Fin 32 → EReal) (o : Fin 3) : EReal :=
  netRaw W0 W1 W2 W3 (scales s0 s1 s2 si so) x o

/-- The reference's network on one row. -/
def netR (W0 : Fin 65 → Fin 32 → EReal) (W1 W2 : Fin 64 → Fin 64 → EReal) (W3 : Fin 3 → Fin 64 → EReal)
    (s0 s1 s2 si so : EReal) (x : Fin 32 → EReal) (o : Fin 3) : EReal :=
  let r0 : Fin 64 → EReal := fun k => fqR c0 c255 (max (pre0 W0 x k.succ) c0) s0
  let g : BitVec 1 := Ideal.cmp .oge (Ideal.div c1 (c1 + Ideal.exp (-(pre0 W0 x 0)))) chalf
  let a1 : Fin 64 → EReal := fun k => fqR c0 c255 (max (lin64 W1 r0 k) c0) s1
  let a2 : Fin 64 → EReal := fun k => fqR c0 c255 (max (lin64 W2 a1 k) c0) s2
  let rr : Fin 64 → EReal := fun k => Scalar.select g (a2 k) (r0 k)
  let y : EReal := fqR cm127 c127 (lin3 W3 rr o) si
  fqR c0 c255 (Ideal.div c1 (c1 + Ideal.exp (-y))) so

/-! ## Four rows at once -/

/-- What the kernel computes for one PACKED row `X` (four logical rows side by side, 128 numbers) against packed
    weights: `B0` 128×256, `al` the routing row (32 numbers, applied to each 32-lane group), `B1 B2` 256×256,
    `B3` 256×12, and the table of scales `cs`; output column `q` of 12. -/
def blockNet (X : Fin 128 → EReal) (B0 : Fin 128 → Fin 256 → EReal) (al : Fin 32 → EReal)
    (B1 B2 : Fin 256 → Fin 256 → EReal) (B3 : Fin 256 → Fin 12 → EReal) (cs : Fin 16 → EReal) (q : Fin 12) : EReal :=
  let r0 : Fin 256 → EReal := fun k => fqRaw c0 c255 (max (∑ j, X j * B0 j k) c0) (cs 0) (cs 3)
  let mk : Fin 256 → EReal := fun k =>
    Scalar.select (Ideal.cmp .oge (∑ j : Fin 32, X ⟨32 * (k.val / 64) + j.val, by omega⟩ * al j) c0) c1 c0
  let a1 : Fin 256 → EReal := fun k => fqRaw c0 c255 (max (∑ j, r0 j * B1 j k) c0) (cs 1) (cs 4)
  let a2 : Fin 256 → EReal := fun k => fqRaw c0 c255 (max (∑ j, a1 j * B2 j k) c0) (cs 2) (cs 5)
  let rr : Fin 256 → EReal := fun k => mk k * a2 k + (c1 - mk k) * r0 k
  let y : EReal := fqRaw cm127 c127 (∑ j, rr j * B3 j q) (cs 6) (cs 7)
  fqRaw c0 c255 (Ideal.logistic y) (cs 8) (cs 9)

/-- A matrix `W` (rows `a`, columns `b`) repeated four times along the diagonal, zero elsewhere: entry `(j, k)` of the
    `4a × 4b` matrix is `W (j mod a) (k mod b)` when `j / a = k / b`. -/
def bdiag {a b : Nat} (W : Fin a → Fin b → EReal) (ha : 0 < a) (hb : 0 < b) (j : Fin (4 * a)) (k : Fin (4 * b)) : EReal :=
  if j.val / a = k.val / b then W ⟨j.val % a, Nat.mod_lt _ ha⟩ ⟨k.val % b, Nat.mod_lt _ hb⟩ else 0

end Cert.QNet

end
-- ==== Proof.BlockDiag.lean ====
import proofs.«160214_j15659450761872_2_alg».proof.Proof.Spec

/-!
# Four rows at once against block-diagonal weights

`blockNet` (Spec) pushes a packed row — four logical rows of 32 numbers side by side — through weights
that repeat each layer's matrix four times along the diagonal and are zero elsewhere. Because a product
with `0` is `0` and adding `0` changes nothing on the extended reals (infinities included), every sum
over the 128 or 256 packed lanes is the sum over the one block that is not zero, so each group of lanes
carries exactly the one-row network `netRaw` of its own logical row. Nothing here needs a value to be
finite.

The packed matrices are indexed `[input lane, output lane]`, the logical ones `[output, input]`.
-/

noncomputable section

namespace Cert.QNet

open Idealize.ShloMosaic

/-! ### A sum supported on one block of four -/

/-- A function on `4 · n` lanes that vanishes off block `b` sums to its sum over block `b`. -/
theorem sum_block {n : ℕ} (f : Fin (4 * n) → EReal) (b : Fin 4)
    (hf : ∀ j : Fin (4 * n), j.val / n ≠ b.val → f j = 0) :
    ∑ j, f j = ∑ j' : Fin n, f (finProdFinEquiv (b, j')) := by
  rw [← Equiv.sum_comp finProdFinEquiv f, Fintype.sum_prod_type]
  refine Finset.sum_eq_single b (fun b' _ hne => Finset.sum_eq_zero fun j' _ => hf _ ?_)
    (fun h => absurd (Finset.mem_univ b) h)
  have hn : 0 < n := Nat.pos_of_ne_zero fun h => by subst h; exact j'.elim0
  show (j'.val + n * b'.val) / n ≠ b.val
  rw [Nat.add_mul_div_left _ _ hn, Nat.div_eq_of_lt j'.isLt, Nat.zero_add]
  exact fun h => hne (Fin.ext h)

/-- The same on 128 lanes in blocks of 32. -/
theorem sum_block_128 (f : Fin 128 → EReal) (b : Fin 4)
    (hf : ∀ j : Fin 128, j.val / 32 ≠ b.val → f j = 0) :
    ∑ j, f j = ∑ j' : Fin 32, f ⟨32 * b.val + j'.val, by omega⟩ := by
  refine (sum_block (n := 32) f b hf).trans ?_
  exact Finset.sum_congr rfl fun j' _ => congrArg f (Fin.ext (Nat.add_comm _ _))

/-- The same on 256 lanes in blocks of 64. -/
theorem sum_block_256 (f : Fin 256 → EReal) (b : Fin 4)
    (hf : ∀ j : Fin 256, j.val / 64 ≠ b.val → f j = 0) :
    ∑ j, f j = ∑ j' : Fin 64, f ⟨64 * b.val + j'.val, by omega⟩ := by
  refine (sum_block (n := 64) f b hf).trans ?_
  exact Finset.sum_congr rfl fun j' _ => congrArg f (Fin.ext (Nat.add_comm _ _))

/-! ### Lanes, rows and the packed weights -/

/-- The group of four a lane of 256 belongs to. -/
def blk (k : Fin 256) : Fin 4 := ⟨k.val / 64, by omega⟩
/-- A lane's position within its group. -/
def lane (k : Fin 256) : Fin 64 := ⟨k.val % 64, by omega⟩
/-- Logical row `i` of a packed row. -/
def row (X : Fin 128 → EReal) (i : Fin 4) : Fin 32 → EReal := fun k => X ⟨32 * i.val + k.val, by omega⟩

/-- The first layer's hidden outputs `1..64`, four times along the diagonal (transposed). -/
def pack0 (W0 : Fin 65 → Fin 32 → EReal) : Fin 128 → Fin 256 → EReal := fun j k =>
  if j.val / 32 = k.val / 64 then W0 ⟨1 + k.val % 64, by omega⟩ ⟨j.val % 32, by omega⟩ else 0
/-- A width-64 layer, four times along the diagonal (transposed). -/
def pack64 (W : Fin 64 → Fin 64 → EReal) : Fin 256 → Fin 256 → EReal := fun j k =>
  if j.val / 64 = k.val / 64 then W ⟨k.val % 64, by omega⟩ ⟨j.val % 64, by omega⟩ else 0
/-- The last layer, four times along the diagonal (transposed). -/
def pack3 (W3 : Fin 3 → Fin 64 → EReal) : Fin 256 → Fin 12 → EReal := fun j q =>
  if j.val / 64 = q.val / 3 then W3 ⟨q.val % 3, by omega⟩ ⟨j.val % 64, by omega⟩ else 0

theorem blk_mk (b : Fin 4) (l : Fin 64) (h : 64 * b.val + l.val < 256) : blk ⟨64 * b.val + l.val, h⟩ = b :=
  Fin.ext (by show (64 * b.val + l.val) / 64 = b.val; omega)

theorem lane_mk (b : Fin 4) (l : Fin 64) (h : 64 * b.val + l.val < 256) : lane ⟨64 * b.val + l.val, h⟩ = l :=
  Fin.ext (by show (64 * b.val + l.val) % 64 = l.val; omega)

/-! ### The three contractions -/

/-- The packed first layer at lane `k` is the logical first layer of `k`'s row at `k`'s position. -/
theorem sum_pack0 (W0 : Fin 65 → Fin 32 → EReal) (X : Fin 128 → EReal) (k : Fin 256) :
    ∑ j, X j * pack0 W0 j k = pre0 W0 (row X (blk k)) (lane k).succ := by
  refine (sum_block_128 _ (blk k) fun j hj => ?_).trans ?_
  · show X j * (if j.val / 32 = k.val / 64 then _ else 0) = 0
    rw [if_neg (show ¬ (j.val / 32 = k.val / 64) from hj), mul_zero]
  · refine Finset.sum_congr rfl fun j' _ => ?_
    show X ⟨32 * (k.val / 64) + j'.val, _⟩ * pack0 W0 ⟨32 * (k.val / 64) + j'.val, _⟩ k
      = X ⟨32 * (k.val / 64) + j'.val, _⟩ * W0 (lane k).succ j'
    congr 1
    unfold pack0
    rw [if_pos (by show (32 * (k.val / 64) + j'.val) / 32 = k.val / 64; omega)]
    congr 1
    · exact Fin.ext (by show 1 + k.val % 64 = k.val % 64 + 1; omega)
    · exact Fin.ext (by show (32 * (k.val / 64) + j'.val) % 32 = j'.val; omega)

/-- A packed width-64 layer at lane `k`, fed group-wise activations, is the logical layer of `k`'s group. -/
theorem sum_pack64 (W : Fin 64 → Fin 64 → EReal) (A : Fin 4 → Fin 64 → EReal) (k : Fin 256) :
    ∑ j, A (blk j) (lane j) * pack64 W j k = lin64 W (A (blk k)) (lane k) := by
  refine (sum_block_256 _ (blk k) fun j hj => ?_).trans ?_
  · show A (blk j) (lane j) * (if j.val / 64 = k.val / 64 then _ else 0) = 0
    rw [if_neg (show ¬ (j.val / 64 = k.val / 64) from hj), mul_zero]
  · refine Finset.sum_congr rfl fun j' _ => ?_
    rw [blk_mk, lane_mk]
    congr 1
    unfold pack64
    rw [if_pos (by show (64 * (blk k).val + j'.val) / 64 = k.val / 64; show (64 * (k.val / 64) + j'.val) / 64 = k.val / 64; omega)]
    congr 1
    exact Fin.ext (by show (64 * (k.val / 64) + j'.val) % 64 = j'.val; omega)

/-- The packed last layer at output `3 i + o`, fed group-wise activations, is the logical last layer of
    group `i` at output `o`. -/
theorem sum_pack3 (W3 : Fin 3 → Fin 64 → EReal) (A : Fin 4 → Fin 64 → EReal) (i : Fin 4) (o : Fin 3)
    (h : 3 * i.val + o.val < 12) :
    ∑ j, A (blk j) (lane j) * pack3 W3 j ⟨3 * i.val + o.val, h⟩ = lin3 W3 (A i) o := by
  refine (sum_block_256 _ i fun j hj => ?_).trans ?_
  · show A (blk j) (lane j) * (if j.val / 64 = (3 * i.val + o.val) / 3 then _ else 0) = 0
    rw [if_neg (by omega), mul_zero]
  · refine Finset.sum_congr rfl fun j' _ => ?_
    rw [blk_mk, lane_mk]
    congr 1
    unfold pack3
    rw [if_pos (by show (64 * i.val + j'.val) / 64 = (3 * i.val + o.val) / 3; omega)]
    congr 1
    · exact Fin.ext (by show (3 * i.val + o.val) % 3 = o.val; omega)
    · exact Fin.ext (by show (64 * i.val + j'.val) % 64 = j'.val; omega)

/-! ### The layers, named -/

/-- One row's first hidden layer. -/
def r0Raw (W0 : Fin 65 → Fin 32 → EReal) (cs : Fin 16 → EReal) (x : Fin 32 → EReal) : Fin 64 → EReal :=
  fun k => fqRaw c0 c255 (max (pre0 W0 x k.succ) c0) (cs 0) (cs 3)
/-- One row's `0/1` routing factor. -/
def mkRaw (W0 : Fin 65 → Fin 32 → EReal) (x : Fin 32 → EReal) : EReal :=
  Scalar.select (Ideal.cmp .oge (pre0 W0 x 0) c0) c1 c0
/-- One row's width-64 layer, with the scales at positions `a`, `b` of the table. -/
def layRaw (W : Fin 64 → Fin 64 → EReal) (cs : Fin 16 → EReal) (a b : Fin 16) (v : Fin 64 → EReal) :
    Fin 64 → EReal := fun k => fqRaw c0 c255 (max (lin64 W v k) c0) (cs a) (cs b)
/-- One row's blend. -/
def rrRaw (m : EReal) (a2 r0 : Fin 64 → EReal) : Fin 64 → EReal := fun k => m * a2 k + (c1 - m) * r0 k

/-- The one-row network over the named layers. -/
theorem netRaw_eq (W0 : Fin 65 → Fin 32 → EReal) (W1 W2 : Fin 64 → Fin 64 → EReal) (W3 : Fin 3 → Fin 64 → EReal)
    (cs : Fin 16 → EReal) (x : Fin 32 → EReal) (o : Fin 3) :
    netRaw W0 W1 W2 W3 cs x o
      = fqRaw c0 c255 (Ideal.logistic (fqRaw cm127 c127
          (lin3 W3 (rrRaw (mkRaw W0 x) (layRaw W2 cs 2 5 (layRaw W1 cs 1 4 (r0Raw W0 cs x))) (r0Raw W0 cs x)) o)
          (cs 6) (cs 7))) (cs 8) (cs 9) := rfl

/-- The packed first hidden layer. -/
def r0Blk (X : Fin 128 → EReal) (B0 : Fin 128 → Fin 256 → EReal) (cs : Fin 16 → EReal) : Fin 256 → EReal :=
  fun k => fqRaw c0 c255 (max (∑ j, X j * B0 j k) c0) (cs 0) (cs 3)
/-- The packed routing factors. -/
def mkBlk (X : Fin 128 → EReal) (al : Fin 32 → EReal) : Fin 256 → EReal := fun k =>
  Scalar.select (Ideal.cmp .oge (∑ j : Fin 32, X ⟨32 * (k.val / 64) + j.val, by omega⟩ * al j) c0) c1 c0
/-- A packed width-64 layer. -/
def layBlk (B : Fin 256 → Fin 256 → EReal) (cs : Fin 16 → EReal) (a b : Fin 16) (v : Fin 256 → EReal) :
    Fin 256 → EReal := fun k => fqRaw c0 c255 (max (∑ j, v j * B j k) c0) (cs a) (cs b)
/-- The packed blend. -/
def rrBlk (mk a2 r0 : Fin 256 → EReal) : Fin 256 → EReal := fun k => mk k * a2 k + (c1 - mk k) * r0 k

/-- The packed network over the named layers. -/
theorem blockNet_eq (X : Fin 128 → EReal) (B0 : Fin 128 → Fin 256 → EReal) (al : Fin 32 → EReal)
    (B1 B2 : Fin 256 → Fin 256 → EReal) (B3 : Fin 256 → Fin 12 → EReal) (cs : Fin 16 → EReal) (q : Fin 12) :
    blockNet X B0 al B1 B2 B3 cs q
      = fqRaw c0 c255 (Ideal.logistic (fqRaw cm127 c127
          (∑ j, rrBlk (mkBlk X al) (layBlk B2 cs 2 5 (layBlk B1 cs 1 4 (r0Blk X B0 cs))) (r0Blk X B0 cs) j * B3 j q)
          (cs 6) (cs 7))) (cs 8) (cs 9) := rfl

/-! ### Layer by layer -/

theorem r0Blk_pack (W0 : Fin 65 → Fin 32 → EReal) (cs : Fin 16 → EReal) (X : Fin 128 → EReal) :
    r0Blk X (pack0 W0) cs = fun k => r0Raw W0 cs (row X (blk k)) (lane k) := by
  funext k
  show fqRaw c0 c255 (max (∑ j, X j * pack0 W0 j k) c0) (cs 0) (cs 3) = _
  rw [sum_pack0]
  rfl

theorem mkBlk_pack (W0 : Fin 65 → Fin 32 → EReal) (X : Fin 128 → EReal) :
    mkBlk X (W0 0) = fun k => mkRaw W0 (row X (blk k)) := rfl

theorem layBlk_pack (W : Fin 64 → Fin 64 → EReal) (cs : Fin 16 → EReal) (a b : Fin 16)
    (A : Fin 4 → Fin 64 → EReal) :
    layBlk (pack64 W) cs a b (fun k => A (blk k) (lane k)) = fun k => layRaw W cs a b (A (blk k)) (lane k) := by
  funext k
  show fqRaw c0 c255 (max (∑ j, A (blk j) (lane j) * pack64 W j k) c0) (cs a) (cs b) = _
  rw [sum_pack64]
  rfl

/-! ### The statement -/

/-- Four rows at once against the packed weights is the one-row network on each group: output
    `3 i + o` of the packed network is output `o` of `netRaw` on logical row `i`. -/
theorem blockNet_pack (W0 : Fin 65 → Fin 32 → EReal) (W1 W2 : Fin 64 → Fin 64 → EReal)
    (W3 : Fin 3 → Fin 64 → EReal) (cs : Fin 16 → EReal) (X : Fin 128 → EReal) (i : Fin 4) (o : Fin 3)
    (h : 3 * i.val + o.val < 12) :
    blockNet X (pack0 W0) (W0 0) (pack64 W1) (pack64 W2) (pack3 W3) cs ⟨3 * i.val + o.val, h⟩
      = netRaw W0 W1 W2 W3 cs (row X i) o := by
  rw [blockNet_eq, netRaw_eq, r0Blk_pack, mkBlk_pack]
  rw [layBlk_pack W1 cs 1 4 (fun b => r0Raw W0 cs (row X b))]
  rw [layBlk_pack W2 cs 2 5 (fun b => layRaw W1 cs 1 4 (r0Raw W0 cs (row X b)))]
  exact congrArg (fun s => fqRaw c0 c255 (Ideal.logistic (fqRaw cm127 c127 s (cs 6) (cs 7))) (cs 8) (cs 9))
    (sum_pack3 W3 (fun b => rrRaw (mkRaw W0 (row X b))
      (layRaw W2 cs 2 5 (layRaw W1 cs 1 4 (r0Raw W0 cs (row X b)))) (r0Raw W0 cs (row X b))) i o h)

/-- The same with the packed weights written out. -/
theorem blockNet_blockDiag (W0 : Fin 65 → Fin 32 → EReal) (W1 W2 : Fin 64 → Fin 64 → EReal)
    (W3 : Fin 3 → Fin 64 → EReal) (cs : Fin 16 → EReal) (X : Fin 128 → EReal) (i : Fin 4) (o : Fin 3) :
    blockNet X
        (fun j k => if j.val / 32 = k.val / 64 then W0 ⟨1 + k.val % 64, by omega⟩ ⟨j.val % 32, by omega⟩ else 0)
        (W0 0)
        (fun j k => if j.val / 64 = k.val / 64 then W1 ⟨k.val % 64, by omega⟩ ⟨j.val % 64, by omega⟩ else 0)
        (fun j k => if j.val / 64 = k.val / 64 then W2 ⟨k.val % 64, by omega⟩ ⟨j.val % 64, by omega⟩ else 0)
        (fun j q => if j.val / 64 = q.val / 3 then W3 ⟨q.val % 3, by omega⟩ ⟨j.val % 64, by omega⟩ else 0)
        cs ⟨3 * i.val + o.val, by omega⟩
      = netRaw W0 W1 W2 W3 cs (fun k => X ⟨32 * i.val + k.val, by omega⟩) o :=
  blockNet_pack W0 W1 W2 W3 cs X i o _

end Cert.QNet

end
-- ==== Proof.KPayload.lean ====
/-
  The output block of the kernel body, entry by entry.

  The body loads seven whole blocks — 2048 packed rows of 128 numbers, three weight blocks, a routing row of 32 numbers and
  a table of 16 scales — and stores one 2048×12 block.  This module reads that stored block at an entry `(p, q)` on the
  extended reals and finds the packed network `Cert.QNet.blockNet` of row `p`:

  * a block product started from the zero block is, at `(p, q)`, the sum over `k` of `l (p, k) * r (k, q)`;
  * a routing sum takes 32 consecutive lanes of the row, multiplies them by the routing row and adds them up from zero;
    it is compared with zero, turned into one or zero, and spread over 64 lanes; four such gates side by side make lane
    `k` of the gate block carry the gate of lane group `k / 64`;
  * a table entry is the element of a 1×1 slice of the table;
  * everything else (rectify, scale, round, clamp, blend, logistic) acts entry by entry, and a change of float format
    is the identity on the extended reals.
-/
import proofs.«160214_j15659450761872_2_alg».proof.Proof.FrameKI
import proofs.«160214_j15659450761872_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Idealize.ShloMosaic Idealize.ShloMosaic.ValueIdx
open Cert.KernelIdeal Cert.KernelIdeal.Gen
open scoped BigOperators

/-! ## A block product read at an element

Each of the three products contracts the left factor's columns against the right factor's rows and starts from the zero
block, so its entry `(p, q)` is the sum over `k` of `l (p, k) * r (k, q)`. -/

theorem mmA_lhs0 (i : S2048x256.Idx) (c : dot_S2048x128_S128x256_S2048x256_1_0_0_1_n_n.contr.Idx) :
    (dot_S2048x128_S128x256_S2048x256_1_0_0_1_n_n.lhsIdx i c 0).val = (i 0).val := by
  unfold DotDims.lhsIdx
  rw [dif_neg (show ¬(0 : Fin S2048x128.rank) ∈ dot_S2048x128_S128x256_S2048x256_1_0_0_1_n_n.lhsBatch by decide),
    dif_pos (show (0 : Fin S2048x128.rank) ∈ dot_S2048x128_S128x256_S2048x256_1_0_0_1_n_n.lhsNonContracting by decide)]
  rfl

theorem mmA_rhs1 (i : S2048x256.Idx) (c : dot_S2048x128_S128x256_S2048x256_1_0_0_1_n_n.contr.Idx) :
    (dot_S2048x128_S128x256_S2048x256_1_0_0_1_n_n.rhsIdx i c 1).val = (i 1).val := by
  unfold DotDims.rhsIdx
  rw [dif_neg (show ¬(1 : Fin S128x256.rank) ∈ dot_S2048x128_S128x256_S2048x256_1_0_0_1_n_n.rhsBatch by decide),
    dif_pos (show (1 : Fin S128x256.rank) ∈ dot_S2048x128_S128x256_S2048x256_1_0_0_1_n_n.rhsNonContracting by decide)]
  rfl

/-- The first product, 2048×128 by 128×256. -/
theorem mmA_apply (l : FVec Ideal S2048x128 .bf16) (r : FVec Ideal S128x256 .bf16) (p : Fin 2048) (q : Fin 256) :
    matmul dot_S2048x128_S128x256_S2048x256_1_0_0_1_n_n none l r (constant (F := Ideal) S2048x256 .f32 0x00000000#32) (ix2 p q)
      = ∑ k : Fin 128, l (ix2 p k) * r (ix2 k q) := by
  simp only [matmul]
  rw [Ideal.matmul_constant_zero_apply,
    ← Equiv.sum_comp (contrEquiv1 dot_S2048x128_S128x256_S2048x256_1_0_0_1_n_n 128 rfl rfl).symm]
  refine Finset.sum_congr rfl fun k _ => ?_
  have hk := contrEquiv1_symm_val dot_S2048x128_S128x256_S2048x256_1_0_0_1_n_n 128 rfl rfl k
  have el : dot_S2048x128_S128x256_S2048x256_1_0_0_1_n_n.lhsIdx (ix2 p q)
      ((contrEquiv1 dot_S2048x128_S128x256_S2048x256_1_0_0_1_n_n 128 rfl rfl).symm k) = ix2 p k :=
    funext fun a => Fin.ext (by
      match a with
      | ⟨0, _⟩ => exact mmA_lhs0 _ _
      | ⟨1, _⟩ => exact (dot_S2048x128_S128x256_S2048x256_1_0_0_1_n_n.lhsIdx_val_of_single rfl _ _).trans hk)
  have er : dot_S2048x128_S128x256_S2048x256_1_0_0_1_n_n.rhsIdx (ix2 p q)
      ((contrEquiv1 dot_S2048x128_S128x256_S2048x256_1_0_0_1_n_n 128 rfl rfl).symm k) = ix2 k q :=
    funext fun a => Fin.ext (by
      match a with
      | ⟨0, _⟩ => exact (dot_S2048x128_S128x256_S2048x256_1_0_0_1_n_n.rhsIdx_val_of_single rfl _ _).trans hk
      | ⟨1, _⟩ => exact mmA_rhs1 _ _)
  rw [el, er]

theorem mmB_lhs0 (i : S2048x256.Idx) (c : dot_S2048x256_S256x256_S2048x256_1_0_0_1_n_n.contr.Idx) :
    (dot_S2048x256_S256x256_S2048x256_1_0_0_1_n_n.lhsIdx i c 0).val = (i 0).val := by
  unfold DotDims.lhsIdx
  rw [dif_neg (show ¬(0 : Fin S2048x256.rank) ∈ dot_S2048x256_S256x256_S2048x256_1_0_0_1_n_n.lhsBatch by decide),
    dif_pos (show (0 : Fin S2048x256.rank) ∈ dot_S2048x256_S256x256_S2048x256_1_0_0_1_n_n.lhsNonContracting by decide)]
  rfl

theorem mmB_rhs1 (i : S2048x256.Idx) (c : dot_S2048x256_S256x256_S2048x256_1_0_0_1_n_n.contr.Idx) :
    (dot_S2048x256_S256x256_S2048x256_1_0_0_1_n_n.rhsIdx i c 1).val = (i 1).val := by
  unfold DotDims.rhsIdx
  rw [dif_neg (show ¬(1 : Fin S256x256.rank) ∈ dot_S2048x256_S256x256_S2048x256_1_0_0_1_n_n.rhsBatch by decide),
    dif_pos (show (1 : Fin S256x256.rank) ∈ dot_S2048x256_S256x256_S2048x256_1_0_0_1_n_n.rhsNonContracting by decide)]
  rfl

/-- The two middle products, 2048×256 by 256×256. -/
theorem mmB_apply (l : FVec Ideal S2048x256 .bf16) (r : FVec Ideal S256x256 .bf16) (p : Fin 2048) (q : Fin 256) :
    matmul dot_S2048x256_S256x256_S2048x256_1_0_0_1_n_n none l r (constant (F := Ideal) S2048x256 .f32 0x00000000#32) (ix2 p q)
      = ∑ k : Fin 256, l (ix2 p k) * r (ix2 k q) := by
  simp only [matmul]
  rw [Ideal.matmul_constant_zero_apply,
    ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q)
      ((contrEquiv1 dot_S2048x256_S256x256_S2048x256_1_0_0_1_n_n 256 rfl rfl).symm k) = ix2 p k :=
    funext fun a => Fin.ext (by
      match a with
      | ⟨0, _⟩ => exact mmB_lhs0 _ _
      | ⟨1, _⟩ => exact (dot_S2048x256_S256x256_S2048x256_1_0_0_1_n_n.lhsIdx_val_of_single rfl _ _).trans hk)
  have er : dot_S2048x256_S256x256_S2048x256_1_0_0_1_n_n.rhsIdx (ix2 p q)
      ((contrEquiv1 dot_S2048x256_S256x256_S2048x256_1_0_0_1_n_n 256 rfl rfl).symm k) = ix2 k q :=
    funext fun a => Fin.ext (by
      match a with
      | ⟨0, _⟩ => exact (dot_S2048x256_S256x256_S2048x256_1_0_0_1_n_n.rhsIdx_val_of_single rfl _ _).trans hk
      | ⟨1, _⟩ => exact mmB_rhs1 _ _)
  rw [el, er]

theorem mmC_lhs0 (i : S2048x12.Idx) (c : dot_S2048x256_S256x12_S2048x12_1_0_0_1_n_n.contr.Idx) :
    (dot_S2048x256_S256x12_S2048x12_1_0_0_1_n_n.lhsIdx i c 0).val = (i 0).val := by
  unfold DotDims.lhsIdx
  rw [dif_neg (show ¬(0 : Fin S2048x256.rank) ∈ dot_S2048x256_S256x12_S2048x12_1_0_0_1_n_n.lhsBatch by decide),
    dif_pos (show (0 : Fin S2048x256.rank) ∈ dot_S2048x256_S256x12_S2048x12_1_0_0_1_n_n.lhsNonContracting by decide)]
  rfl

theorem mmC_rhs1 (i : S2048x12.Idx) (c : dot_S2048x256_S256x12_S2048x12_1_0_0_1_n_n.contr.Idx) :
    (dot_S2048x256_S256x12_S2048x12_1_0_0_1_n_n.rhsIdx i c 1).val = (i 1).val := by
  unfold DotDims.rhsIdx
  rw [dif_neg (show ¬(1 : Fin S256x12.rank) ∈ dot_S2048x256_S256x12_S2048x12_1_0_0_1_n_n.rhsBatch by decide),
    dif_pos (show (1 : Fin S256x12.rank) ∈ dot_S2048x256_S256x12_S2048x12_1_0_0_1_n_n.rhsNonContracting by decide)]
  rfl

/-- The last product, 2048×256 by 256×12. -/
theorem mmC_apply (l : FVec Ideal S2048x256 .bf16) (r : FVec Ideal S256x12 .bf16) (p : Fin 2048) (q : Fin 12) :
    matmul dot_S2048x256_S256x12_S2048x12_1_0_0_1_n_n none l r (constant (F := Ideal) S2048x12 .f32 0x00000000#32) (ix2 p q)
      = ∑ k : Fin 256, l (ix2 p k) * r (ix2 k q) := by
  simp only [matmul]
  rw [Ideal.matmul_constant_zero_apply,
    ← Equiv.sum_comp (contrEquiv1 dot_S2048x256_S256x12_S2048x12_1_0_0_1_n_n 256 rfl rfl).symm]
  refine Finset.sum_congr rfl fun k _ => ?_
  have hk := contrEquiv1_symm_val dot_S2048x256_S256x12_S2048x12_1_0_0_1_n_n 256 rfl rfl k
  have el : dot_S2048x256_S256x12_S2048x12_1_0_0_1_n_n.lhsIdx (ix2 p q)
      ((contrEquiv1 dot_S2048x256_S256x12_S2048x12_1_0_0_1_n_n 256 rfl rfl).symm k) = ix2 p k :=
    funext fun a => Fin.ext (by
      match a with
      | ⟨0, _⟩ => exact mmC_lhs0 _ _
      | ⟨1, _⟩ => exact (dot_S2048x256_S256x12_S2048x12_1_0_0_1_n_n.lhsIdx_val_of_single rfl _ _).trans hk)
  have er : dot_S2048x256_S256x12_S2048x12_1_0_0_1_n_n.rhsIdx (ix2 p q)
      ((contrEquiv1 dot_S2048x256_S256x12_S2048x12_1_0_0_1_n_n 256 rfl rfl).symm k) = ix2 k q :=
    funext fun a => Fin.ext (by
      match a with
      | ⟨0, _⟩ => exact (dot_S2048x256_S256x12_S2048x12_1_0_0_1_n_n.rhsIdx_val_of_single rfl _ _).trans hk
      | ⟨1, _⟩ => exact mmC_rhs1 _ _)
  rw [el, er]

/-! ## The scale table and the routing sums -/

/-- Entry `e` of the 1×16 table as the body takes it: the 1×1 slice at column `e`, then that slice's one element. -/
theorem const_apply (e : Nat) (he : e < 16) (x6 : Vec Ideal S1x16 .f32) (hs : S1x16.Slices ![0, e] S1x1)
    (hp : ∀ a, (![0, 0] : Fin 2 → Nat) a < S1x1.size a) :
    extractAt ![0, 0] (extractStridedSlice S1x1 ![0, e] (k0_pay9 (F := Ideal) x6) hs) hp = x6 (ix2 0 ⟨e, he⟩) := by
  unfold k0_pay9
  rw [shapeCast_self]
  unfold extractAt extractStridedSlice
  exact congrArg x6 (funext fun a => Fin.ext (by
    match a with
    | ⟨0, _⟩ => rfl
    | ⟨1, _⟩ => show e + 0 = e; omega))

/-- One routing sum: the 32 lanes of row `p` starting at lane `o`, each times the routing row's entry, summed from the zero
    accumulator and laid back as a one-column block, read at that row. -/
theorem laneSum_apply (o : Nat) (ho : o + 32 ≤ 128) (v1 : FVec Ideal S2048x128 .f32) (v6 : FVec Ideal S1x32 .f32)
    (hs : S2048x128.Slices ![0, o] S2048x32) (hφ : FKind.Formats .f32)
    (hacc : (0x00000000#32 : BitVec 32) = FKind.add.neutral .f32 hφ) (p : Fin 2048) :
    shapeCast S2048x1
        (multiReduction (F := Ideal) .add [1] S2048
          (mulf (extractStridedSlice S2048x32 ![0, o] v1 hs) (broadcastTo S2048x32 v6 broadcasts_S1x32_S2048x32))
          0x00000000#32 reduces_S2048x32_S2048 hφ hacc)
        shapeCasts_S2048_S2048x1 (ix2 p 0)
      = ∑ j : Fin 32, v1 (ix2 p ⟨o + j.val, by omega⟩) * v6 (ix2 0 j) := by
  refine (shapeCast_apply _ shapeCasts_S2048_S2048x1 (ix2 p 0) (ix1 p) ?_).trans ?_
  · rw [Shape.rowMajor_val_one, Shape.rowMajor_val_two]
    show p.val = p.val * 1 + 0
    omega
  refine (Ideal.multiReduction_add_single _ _ reduces_S2048x32_S2048 hφ hacc (ix1 p)).trans ?_
  show ∑ j : Fin 32, _ = _
  refine Finset.sum_congr rfl fun j _ => ?_
  show extractStridedSlice S2048x32 ![0, o] v1 hs (reduces_S2048x32_S2048.lift (ix1 p) j)
      * broadcastTo S2048x32 v6 broadcasts_S1x32_S2048x32 (reduces_S2048x32_S2048.lift (ix1 p) j) = _
  refine congrArg₂ (· * ·) ?_ ?_
  · exact extractStridedSlice_apply ![0, o] v1 hs _ (ix2 p ⟨o + j.val, by omega⟩) (fun a => by
      match a with
      | ⟨0, _⟩ => show p.val = 0 + p.val; omega
      | ⟨1, _⟩ => rfl)
  · exact broadcastTo_apply v6 broadcasts_S1x32_S2048x32 _ (ix2 0 j) (fun a => by
      match a with
      | ⟨0, _⟩ => rfl
      | ⟨1, _⟩ => rfl)

/-- Four 2048×64 blocks laid side by side: column `k` of the 2048×256 result is column `k % 64` of block `k / 64`. -/
theorem concat4_apply {α : Type} (f0 f1 f2 f3 : S2048x64.Idx → α)
    (h : Shape.Concatenates (([⟨S2048x64, f0⟩, ⟨S2048x64, f1⟩, ⟨S2048x64, f2⟩, ⟨S2048x64, f3⟩] :
      List ((s : Shape) × (s.Idx → α))).map (·.1)) S2048x256 1)
    (p : Fin 2048) (k : Fin 256) :
    concatenate S2048x256 1 [⟨S2048x64, f0⟩, ⟨S2048x64, f1⟩, ⟨S2048x64, f2⟩, ⟨S2048x64, f3⟩] h (ix2 p k)
      = if k.val < 64 then f0 (ix2 p ⟨k.val % 64, Nat.mod_lt _ (by omega)⟩)
        else if k.val < 128 then f1 (ix2 p ⟨k.val % 64, Nat.mod_lt _ (by omega)⟩)
        else if k.val < 192 then f2 (ix2 p ⟨k.val % 64, Nat.mod_lt _ (by omega)⟩)
        else f3 (ix2 p ⟨k.val % 64, Nat.mod_lt _ (by omega)⟩) := by
  have hk : k.val < 256 := k.isLt
  have hoff : ∀ b : Fin S2048x64.rank, b.cast (rfl : S2048x64.rank = S2048x256.rank) ≠ (1 : Fin 2) →
      ((ix2 p (⟨k.val % 64, Nat.mod_lt _ (by omega)⟩ : Fin 64) : S2048x64.Idx) b).val
        = ((ix2 p k : S2048x256.Idx) (b.cast rfl)).val := fun b hb => by
    match b with
    | ⟨0, _⟩ => rfl
    | ⟨1, _⟩ => exact absurd rfl hb
  split_ifs with h0 h1 h2
  · exact concatenate_apply_piece (1 : Fin 2) [⟨S2048x64, f0⟩, ⟨S2048x64, f1⟩, ⟨S2048x64, f2⟩, ⟨S2048x64, f3⟩] h (ix2 p k)
      0 (by show 0 < 4; omega) S2048x64 f0 rfl rfl 0 rfl _ hoff (by show 0 + k.val % 64 = k.val; omega)
  · exact concatenate_apply_piece (1 : Fin 2) [⟨S2048x64, f0⟩, ⟨S2048x64, f1⟩, ⟨S2048x64, f2⟩, ⟨S2048x64, f3⟩] h (ix2 p k)
      1 (by show 1 < 4; omega) S2048x64 f1 rfl rfl 64 rfl _ hoff (by show 64 + k.val % 64 = k.val; omega)
  · exact concatenate_apply_piece (1 : Fin 2) [⟨S2048x64, f0⟩, ⟨S2048x64, f1⟩, ⟨S2048x64, f2⟩, ⟨S2048x64, f3⟩] h (ix2 p k)
      2 (by show 2 < 4; omega) S2048x64 f2 rfl rfl 128 rfl _ hoff (by show 128 + k.val % 64 = k.val; omega)
  · exact concatenate_apply_piece (1 : Fin 2) [⟨S2048x64, f0⟩, ⟨S2048x64, f1⟩, ⟨S2048x64, f2⟩, ⟨S2048x64, f3⟩] h (ix2 p k)
      3 (by show 3 < 4; omega) S2048x64 f3 rfl rfl 192 rfl _ hoff (by show 192 + k.val % 64 = k.val; omega)

/-- One routing gate: the routing sum compared with zero, one where it is nonnegative and zero elsewhere, laid along 64 lanes. -/
theorem gate_apply (o : Nat) (ho : o + 32 ≤ 128) (v1 : FVec Ideal S2048x128 .f32) (v6 : FVec Ideal S1x32 .f32)
    (hs : S2048x128.Slices ![0, o] S2048x32) (hφ : FKind.Formats .f32)
    (hacc : (0x00000000#32 : BitVec 32) = FKind.add.neutral .f32 hφ) (p : Fin 2048) (q : Fin 64) :
    broadcastTo S2048x64
        (shapeCast S2048x1
          (select
            (cmpf .oge
              (shapeCast S2048x1
                (multiReduction (F := Ideal) .add [1] S2048
                  (mulf (extractStridedSlice S2048x32 ![0, o] v1 hs) (broadcastTo S2048x32 v6 broadcasts_S1x32_S2048x32))
                  0x00000000#32 reduces_S2048x32_S2048 hφ hacc)
                shapeCasts_S2048_S2048x1)
              (broadcast S2048x1 (Scalar.ofBits (F := Ideal) .f32 0x00000000#32)))
            (broadcast S2048x1 (Scalar.ofBits (F := Ideal) .f32 0x3F800000#32))
            (broadcast S2048x1 (Scalar.ofBits (F := Ideal) .f32 0x00000000#32)))
          shapeCasts_S2048x1_S2048x1)
        broadcasts_S2048x1_S2048x64 (ix2 p q)
      = Scalar.select (Ideal.cmp .oge (∑ j : Fin 32, v1 (ix2 p ⟨o + j.val, by omega⟩) * v6 (ix2 0 j)) Cert.QNet.c0)
          Cert.QNet.c1 Cert.QNet.c0 := by
  refine (broadcastTo_apply _ broadcasts_S2048x1_S2048x64 (ix2 p q) (ix2 p 0) (fun a => by
    match a with
    | ⟨0, _⟩ => rfl
    | ⟨1, _⟩ => rfl)).trans ?_
  rw [shapeCast_self]
  refine congrArg (fun t => Scalar.select (Ideal.cmp .oge t Cert.QNet.c0) Cert.QNet.c1 Cert.QNet.c0) ?_
  exact laneSum_apply o ho v1 v6 hs hφ hacc p

/-- The first gate's comparison is computed ahead of the other three, over the loaded blocks themselves. -/
theorem pay20_eq (v0 : Vec Ideal S2048x128 .f32) (v5 : Vec Ideal S1x32 .f32) :
    k0_pay20 (F := Ideal) v0 v5
      = cmpf .oge
          (shapeCast S2048x1
            (multiReduction (F := Ideal) .add [1] S2048
              (mulf (extractStridedSlice S2048x32 ![0, 0] (k0_pay2 v0) slices_S2048x128_o0_0_S2048x32)
                (broadcastTo S2048x32 (k0_pay5 v5) broadcasts_S1x32_S2048x32))
              0x00000000#32 reduces_S2048x32_S2048 (.inl rfl) rfl)
            shapeCasts_S2048_S2048x1)
          (broadcast S2048x1 (Scalar.ofBits (F := Ideal) .f32 0x00000000#32)) := rfl

/-- The gate block at `(p, k)`: the four gates side by side, 64 lanes each, so lane `k` carries the gate of lane group
    `k / 64`, whose routing sum runs over lanes `32 * (k / 64) …` of row `p`. -/
theorem mask_apply (v1 : FVec Ideal S2048x128 .f32) (v6 : FVec Ideal S1x32 .f32) (p : Fin 2048) (k : Fin 256) :
    k0_pay21 (F := Ideal) v1 v6
        (cmpf .oge
          (shapeCast S2048x1
            (multiReduction (F := Ideal) .add [1] S2048
              (mulf (extractStridedSlice S2048x32 ![0, 0] v1 slices_S2048x128_o0_0_S2048x32)
                (broadcastTo S2048x32 v6 broadcasts_S1x32_S2048x32))
              0x00000000#32 reduces_S2048x32_S2048 (.inl rfl) rfl)
            shapeCasts_S2048_S2048x1)
          (broadcast S2048x1 (Scalar.ofBits (F := Ideal) .f32 0x00000000#32)))
        (Scalar.ofBits (F := Ideal) .f32 0x3F800000#32) (ix2 p k)
      = Scalar.select
          (Ideal.cmp .oge
            (∑ j : Fin 32, v1 (ix2 p ⟨32 * (k.val / 64) + j.val, by have := k.isLt; omega⟩) * v6 (ix2 0 j)) Cert.QNet.c0)
          Cert.QNet.c1 Cert.QNet.c0 := by
  have hk : k.val < 256 := k.isLt
  unfold k0_pay21
  refine (concat4_apply _ _ _ _ _ p k).trans ?_
  split_ifs with h0 h1 h2
  · refine (gate_apply 0 (by omega) v1 v6 _ _ _ p _).trans ?_
    have e : k.val / 64 = 0 := by omega
    simp only [e]
  · refine (gate_apply 32 (by omega) v1 v6 _ _ _ p _).trans ?_
    have e : k.val / 64 = 1 := by omega
    simp only [e]
  · refine (gate_apply 64 (by omega) v1 v6 _ _ _ p _).trans ?_
    have e : k.val / 64 = 2 := by omega
    simp only [e]
  · refine (gate_apply 96 (by omega) v1 v6 _ _ _ p _).trans ?_
    have e : k.val / 64 = 3 := by omega
    simp only [e]

/-! ## The body's arithmetic at an element

Every other operation of the body acts entry by entry; at the extended reals a change of float format is the identity. -/

theorem roundeven_apply {s : Shape} {φ : FTy} (a : FVec Ideal s φ) (i : s.Idx) :
    roundeven a i = Cert.QNet.RE (a i) := rfl

theorem logistic_apply {s : Shape} {φ : FTy} (a : FVec Ideal s φ) (i : s.Idx) :
    logistic a i = Ideal.logistic (a i) := rfl

theorem scalar_ofBits (b : BitVec 32) : Scalar.ofBits (F := Ideal) .f32 b = Ideal.ofBits .f32 b := rfl

/-- The first product, rectified. -/
theorem pay22_apply (v2 : FVec Ideal S2048x128 .bf16) (v4 : FVec Ideal S128x256 .bf16) (p : Fin 2048) (k : Fin 256) :
    k0_pay22 (F := Ideal) v2 v4 (ix2 p k) = max (∑ j : Fin 128, v2 (ix2 p j) * v4 (ix2 j k)) Cert.QNet.c0 := by
  unfold k0_pay22
  exact congrArg (fun t => max t Cert.QNet.c0) (mmA_apply v2 v4 p k)

/-- The middle of the body at `(p, q)`, over the rectified first product `u` and the gates `g` of row `p`: the first
    fake-quantization, two more layers, the blend by the gates, the last product, scaled and rounded. -/
theorem pay23_apply (v8 v10 : FVec Ideal S256x256 .bf16) (v12 : FVec Ideal S256x12 .bf16)
    (s0 s1 s2 t0 t1 t2 s6 : Ideal .f32) (v83 v86 : FVec Ideal S2048x256 .f32) (p : Fin 2048) (q : Fin 12)
    (u g : Fin 256 → EReal) (hu : ∀ k, v86 (ix2 p k) = u k) (hg : ∀ k, v83 (ix2 p k) = g k) :
    k0_pay23 (F := Ideal) v8 v10 v12 s0 s1 s2 t0 t1 t2 s6 v83 v86 (ix2 p q)
      = (let r0 : Fin 256 → EReal := fun k => Cert.QNet.fqRaw Cert.QNet.c0 Cert.QNet.c255 (u k) s0 t0
         let a1 : Fin 256 → EReal := fun k =>
           Cert.QNet.fqRaw Cert.QNet.c0 Cert.QNet.c255 (max (∑ j, r0 j * v8 (ix2 j k)) Cert.QNet.c0) s1 t1
         let a2 : Fin 256 → EReal := fun k =>
           Cert.QNet.fqRaw Cert.QNet.c0 Cert.QNet.c255 (max (∑ j, a1 j * v10 (ix2 j k)) Cert.QNet.c0) s2 t2
         let rr : Fin 256 → EReal := fun k => g k * a2 k + (Cert.QNet.c1 - g k) * r0 k
         Cert.QNet.RE ((∑ j, rr j * v12 (ix2 j q)) * s6)) := by
  unfold k0_pay23
  simp only [roundeven_apply, mulf_apply, addf_apply, subf_apply, maximumf_apply, minimumf_apply, broadcast_apply,
    truncf_apply, mmB_apply, mmC_apply, scalar_ofBits, hu, hg, Cert.QNet.fqRaw]

/-- The end of the body at `(p, q)`: the signed fake-quantization's clamp and scale, the logistic function, and the last
    fake-quantization. -/
theorem pay1_apply (s7 s8 s9 : Ideal .f32) (v131 : FVec Ideal S2048x12 .f32) (p : Fin 2048) (q : Fin 12) :
    k0_pay1 (F := Ideal) s7 s8 s9 v131 (Scalar.ofBits .f32 0x42FE0000#32) (k0_pay24 (F := Ideal)) (ix2 p q)
      = Cert.QNet.fqRaw Cert.QNet.c0 Cert.QNet.c255
          (Ideal.logistic (min Cert.QNet.c127 (max Cert.QNet.cm127 (v131 (ix2 p q))) * s7)) s8 s9 := rfl

/-! ## The loaded blocks and the table entries -/

theorem pay2_eq (v0 : Vec Ideal S2048x128 .f32) : k0_pay2 (F := Ideal) v0 = v0 := shapeCast_self _ _

theorem pay5_eq (v5 : Vec Ideal S1x32 .f32) : k0_pay5 (F := Ideal) v5 = v5 := shapeCast_self _ _

theorem pay3_apply (v0 : Vec Ideal S2048x128 .f32) (i : S2048x128.Idx) : k0_pay3 (F := Ideal) v0 i = v0 i := by
  unfold k0_pay3
  rw [pay2_eq]
  rfl

theorem pay4_apply (v3 : Vec Ideal S128x256 .bf16) (i : S128x256.Idx) : k0_pay4 (F := Ideal) v3 i = v3 i := by
  unfold k0_pay4
  rw [shapeCast_self]

theorem pay6_apply (v7 : Vec Ideal S256x256 .bf16) (i : S256x256.Idx) : k0_pay6 (F := Ideal) v7 i = v7 i := by
  unfold k0_pay6
  rw [shapeCast_self]

theorem pay7_apply (v9 : Vec Ideal S256x256 .bf16) (i : S256x256.Idx) : k0_pay7 (F := Ideal) v9 i = v9 i := by
  unfold k0_pay7
  rw [shapeCast_self]

theorem pay8_apply (v11 : Vec Ideal S256x12 .bf16) (i : S256x12.Idx) : k0_pay8 (F := Ideal) v11 i = v11 i := by
  unfold k0_pay8
  rw [shapeCast_self]

theorem pay10_eq (x6 : Vec Ideal S1x16 .f32) : k0_pay10 (F := Ideal) x6 = x6 (ix2 0 0) := const_apply 0 (by omega) x6 _ _
theorem pay11_eq (x6 : Vec Ideal S1x16 .f32) : k0_pay11 (F := Ideal) x6 = x6 (ix2 0 1) := const_apply 1 (by omega) x6 _ _
theorem pay12_eq (x6 : Vec Ideal S1x16 .f32) : k0_pay12 (F := Ideal) x6 = x6 (ix2 0 2) := const_apply 2 (by omega) x6 _ _
theorem pay13_eq (x6 : Vec Ideal S1x16 .f32) : k0_pay13 (F := Ideal) x6 = x6 (ix2 0 3) := const_apply 3 (by omega) x6 _ _
theorem pay14_eq (x6 : Vec Ideal S1x16 .f32) : k0_pay14 (F := Ideal) x6 = x6 (ix2 0 4) := const_apply 4 (by omega) x6 _ _
theorem pay15_eq (x6 : Vec Ideal S1x16 .f32) : k0_pay15 (F := Ideal) x6 = x6 (ix2 0 5) := const_apply 5 (by omega) x6 _ _
theorem pay16_eq (x6 : Vec Ideal S1x16 .f32) : k0_pay16 (F := Ideal) x6 = x6 (ix2 0 6) := const_apply 6 (by omega) x6 _ _
theorem pay17_eq (x6 : Vec Ideal S1x16 .f32) : k0_pay17 (F := Ideal) x6 = x6 (ix2 0 7) := const_apply 7 (by omega) x6 _ _
theorem pay18_eq (x6 : Vec Ideal S1x16 .f32) : k0_pay18 (F := Ideal) x6 = x6 (ix2 0 8) := const_apply 8 (by omega) x6 _ _
theorem pay19_eq (x6 : Vec Ideal S1x16 .f32) : k0_pay19 (F := Ideal) x6 = x6 (ix2 0 9) := const_apply 9 (by omega) x6 _ _

/-! ## The output block at an element -/

/-- Entry `(p, q)` of the block the body leaves is the packed network of Spec on row `p` of the first block, against the
    weight blocks and the table of scales. -/
theorem outBlock_apply (x0 : Vec Ideal S2048x128 .f32) (x1 : Vec Ideal S128x256 .bf16) (x2 : Vec Ideal S1x32 .f32)
    (x3 x4 : Vec Ideal S256x256 .bf16) (x5 : Vec Ideal S256x12 .bf16) (x6 : Vec Ideal S1x16 .f32)
    (p : Fin 2048) (q : Fin 12) :
    Cert.KernelIdeal.Fr.outBlock (F := Ideal) x0 x1 x2 x3 x4 x5 x6 (ix2 p q)
      = Cert.QNet.blockNet (fun j => x0 (ix2 p j)) (fun j k => x1 (ix2 j k)) (fun j => x2 (ix2 0 j))
          (fun j k => x3 (ix2 j k)) (fun j k => x4 (ix2 j k)) (fun j k => x5 (ix2 j k)) (fun e => x6 (ix2 0 e)) q := by
  have hz : (![0, 0] : Fin 2 → Nat) = fun _ => 0 := funext fun a => by
    match a with
    | ⟨0, _⟩ => rfl
    | ⟨1, _⟩ => rfl
  have hu : ∀ k : Fin 256, k0_pay22 (F := Ideal) (k0_pay3 x0) (k0_pay4 x1) (ix2 p k)
      = max (∑ j : Fin 128, x0 (ix2 p j) * x1 (ix2 j k)) Cert.QNet.c0 := fun k => by
    rw [pay22_apply]
    simp only [pay3_apply, pay4_apply]
  have hg : ∀ k : Fin 256,
      k0_pay21 (F := Ideal) (k0_pay2 x0) (k0_pay5 x2) (k0_pay20 x0 x2) (Scalar.ofBits .f32 0x3F800000#32) (ix2 p k)
        = Scalar.select
            (Ideal.cmp .oge
              (∑ j : Fin 32, x0 (ix2 p ⟨32 * (k.val / 64) + j.val, by have := k.isLt; omega⟩) * x2 (ix2 0 j))
              Cert.QNet.c0)
            Cert.QNet.c1 Cert.QNet.c0 := fun k => by
    rw [pay20_eq, pay2_eq, pay5_eq]
    exact mask_apply x0 x2 p k
  unfold Cert.KernelIdeal.Fr.outBlock
  rw [View.canon_unit_zero hz]
  simp only [View.ld_unit_zero (S := S2048x128) hz, View.ld_unit_zero (S := S128x256) hz,
    View.ld_unit_zero (S := S1x32) hz, View.ld_unit_zero (S := S256x256) hz, View.ld_unit_zero (S := S256x12) hz,
    View.ld_unit_zero (S := S1x16) hz]
  refine (pay1_apply _ _ _ _ p q).trans ?_
  rw [pay23_apply _ _ _ _ _ _ _ _ _ _ _ _ p q _ _ hu hg]
  simp only [pay6_apply, pay7_apply, pay8_apply, pay10_eq, pay11_eq, pay12_eq, pay13_eq, pay14_eq, pay15_eq, pay16_eq,
    pay17_eq, pay18_eq, pay19_eq]
  rfl

end Cert.KernelIdeal.Payload

end
-- ==== Proof.KValue.lean ====
/-
  What the kernel's result array holds after the run, as one function of the arrays the region finds.

  Grid point `t` stages rows 2048·t … 2048·t + 2047 of the packed input (128 lanes: four logical rows side by side) and
  the whole of each weight and scale array, and writes back the same rows of the packed output (12 lanes).  Row by row
  the body computes the four-rows-at-once network (`QNet.blockNet`) of the staged row against the staged weights, so the
  128 blocks written back tile the packed output with `packed`: the four-rows-at-once network of each packed row.  The
  operation after the region re-lays the packed output [262144, 12] as [1048576, 3], row-major.
-/
import proofs.«160214_j15659450761872_2_alg».proof.Proof.FrameKI
import proofs.«160214_j15659450761872_2_alg».proof.Proof.Spec
import proofs.«160214_j15659450761872_2_alg».proof.Proof.BlockDiag
import proofs.«160214_j15659450761872_2_alg».proof.Proof.KPayload
import Idealize.ShloMosaic.Lib.Pipeline.Value
import Idealize.ShloMosaic.Lib.ValueIdx

set_option maxRecDepth 16384

noncomputable section

namespace Cert.KernelIdeal.KV

open Cert.KernelIdeal Cert.KernelIdeal.Gen Cert.KernelIdeal.Fr Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)
open Cert.KernelIdeal.Payload (outBlock_apply)

/-- The packed output, index by index: the four-rows-at-once network of packed row `i 0`, output lane `i 1`. -/
def packed (c : Dev nD) : S262144x12.Idx → EReal := fun i =>
  Cert.QNet.blockNet (fun j => (V m c main_v149 : S262144x128.Idx → EReal) (ix2 (i 0) j))
    (fun j k => (V m c main_v56 : S128x256.Idx → EReal) (ix2 j k))
    (fun j => (V m c main_v36 : S1x32.Idx → EReal) (ix2 0 j))
    (fun j k => (V m c main_v75 : S256x256.Idx → EReal) (ix2 j k))
    (fun j k => (V m c main_v94 : S256x256.Idx → EReal) (ix2 j k))
    (fun j k => (V m c main_v113 : S256x12.Idx → EReal) (ix2 j k))
    (fun e => (V m c main_v148 : S1x16.Idx → EReal) (ix2 0 e)) (i 1)

/-- The index maps over the grid: the packed input's block moves with the output's along the rows; the weights and
    scales stay at block 0. -/
theorem idx_facts : ∀ t : Fin cfg0.N, win0_0.index t (0 : Fin 2) = win0_7.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (1 : Fin 2) = 0 ∧ win0_7.index t (0 : Fin 2) ≤ 127 :=
  (by decide +kernel : ∀ t : Fin grid0.N, _)

/-- Every block of rows of the packed output is some point's. -/
theorem idx_onto : ∀ (q0 : Fin 128), ∃ t : Fin cfg0.N, win0_7.index t = ![q0.val, 0] :=
  (by decide +kernel : ∀ (q0 : Fin 128), ∃ t : Fin grid0.N, win0_7.index t = ![q0.val, 0])

set_option maxHeartbeats 8000000 in
/-- What point `t` writes back is block `t` of `packed`. -/
theorem flushed_eq (c : Dev nD) (t : Fin cfg0.N) :
    (dats m 0 c).flushed 7 t = ((cfg0.win 7).blk t).view.read (Elt Ideal) (packed m c) := by
  show (cfg0.win 7).cut (grid0.coords t) ((dats m 0 c).after 7 t) = _
  rw [after7]
  obtain ⟨e0, e01, e10, e11, e20, e21, e30, e31, e40, e41, e50, e51, e60, e61, e71, e7b⟩ := idx_facts t
  funext y
  show outBlock (F := Ideal) (iblk m c 0 t) (iblk m c 1 t) (iblk m c 2 t) (iblk m c 3 t) (iblk m c 4 t) (iblk m c 5 t) (iblk m c 6 t) y
    = packed m c (((cfg0.win 7).blk t).view.emb y)
  obtain ⟨p, q, rfl⟩ : ∃ (p : Fin 2048) (q : Fin 12), y = ix2 p q := ⟨y 0, y 1, eq_ix2 y⟩
  refine (outBlock_apply _ _ _ _ _ _ _ p q).trans ?_
  unfold packed
  have hq : (((cfg0.win 7).blk t).view.emb (ix2 p q)) 1 = q :=
    Fin.ext (show win0_7.index t (1 : Fin 2) * 12 + 1 * q.val = q.val by omega)
  have h0 : (fun j : Fin 128 => iblk m c 0 t (ix2 p j))
      = (fun j : Fin 128 => (V m c main_v149 : S262144x128.Idx → EReal) (ix2 ((((cfg0.win 7).blk t).view.emb (ix2 p q)) 0) j)) :=
    funext fun j => by
      show (V m c main_v149 : S262144x128.Idx → EReal) (((cfg0.win 0).blk t).view.emb (ix2 p j)) = _
      refine congrArg _ ?_
      funext a; apply Fin.ext
      match a with
      | ⟨0, _⟩ => show win0_0.index t (0 : Fin 2) * 2048 + 1 * p.val = win0_7.index t (0 : Fin 2) * 2048 + 1 * p.val; omega
      | ⟨1, _⟩ => show win0_0.index t (1 : Fin 2) * 128 + 1 * j.val = j.val; omega
  have h1 : (fun (j : Fin 128) (k : Fin 256) => iblk m c 1 t (ix2 j k))
      = (fun (j : Fin 128) (k : Fin 256) => (V m c main_v56 : S128x256.Idx → EReal) (ix2 j k)) :=
    funext fun j => funext fun k => by
      show (V m c main_v56 : S128x256.Idx → EReal) (((cfg0.win 1).blk t).view.emb (ix2 j k)) = _
      refine congrArg _ ?_
      funext a; apply Fin.ext
      match a with
      | ⟨0, _⟩ => show win0_1.index t (0 : Fin 2) * 128 + 1 * j.val = j.val; omega
      | ⟨1, _⟩ => show win0_1.index t (1 : Fin 2) * 256 + 1 * k.val = k.val; omega
  have h2 : (fun (j : Fin 32) => iblk m c 2 t (ix2 0 j))
      = (fun (j : Fin 32) => (V m c main_v36 : S1x32.Idx → EReal) (ix2 0 j)) :=
    funext fun j => by
      show (V m c main_v36 : S1x32.Idx → EReal) (((cfg0.win 2).blk t).view.emb (ix2 0 j)) = _
      refine congrArg _ ?_
      funext a; apply Fin.ext
      match a with
      | ⟨0, _⟩ => show win0_2.index t (0 : Fin 2) * 1 + 1 * 0 = 0; omega
      | ⟨1, _⟩ => show win0_2.index t (1 : Fin 2) * 32 + 1 * j.val = j.val; omega
  have h3 : (fun (j : Fin 256) (k : Fin 256) => iblk m c 3 t (ix2 j k))
      = (fun (j : Fin 256) (k : Fin 256) => (V m c main_v75 : S256x256.Idx → EReal) (ix2 j k)) :=
    funext fun j => funext fun k => by
      show (V m c main_v75 : S256x256.Idx → EReal) (((cfg0.win 3).blk t).view.emb (ix2 j k)) = _
      refine congrArg _ ?_
      funext a; apply Fin.ext
      match a with
      | ⟨0, _⟩ => show win0_3.index t (0 : Fin 2) * 256 + 1 * j.val = j.val; omega
      | ⟨1, _⟩ => show win0_3.index t (1 : Fin 2) * 256 + 1 * k.val = k.val; omega
  have h4 : (fun (j : Fin 256) (k : Fin 256) => iblk m c 4 t (ix2 j k))
      = (fun (j : Fin 256) (k : Fin 256) => (V m c main_v94 : S256x256.Idx → EReal) (ix2 j k)) :=
    funext fun j => funext fun k => by
      show (V m c main_v94 : S256x256.Idx → EReal) (((cfg0.win 4).blk t).view.emb (ix2 j k)) = _
      refine congrArg _ ?_
      funext a; apply Fin.ext
      match a with
      | ⟨0, _⟩ => show win0_4.index t (0 : Fin 2) * 256 + 1 * j.val = j.val; omega
      | ⟨1, _⟩ => show win0_4.index t (1 : Fin 2) * 256 + 1 * k.val = k.val; omega
  have h5 : (fun (j : Fin 256) (k : Fin 12) => iblk m c 5 t (ix2 j k))
      = (fun (j : Fin 256) (k : Fin 12) => (V m c main_v113 : S256x12.Idx → EReal) (ix2 j k)) :=
    funext fun j => funext fun k => by
      show (V m c main_v113 : S256x12.Idx → EReal) (((cfg0.win 5).blk t).view.emb (ix2 j k)) = _
      refine congrArg _ ?_
      funext a; apply Fin.ext
      match a with
      | ⟨0, _⟩ => show win0_5.index t (0 : Fin 2) * 256 + 1 * j.val = j.val; omega
      | ⟨1, _⟩ => show win0_5.index t (1 : Fin 2) * 12 + 1 * k.val = k.val; omega
  have h6 : (fun (e : Fin 16) => iblk m c 6 t (ix2 0 e))
      = (fun (e : Fin 16) => (V m c main_v148 : S1x16.Idx → EReal) (ix2 0 e)) :=
    funext fun e => by
      show (V m c main_v148 : S1x16.Idx → EReal) (((cfg0.win 6).blk t).view.emb (ix2 0 e)) = _
      refine congrArg _ ?_
      funext a; apply Fin.ext
      match a with
      | ⟨0, _⟩ => show win0_6.index t (0 : Fin 2) * 1 + 1 * 0 = 0; omega
      | ⟨1, _⟩ => show win0_6.index t (1 : Fin 2) * 16 + 1 * e.val = e.val; omega
  rw [h0, h1, h2, h3, h4, h5, h6, hq]

/-- An index of the packed output is in point `t`'s block iff each coordinate is in the block's range. -/
theorem mem_blk (t : Fin cfg0.N) (i : S262144x12.Idx) :
    i ∈ ((cfg0.win 7).blk t).view.set ↔ ∀ a : Fin 2, win0_7.index t a * S2048x12.size a ≤ (i a).val ∧ (i a).val < win0_7.index t a * S2048x12.size a + S2048x12.size a := by
  show i ∈ ((View.whole main_v150).slice (win0_7.rect t)).set ↔ _
  rw [View.set_slice_whole, Rect.mem_set_unit]
  exact Iff.rfl

/-- The 128 blocks of 2048 rows tile the packed output. -/
theorem cover (i : S262144x12.Idx) :
    ∃ t : Fin cfg0.N, (cfg0.win 7).flush t = true ∧ i ∈ ((cfg0.win 7).blk t).view.set := by
  have hi0 : (i 0).val < 262144 := (i 0).isLt
  have hi1 : (i 1).val < 12 := (i 1).isLt
  obtain ⟨t, ht⟩ := idx_onto ⟨(i 0).val / 2048, by omega⟩
  have q0 : win0_7.index t (0 : Fin 2) = (i 0).val / 2048 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 2048 ≤ (i 0).val ∧ (i 0).val < win0_7.index t (0 : Fin 2) * 2048 + 2048; omega
  | ⟨1, _⟩ => show win0_7.index t (1 : Fin 2) * 12 ≤ (i 1).val ∧ (i 1).val < win0_7.index t (1 : Fin 2) * 12 + 12; omega

/-- The packed output after the run is `packed`. -/
theorem final (c : Dev nD) : (dats m 0 c).arrAt 7 cfg0.N = packed m c :=
  (dats m 0 c).arrAt_eq_of_cover 7 (packed m c) (fun t _ => flushed_eq m c t) cover

/-- The kernel's result: the packed output re-laid as [1048576, 3]. -/
def result (c : Dev nD) : S1048576x3.Idx → EReal :=
  fun i => shapeCast S1048576x3 (packed m c) shapeCasts_S262144x12_S1048576x3 i

set_option maxHeartbeats 4000000 in
/-- What the operation after the region leaves in the result buffer. -/
theorem tail_eq (c : Dev nD) :
    (Pipeline.afterTail₀ cfgs (dats m) 0 (V0 m) [hostOps1] c main_v151 : S1048576x3.Idx → EReal) = result m c := by
  unfold Pipeline.afterTail₀
  show StableHlo.after hostOps1 _ (Proc.devRef .tc main_v151) = _
  after_results
  have hw : Pipeline.withArrays (cfgs 0).spec c (V0 m c) (fun w => (dats m 0 c).arrAt w (cfgs 0).N) (Proc.devRef .tc main_v150)
      = packed m c :=
    (Pipeline.withArrays_arr spec0 launch0.win.arr_inj c _ _ 7).trans (final m c)
  rw [hw]
  rfl

/-- The kernel's run: the result buffer ends at `result`, the arguments as launched. -/
theorem run : θ_run defs (onTc (τ := τ) (main (F := Ideal))) ⟨m, fun _ => 0, ρ⟩ fun r => ∀ c : Dev nD,
      r.2.mem ((c.tc : Thread nD τ).loc main_v151) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).2 main_v151 (Pipeline.mem_restRefs_of main_v151 (by decide) (by decide))).trans (tail_eq m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c)⟩) (run_main m ρ)

open Cert.QNet in
set_option maxHeartbeats 4000000 in
/-- Entry (n, o) of the kernel's result is the kernel's one-row network of logical row n, given what the staged arrays
    hold: the input re-laid, the weights repeated along the diagonal, the routing row, the table of scales. -/
theorem result_apply (c : Dev nD)
    (W0 : Fin 65 → Fin 32 → EReal) (W1 W2 : Fin 64 → Fin 64 → EReal) (W3 : Fin 3 → Fin 64 → EReal)
    (s0 s1 s2 si so : EReal) (a0 : S1048576x32.Idx → EReal)
    (h149 : ∀ (R : Fin 262144) (L : Fin 128), (V m c main_v149 : S262144x128.Idx → EReal) (ix2 R L)
      = a0 (ix2 ⟨4 * R.val + L.val / 32, by omega⟩ ⟨L.val % 32, Nat.mod_lt _ (by norm_num)⟩))
    (h56 : (fun (j : Fin 128) (k : Fin 256) => (V m c main_v56 : S128x256.Idx → EReal) (ix2 j k)) = pack0 W0)
    (h36 : (fun (j : Fin 32) => (V m c main_v36 : S1x32.Idx → EReal) (ix2 0 j)) = W0 0)
    (h75 : (fun (j : Fin 256) (k : Fin 256) => (V m c main_v75 : S256x256.Idx → EReal) (ix2 j k)) = pack64 W1)
    (h94 : (fun (j : Fin 256) (k : Fin 256) => (V m c main_v94 : S256x256.Idx → EReal) (ix2 j k)) = pack64 W2)
    (h113 : (fun (j : Fin 256) (k : Fin 12) => (V m c main_v113 : S256x12.Idx → EReal) (ix2 j k)) = pack3 W3)
    (h148 : (fun (e : Fin 16) => (V m c main_v148 : S1x16.Idx → EReal) (ix2 0 e)) = scales s0 s1 s2 si so)
    (n : Fin 1048576) (o : Fin 3) :
    result m c (ix2 n o) = netK W0 W1 W2 W3 s0 s1 s2 si so (fun k => a0 (ix2 n k)) o := by
  have hn : n.val < 1048576 := n.isLt
  have ho : o.val < 3 := o.isLt
  have e1 : result m c (ix2 n o)
      = packed m c (ix2 (⟨n.val / 4, by omega⟩ : Fin 262144) (⟨3 * (n.val % 4) + o.val, by omega⟩ : Fin 12)) := by
    unfold result
    refine shapeCast_apply (s := S262144x12) (t := S1048576x3) _ _ _ _ ?_
    show (S262144x12.rowMajor (ix2 (⟨n.val / 4, by omega⟩ : Fin 262144) (⟨3 * (n.val % 4) + o.val, by omega⟩ : Fin 12))).val
      = (S1048576x3.rowMajor (ix2 n o)).val
    rw [Shape.rowMajor_val_two, Shape.rowMajor_val_two]
    show n.val / 4 * 12 + (3 * (n.val % 4) + o.val) = n.val * 3 + o.val
    omega
  rw [e1]
  unfold packed
  show blockNet (fun j => (V m c main_v149 : S262144x128.Idx → EReal) (ix2 (⟨n.val / 4, by omega⟩ : Fin 262144) j))
      (fun j k => (V m c main_v56 : S128x256.Idx → EReal) (ix2 j k))
      (fun j => (V m c main_v36 : S1x32.Idx → EReal) (ix2 0 j))
      (fun j k => (V m c main_v75 : S256x256.Idx → EReal) (ix2 j k))
      (fun j k => (V m c main_v94 : S256x256.Idx → EReal) (ix2 j k))
      (fun j k => (V m c main_v113 : S256x12.Idx → EReal) (ix2 j k))
      (fun e => (V m c main_v148 : S1x16.Idx → EReal) (ix2 0 e)) (⟨3 * (n.val % 4) + o.val, by omega⟩ : Fin 12) = _
  rw [h56, h36, h75, h94, h113, h148]
  have hX : (fun j : Fin 128 => (V m c main_v149 : S262144x128.Idx → EReal) (ix2 (⟨n.val / 4, by omega⟩ : Fin 262144) j))
      = fun j : Fin 128 => a0 (ix2 ⟨4 * (n.val / 4) + j.val / 32, by omega⟩ ⟨j.val % 32, Nat.mod_lt _ (by norm_num)⟩) :=
    funext fun j => h149 _ j
  rw [hX]
  have hb := blockNet_pack W0 W1 W2 W3 (scales s0 s1 s2 si so)
    (fun j : Fin 128 => a0 (ix2 ⟨4 * (n.val / 4) + j.val / 32, by omega⟩ ⟨j.val % 32, Nat.mod_lt _ (by norm_num)⟩))
    (⟨n.val % 4, Nat.mod_lt _ (by norm_num)⟩ : Fin 4) o (by show 3 * (n.val % 4) + o.val < 12; omega)
  refine hb.trans ?_
  unfold netK
  refine congrArg (fun x => netRaw W0 W1 W2 W3 (scales s0 s1 s2 si so) x o) ?_
  funext k
  show a0 (ix2 ⟨4 * (n.val / 4) + (32 * (n.val % 4) + k.val) / 32, _⟩ ⟨(32 * (n.val % 4) + k.val) % 32, _⟩) = a0 (ix2 n k)
  have hk : k.val < 32 := k.isLt
  refine congrArg a0 ?_
  funext a
  apply Fin.ext
  match a with
  | ⟨0, _⟩ => show 4 * (n.val / 4) + (32 * (n.val % 4) + k.val) / 32 = n.val; omega
  | ⟨1, _⟩ => show (32 * (n.val % 4) + k.val) % 32 = k.val; omega

end Cert.KernelIdeal.KV

end
-- ==== Proof.KGlueA.lean ====
/-
  The packed input the region stages is the input array re-laid: four consecutive logical rows side by side.
-/
import proofs.«160214_j15659450761872_2_alg».proof.Proof.FrameKI
import proofs.«160214_j15659450761872_2_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.GlueA

open Cert.KernelIdeal Cert.KernelIdeal.Gen Cert.KernelIdeal.Fr Idealize.ShloMosaic Idealize.ShloMosaic.TcCoe Idealize.SL.Sem
open Idealize.ShloMosaic.StableHlo
open Idealize.ShloMosaic.ValueIdx

variable (m : (ℓ : Loc nD τ sig) → Buf (Elt Ideal) ℓ)

set_option maxHeartbeats 4000000 in
/-- The packed input is the input re-laid: packed row `R`, lane `L` is logical row `4R + L / 32`, feature `L mod 32`. -/
theorem v149_apply (c : Dev nD) (R : Fin 262144) (L : Fin 128) :
    (V m c main_v149 : S262144x128.Idx → EReal) (ix2 R L)
      = (m ((c : Thread nD τ).loc main_arg0) : S1048576x32.Idx → EReal) (ix2 ⟨4 * R.val + L.val / 32, by omega⟩ ⟨L.val % 32, Nat.mod_lt _ (by norm_num)⟩) := by
  have e : (V m c main_v149 : S262144x128.Idx → EReal)
      = fun i => shapeCast S262144x128 (m ((c : Thread nD τ).loc main_arg0) : S1048576x32.Idx → EReal) shapeCasts_S1048576x32_S262144x128 i := by
    dsimp only [Fr.V, Fr.V0, Fr.preOps]
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
    after_results_simp
    rfl
  rw [e]
  refine shapeCast_apply (s := S1048576x32) (t := S262144x128) _ _ _ _ ?_
  show (S1048576x32.rowMajor (ix2 (⟨4 * R.val + L.val / 32, by omega⟩ : Fin 1048576) (⟨L.val % 32, Nat.mod_lt _ (by norm_num)⟩ : Fin 32))).val
    = (S262144x128.rowMajor (ix2 R L)).val
  rw [Shape.rowMajor_val_two, Shape.rowMajor_val_two]
  show (4 * R.val + L.val / 32) * 32 + L.val % 32 = R.val * 128 + L.val
  omega

end Cert.KernelIdeal.GlueA
end
-- ==== Proof.LibCallBuffers.lean ====
/-
  Two small facts about a host program read as a list of operations (Lib/StableHlo/Run.lean), for any values:

  * `after_append`: the buffers' contents after a list of operations run in two parts — the second part starts from what
    the first part leaves. It lets a long program be read in pieces, each over the previous piece's results as atoms.
  * `ofBuf_toBuf`: a value stored into a called function's typed buffer and read back from it is the value (the two
    transports along the buffer's type equation cancel). A function that jax outlined (relu, log_softmax, where …)
    passes every intermediate value through such a pair; rewriting them away first leaves the operations' plain term.
-/
import Idealize.ShloMosaic.Lib.StableHlo.Run

namespace Idealize.ShloMosaic.StableHlo

variable {τ : Topo} {sig : RefSig} {Val : EltTy → Type}

/-- Running a list of operations in two parts. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Stored into a typed buffer and read back: the value. -/
theorem TRef.ofBuf_toBuf {T : BufTy} (x : TRef sig T) (v : T.Contents Val) : x.ofBuf (x.toBuf v) = v := by
  obtain ⟨r, h, _, _⟩ := x
  subst h
  rfl

end Idealize.ShloMosaic.StableHlo
-- ==== Proof.KGlue.lean ====
/-
  What the host leaves in the buffers the region stages, read on the extended reals as functions of the argument arrays.

  Before the region the host fake-quantizes each of the four weight tensors at the tensor's own scale — its largest
  magnitude over 127: divide, round to the nearest integer, clamp to `[-127, 127]`, multiply back —, takes row 0 of the
  first as the routing row, and lays a table of sixteen numbers: the reciprocals of the three layer scales, the three
  layer scales, the input scale's reciprocal and the input scale, the output scale's reciprocal and the output scale,
  and six zeros.  A rank-0 array has one index, so its one number is read at `ix0`.

  * (W) `v8_apply`, `v17_apply`, `v26_apply`, `v35_apply`: a staged weight entry is Spec's `qwK` of the argument's
    entry at the tensor's scale (`scale0` … `scale3`);
  * (A) `v36_apply`: the routing row is row 0 of the first of them;
  * (C) `v148_apply`: the staged table is Spec's `scales` at the argument scales.
-/
import proofs.«160214_j15659450761872_2_alg».proof.Proof.FrameKI
import proofs.«160214_j15659450761872_2_alg».proof.Proof.Spec
import proofs.«160214_j15659450761872_2_alg».proof.Proof.LibCallBuffers
import Idealize.ShloMosaic.Lib.Pipeline.Value
import Idealize.ShloMosaic.Lib.ValueIdx
import Idealize.ShloMosaic.Lib.ValueLayout

set_option maxRecDepth 16384

noncomputable section

namespace Cert.KernelIdeal.Glue

open Cert.KernelIdeal Cert.KernelIdeal.Gen Cert.KernelIdeal.Fr Idealize.ShloMosaic Idealize.ShloMosaic.TcCoe Idealize.SL.Sem
open Idealize.ShloMosaic.StableHlo
open Idealize.ShloMosaic.ValueIdx

variable (m : (ℓ : Loc nD τ sig) → Buf (Elt Ideal) ℓ)

/-! ## A weight tensor fake-quantized at its own scale

Before the region the host divides each weight tensor by its scale — its largest magnitude over 127 —, rounds to the
nearest integer, clamps to `[-127, 127]` and multiplies the scale back. -/

/-- The scale of a tensor as a rank-0 array: its largest magnitude, from `-∞`, over 127. -/
def scaleArr {n0 n1 : Nat} (a : FVec Ideal ⟨2, ![n0, n1]⟩ .f32) (h : (⟨2, ![n0, n1]⟩ : Shape).ReducesTo [0, 1] S_) :
    FVec Ideal S_ .f32 :=
  Host.divf (Host.reduce FloatOps.maximumf (Host.absf a) (constant (F := Ideal) S_ .f32 0xFF800000#32) h h_S_)
    (constant (F := Ideal) S_ .f32 0x42FE0000#32)

/-- The scale of a tensor: that array's one number. -/
def scaleOf {n0 n1 : Nat} (a : FVec Ideal ⟨2, ![n0, n1]⟩ .f32) (h : (⟨2, ![n0, n1]⟩ : Shape).ReducesTo [0, 1] S_) : EReal :=
  scaleArr a h ix0

/-- The tensor fake-quantized at its scale, operation by operation. -/
def qwTensor {n0 n1 : Nat} (a : FVec Ideal ⟨2, ![n0, n1]⟩ .f32) (h : (⟨2, ![n0, n1]⟩ : Shape).ReducesTo [0, 1] S_)
    (hb : S_.BroadcastsInDim ⟨2, ![n0, n1]⟩ (![] : Fin 0 → Fin 2)) : FVec Ideal ⟨2, ![n0, n1]⟩ .f32 :=
  mulf
    (minimumf (broadcastInDim ⟨2, ![n0, n1]⟩ ![] hb (constant (F := Ideal) S_ .f32 0x42FE0000#32))
      (maximumf (broadcastInDim ⟨2, ![n0, n1]⟩ ![] hb (constant (F := Ideal) S_ .f32 0xC2FE0000#32))
        (Host.roundeven (Host.divf a (broadcastInDim ⟨2, ![n0, n1]⟩ ![] hb (scaleArr a h))))))
    (broadcastInDim ⟨2, ![n0, n1]⟩ ![] hb (scaleArr a h))

/-- At an entry it is Spec's `qwK` of the entry at the tensor's scale. -/
theorem qwTensor_apply {n0 n1 : Nat} (a : FVec Ideal ⟨2, ![n0, n1]⟩ .f32)
    (h : (⟨2, ![n0, n1]⟩ : Shape).ReducesTo [0, 1] S_) (hb : S_.BroadcastsInDim ⟨2, ![n0, n1]⟩ (![] : Fin 0 → Fin 2))
    (i : (⟨2, ![n0, n1]⟩ : Shape).Idx) :
    qwTensor a h hb i = Cert.QNet.qwK (a i) (scaleOf a h) := by
  have e : broadcastInDim ⟨2, ![n0, n1]⟩ ![] hb (scaleArr a h) i = scaleArr a h ix0 :=
    broadcastInDim_apply ![] hb (scaleArr a h) i ix0 (fun a => a.elim0)
  show min _ (max _ (Cert.QNet.RE (Ideal.div (a i) (broadcastInDim ⟨2, ![n0, n1]⟩ ![] hb (scaleArr a h) i))))
      * broadcastInDim ⟨2, ![n0, n1]⟩ ![] hb (scaleArr a h) i = _
  rw [e]
  rfl

/-- The four layers' scales. -/
def scale0 (c : Dev nD) : EReal :=
  scaleOf (m ((c : Thread nD τ).loc main_arg1) : S65x32.Idx → EReal) reducesTo_S65x32_S_d0_1
def scale1 (c : Dev nD) : EReal :=
  scaleOf (m ((c : Thread nD τ).loc main_arg2) : S64x64.Idx → EReal) reducesTo_S64x64_S_d0_1
def scale2 (c : Dev nD) : EReal :=
  scaleOf (m ((c : Thread nD τ).loc main_arg3) : S64x64.Idx → EReal) reducesTo_S64x64_S_d0_1
def scale3 (c : Dev nD) : EReal :=
  scaleOf (m ((c : Thread nD τ).loc main_arg4) : S3x64.Idx → EReal) reducesTo_S3x64_S_d0_1

set_option maxHeartbeats 8000000 in
theorem v8_eq (c : Dev nD) :
    (V m c main_v8 : S65x32.Idx → EReal)
      = qwTensor (m ((c : Thread nD τ).loc main_arg1) : S65x32.Idx → EReal) reducesTo_S65x32_S_d0_1 bcast_S_S65x32 := by
  dsimp only [Fr.V, Fr.V0, Fr.preOps]
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    List.flatten_cons, List.flatten_nil, List.append_nil, List.cons_append, List.nil_append]
  after_results_simp
  simp only [TRef.ofBuf_toBuf]
  rfl

set_option maxHeartbeats 8000000 in
theorem v17_eq (c : Dev nD) :
    (V m c main_v17 : S64x64.Idx → EReal)
      = qwTensor (m ((c : Thread nD τ).loc main_arg2) : S64x64.Idx → EReal) reducesTo_S64x64_S_d0_1 bcast_S_S64x64 := by
  dsimp only [Fr.V, Fr.V0, Fr.preOps]
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    List.flatten_cons, List.flatten_nil, List.append_nil, List.cons_append, List.nil_append]
  after_results_simp
  simp only [TRef.ofBuf_toBuf]
  rfl

set_option maxHeartbeats 8000000 in
theorem v26_eq (c : Dev nD) :
    (V m c main_v26 : S64x64.Idx → EReal)
      = qwTensor (m ((c : Thread nD τ).loc main_arg3) : S64x64.Idx → EReal) reducesTo_S64x64_S_d0_1 bcast_S_S64x64 := by
  dsimp only [Fr.V, Fr.V0, Fr.preOps]
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    List.flatten_cons, List.flatten_nil, List.append_nil, List.cons_append, List.nil_append]
  after_results_simp
  simp only [TRef.ofBuf_toBuf]
  rfl

set_option maxHeartbeats 8000000 in
theorem v35_eq (c : Dev nD) :
    (V m c main_v35 : S3x64.Idx → EReal)
      = qwTensor (m ((c : Thread nD τ).loc main_arg4) : S3x64.Idx → EReal) reducesTo_S3x64_S_d0_1 bcast_S_S3x64 := by
  dsimp only [Fr.V, Fr.V0, Fr.preOps]
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    List.flatten_cons, List.flatten_nil, List.append_nil, List.cons_append, List.nil_append]
  after_results_simp
  simp only [TRef.ofBuf_toBuf]
  rfl

/-- (W) The staged weights are the arguments', fake-quantized each at its own scale. -/
theorem v8_apply (c : Dev nD) (j : Fin 65) (k : Fin 32) :
    (V m c main_v8 : S65x32.Idx → EReal) (ix2 j k)
      = Cert.QNet.qwK ((m ((c : Thread nD τ).loc main_arg1) : S65x32.Idx → EReal) (ix2 j k)) (scale0 m c) := by
  rw [v8_eq]
  exact qwTensor_apply _ _ _ _

theorem v17_apply (c : Dev nD) (j : Fin 64) (k : Fin 64) :
    (V m c main_v17 : S64x64.Idx → EReal) (ix2 j k)
      = Cert.QNet.qwK ((m ((c : Thread nD τ).loc main_arg2) : S64x64.Idx → EReal) (ix2 j k)) (scale1 m c) := by
  rw [v17_eq]
  exact qwTensor_apply _ _ _ _

theorem v26_apply (c : Dev nD) (j : Fin 64) (k : Fin 64) :
    (V m c main_v26 : S64x64.Idx → EReal) (ix2 j k)
      = Cert.QNet.qwK ((m ((c : Thread nD τ).loc main_arg3) : S64x64.Idx → EReal) (ix2 j k)) (scale2 m c) := by
  rw [v26_eq]
  exact qwTensor_apply _ _ _ _

theorem v35_apply (c : Dev nD) (j : Fin 3) (k : Fin 64) :
    (V m c main_v35 : S3x64.Idx → EReal) (ix2 j k)
      = Cert.QNet.qwK ((m ((c : Thread nD τ).loc main_arg4) : S3x64.Idx → EReal) (ix2 j k)) (scale3 m c) := by
  rw [v35_eq]
  exact qwTensor_apply _ _ _ _

/-! ## The routing row -/

set_option maxHeartbeats 8000000 in
theorem v36_eq (c : Dev nD) :
    (V m c main_v36 : S1x32.Idx → EReal)
      = extractStridedSlice S1x32 ![0, 0]
          (qwTensor (m ((c : Thread nD τ).loc main_arg1) : S65x32.Idx → EReal) reducesTo_S65x32_S_d0_1 bcast_S_S65x32)
          slices_S65x32_S1x32_0_0 := by
  dsimp only [Fr.V, Fr.V0, Fr.preOps]
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    List.flatten_cons, List.flatten_nil, List.append_nil, List.cons_append, List.nil_append]
  after_results_simp
  simp only [TRef.ofBuf_toBuf]
  rfl

/-- (A) The staged routing row is row 0 of the first layer's fake-quantized weights. -/
theorem v36_apply (c : Dev nD) (k : Fin 32) :
    (V m c main_v36 : S1x32.Idx → EReal) (ix2 0 k)
      = Cert.QNet.qwK ((m ((c : Thread nD τ).loc main_arg1) : S65x32.Idx → EReal) (ix2 0 k)) (scale0 m c) := by
  rw [v36_eq]
  refine (extractStridedSlice_apply ![0, 0] _ slices_S65x32_S1x32_0_0 (ix2 0 k) (ix2 0 k) (fun a => by
    match a with
    | ⟨0, _⟩ => rfl
    | ⟨1, _⟩ => show k.val = 0 + k.val; omega)).trans ?_
  exact qwTensor_apply _ _ _ _

theorem v36_eq_v8 (c : Dev nD) (k : Fin 32) :
    (V m c main_v36 : S1x32.Idx → EReal) (ix2 0 k) = (V m c main_v8 : S65x32.Idx → EReal) (ix2 0 k) := by
  rw [v36_apply, v8_apply]

/-! ## The table of scales

The host lays sixteen one-element arrays end to end and re-lays the result as one row: the three reciprocal layer scales,
the three layer scales, the input scale's reciprocal and the input scale, the output scale's reciprocal and the output
scale, and six zeros. -/

/-- Sixteen one-element arrays laid end to end. -/
def cat16 (f0 f1 f2 f3 f4 f5 f6 f7 f8 f9 f10 f11 f12 f13 f14 f15 : S1.Idx → EReal) : S16.Idx → EReal :=
  concatenate S16 0
    [⟨S1, f0⟩, ⟨S1, f1⟩, ⟨S1, f2⟩, ⟨S1, f3⟩, ⟨S1, f4⟩, ⟨S1, f5⟩, ⟨S1, f6⟩, ⟨S1, f7⟩, ⟨S1, f8⟩, ⟨S1, f9⟩, ⟨S1, f10⟩, ⟨S1, f11⟩, ⟨S1, f12⟩, ⟨S1, f13⟩, ⟨S1, f14⟩, ⟨S1, f15⟩]
    concatenates_S1_S1_S1_S1_S1_S1_S1_S1_S1_S1_S1_S1_S1_S1_S1_S1_S16_d0

/-- Element `e` of the row is the one element of array `e`. -/
theorem cat16_apply (f0 f1 f2 f3 f4 f5 f6 f7 f8 f9 f10 f11 f12 f13 f14 f15 : S1.Idx → EReal) (e : Fin 16) :
    cat16 f0 f1 f2 f3 f4 f5 f6 f7 f8 f9 f10 f11 f12 f13 f14 f15 (ix1 e)
      = (![f0, f1, f2, f3, f4, f5, f6, f7, f8, f9, f10, f11, f12, f13, f14, f15] : Fin 16 → S1.Idx → EReal) e (ix1 0) := by
  unfold cat16
  exact concatenate_ofFn_unit_apply (t := S16) (s₁ := S1) (0 : Fin 1)
    (![f0, f1, f2, f3, f4, f5, f6, f7, f8, f9, f10, f11, f12, f13, f14, f15] : Fin 16 → S1.Idx → EReal)
    (show Shape.Concatenates
        ((List.ofFn fun n : Fin 16 => ((⟨S1, (![f0, f1, f2, f3, f4, f5, f6, f7, f8, f9, f10, f11, f12, f13, f14, f15] : Fin 16 → S1.Idx → EReal) n⟩ : (s : Shape) × (s.Idx → EReal)))).map (·.1)) S16 0
      from concatenates_S1_S1_S1_S1_S1_S1_S1_S1_S1_S1_S1_S1_S1_S1_S1_S1_S16_d0)
    rfl rfl (ix1 e) e rfl (ix1 0)
    (fun b hb => absurd (Subsingleton.elim _ _) hb)

/-- The sixteen-operand concatenate, each operand read at its own buffer. -/
theorem cat16_result' (hxs hy) (F : Valuation τ sig (Elt Ideal)) :
    (nary (τ := τ) ![main_v131, main_v132, main_v133, main_v134, main_v135, main_v136, main_v137, main_v138, main_v139, main_v140, main_v141, main_v142, main_v143, main_v144, main_v145, main_v146] main_v147
        (fun u => concatenate S16 0 [⟨S1, u 0⟩, ⟨S1, u 1⟩, ⟨S1, u 2⟩, ⟨S1, u 3⟩, ⟨S1, u 4⟩, ⟨S1, u 5⟩, ⟨S1, u 6⟩, ⟨S1, u 7⟩, ⟨S1, u 8⟩, ⟨S1, u 9⟩, ⟨S1, u 10⟩, ⟨S1, u 11⟩, ⟨S1, u 12⟩, ⟨S1, u 13⟩, ⟨S1, u 14⟩, ⟨S1, u 15⟩] concatenates_S1_S1_S1_S1_S1_S1_S1_S1_S1_S1_S1_S1_S1_S1_S1_S1_S16_d0)
        hxs hy).result F (no_index (Proc.devRef .tc main_v147))
      = cat16 (F (Proc.devRef .tc main_v131)) (F (Proc.devRef .tc main_v132)) (F (Proc.devRef .tc main_v133)) (F (Proc.devRef .tc main_v134)) (F (Proc.devRef .tc main_v135)) (F (Proc.devRef .tc main_v136)) (F (Proc.devRef .tc main_v137)) (F (Proc.devRef .tc main_v138)) (F (Proc.devRef .tc main_v139)) (F (Proc.devRef .tc main_v140)) (F (Proc.devRef .tc main_v141)) (F (Proc.devRef .tc main_v142)) (F (Proc.devRef .tc main_v143)) (F (Proc.devRef .tc main_v144)) (F (Proc.devRef .tc main_v145)) (F (Proc.devRef .tc main_v146)) := by
  rw [nary_result]
  rfl

/-- A rank-0 array spread to one element. -/
def spread (x : FVec Ideal S_ .f32) : FVec Ideal S1 .f32 := broadcastInDim S1 ![] bcast_S_S1 x

/-- One over a rank-0 array, spread to one element. -/
def recipSpread (x : FVec Ideal S_ .f32) : FVec Ideal S1 .f32 :=
  broadcastInDim S1 ![] bcast_S_S1 (Host.divf (constant (F := Ideal) S_ .f32 0x3F800000#32) x)

/-- Entry `n` of the three layer scales, sliced out and re-laid as a rank-0 array. -/
def entry (a5 : FVec Ideal S3 .f32) (n : Nat) (hs : S3.Slices ![n] S1) : FVec Ideal S_ .f32 :=
  shapeCast S_ (extractStridedSlice S1 ![n] a5 hs) shapeCasts_S1_S_

theorem spread_apply (x : FVec Ideal S_ .f32) : spread x (ix1 0) = x ix0 := by
  unfold spread
  exact broadcastInDim_apply ![] bcast_S_S1 x (ix1 0) ix0 (fun a => a.elim0)

theorem recipSpread_apply (x : FVec Ideal S_ .f32) : recipSpread x (ix1 0) = Ideal.div Cert.QNet.c1 (x ix0) := by
  unfold recipSpread
  exact (broadcastInDim_apply ![] bcast_S_S1 (Host.divf (constant (F := Ideal) S_ .f32 0x3F800000#32) x) (ix1 0) ix0
    (fun a => a.elim0)).trans rfl

theorem entry_apply (a5 : FVec Ideal S3 .f32) (n : Nat) (hn : n < 3) (hs : S3.Slices ![n] S1) :
    entry a5 n hs ix0 = a5 (ix1 ⟨n, hn⟩) := by
  unfold entry
  refine (shapeCast_apply _ shapeCasts_S1_S_ ix0 (ix1 0) ?_).trans ?_
  · rw [Shape.rowMajor_val_one]
    have h := (S_.rowMajor ix0).isLt
    have h1 : S_.numel = 1 := rfl
    show (0 : Nat) = _
    omega
  · exact extractStridedSlice_apply ![n] a5 hs (ix1 0) (ix1 ⟨n, hn⟩) (fun a => by
      match a with
      | ⟨0, _⟩ => show n = n + 0; omega)

/-- The table as the host lays it, over the three layer scales `a5`, the input scale `a6` and the output scale `a7`. -/
def tableOf (a5 : FVec Ideal S3 .f32) (a6 a7 : FVec Ideal S_ .f32) : FVec Ideal S1x16 .f32 :=
  shapeCast S1x16
    (cat16
      (recipSpread (entry a5 0 slices_S3_S1_0)) (recipSpread (entry a5 1 slices_S3_S1_1))
      (recipSpread (entry a5 2 slices_S3_S1_2))
      (spread (entry a5 0 slices_S3_S1_0)) (spread (entry a5 1 slices_S3_S1_1)) (spread (entry a5 2 slices_S3_S1_2))
      (recipSpread a6) (spread a6) (recipSpread a7) (spread a7)
      (spread (constant (F := Ideal) S_ .f32 0x00000000#32)) (spread (constant (F := Ideal) S_ .f32 0x00000000#32))
      (spread (constant (F := Ideal) S_ .f32 0x00000000#32)) (spread (constant (F := Ideal) S_ .f32 0x00000000#32))
      (spread (constant (F := Ideal) S_ .f32 0x00000000#32)) (spread (constant (F := Ideal) S_ .f32 0x00000000#32)))
    shapeCasts_S16_S1x16

/-- Entry by entry it is Spec's table of scales. -/
theorem tableOf_apply (a5 : FVec Ideal S3 .f32) (a6 a7 : FVec Ideal S_ .f32) (e : Fin 16) :
    tableOf a5 a6 a7 (ix2 0 e)
      = Cert.QNet.scales (a5 (ix1 0)) (a5 (ix1 1)) (a5 (ix1 2)) (a6 ix0) (a7 ix0) e := by
  unfold tableOf
  refine (shapeCast_apply _ shapeCasts_S16_S1x16 (ix2 0 e) (ix1 e) ?_).trans ?_
  · rw [Shape.rowMajor_val_one, Shape.rowMajor_val_two]
    show e.val = 0 * 16 + e.val
    omega
  refine (cat16_apply _ _ _ _ _ _ _ _ _ _ _ _ _ _ _ _ e).trans ?_
  fin_cases e
  · show recipSpread (entry a5 0 slices_S3_S1_0) (ix1 0) = Ideal.div Cert.QNet.c1 (a5 (ix1 0))
    rw [recipSpread_apply, entry_apply a5 0 (by omega)]
    rfl
  · show recipSpread (entry a5 1 slices_S3_S1_1) (ix1 0) = Ideal.div Cert.QNet.c1 (a5 (ix1 1))
    rw [recipSpread_apply, entry_apply a5 1 (by omega)]
    rfl
  · show recipSpread (entry a5 2 slices_S3_S1_2) (ix1 0) = Ideal.div Cert.QNet.c1 (a5 (ix1 2))
    rw [recipSpread_apply, entry_apply a5 2 (by omega)]
    rfl
  · show spread (entry a5 0 slices_S3_S1_0) (ix1 0) = a5 (ix1 0)
    rw [spread_apply, entry_apply a5 0 (by omega)]
    rfl
  · show spread (entry a5 1 slices_S3_S1_1) (ix1 0) = a5 (ix1 1)
    rw [spread_apply, entry_apply a5 1 (by omega)]
    rfl
  · show spread (entry a5 2 slices_S3_S1_2) (ix1 0) = a5 (ix1 2)
    rw [spread_apply, entry_apply a5 2 (by omega)]
    rfl
  · show recipSpread a6 (ix1 0) = Ideal.div Cert.QNet.c1 (a6 ix0)
    exact recipSpread_apply a6
  · show spread a6 (ix1 0) = a6 ix0
    exact spread_apply a6
  · show recipSpread a7 (ix1 0) = Ideal.div Cert.QNet.c1 (a7 ix0)
    exact recipSpread_apply a7
  · show spread a7 (ix1 0) = a7 ix0
    exact spread_apply a7
  · show spread (constant (F := Ideal) S_ .f32 0x00000000#32) (ix1 0) = Cert.QNet.c0
    exact spread_apply _
  · show spread (constant (F := Ideal) S_ .f32 0x00000000#32) (ix1 0) = Cert.QNet.c0
    exact spread_apply _
  · show spread (constant (F := Ideal) S_ .f32 0x00000000#32) (ix1 0) = Cert.QNet.c0
    exact spread_apply _
  · show spread (constant (F := Ideal) S_ .f32 0x00000000#32) (ix1 0) = Cert.QNet.c0
    exact spread_apply _
  · show spread (constant (F := Ideal) S_ .f32 0x00000000#32) (ix1 0) = Cert.QNet.c0
    exact spread_apply _
  · show spread (constant (F := Ideal) S_ .f32 0x00000000#32) (ix1 0) = Cert.QNet.c0
    exact spread_apply _

set_option maxHeartbeats 16000000 in
theorem v148_eq (c : Dev nD) :
    (V m c main_v148 : S1x16.Idx → EReal)
      = tableOf (m ((c : Thread nD τ).loc main_arg5) : S3.Idx → EReal)
          (m ((c : Thread nD τ).loc main_arg6) : S_.Idx → EReal) (m ((c : Thread nD τ).loc main_arg7) : S_.Idx → EReal) := by
  dsimp only [Fr.V, Fr.V0, Fr.preOps]
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    List.flatten_cons, List.flatten_nil, List.append_nil, List.cons_append, List.nil_append]
  simp (disch := decide) only [after_cons, after_nil,
    nullary_result', unary_result', binary_result', ternary_result', quaternary_result', reshape_result', cat16_result',
    unaryIndexed_result', binaryIndexed_result',
    nullary_result_ne', unary_result_ne', binary_result_ne', ternary_result_ne', quaternary_result_ne', reshape_result_ne',
    nary_result_ne', unaryIndexed_result_ne', binaryIndexed_result_ne']
  rfl

/-- (C) The staged table, entry by entry, is Spec's table of scales at the argument scales. -/
theorem v148_apply (c : Dev nD) :
    (fun e : Fin 16 => (V m c main_v148 : S1x16.Idx → EReal) (ix2 0 e))
      = Cert.QNet.scales
          ((m ((c : Thread nD τ).loc main_arg5) : S3.Idx → EReal) (ix1 0))
          ((m ((c : Thread nD τ).loc main_arg5) : S3.Idx → EReal) (ix1 1))
          ((m ((c : Thread nD τ).loc main_arg5) : S3.Idx → EReal) (ix1 2))
          ((m ((c : Thread nD τ).loc main_arg6) : S_.Idx → EReal) ix0)
          ((m ((c : Thread nD τ).loc main_arg7) : S_.Idx → EReal) ix0) := by
  funext e
  rw [v148_eq]
  exact tableOf_apply _ _ _ e

end Cert.KernelIdeal.Glue
end
-- ==== Proof.LibFoldWrite.lean ====
/-
  A left fold of point writes, read at one index.

  Starting from a function x, a list of steps is folded with a step function g. Each step n has an optional target
  index tgt n; the step leaves every index other than its target as it was (`hmiss`), and writes the value val n
  at its target (`hhit`) — a plain write. Then the folded function at an index i' is decided by the steps whose
  target is i': if no step of the list targets i' the value is x i' (`foldl_write_miss`); if every step that targets
  i' is one and the same step k, and k is in the list and targets i', the value is val k (`foldl_write_hit`).
  This is what a scatter of scalar updates at pairwise distinct result indices computes, whatever the order.
-/
import Mathlib.Data.List.Basic

namespace Cert.LibFoldWrite

variable {ι κ α : Type}

/-- No step of the list targets i': the fold keeps the starting value there. -/
theorem foldl_write_miss (g : (κ → α) → ι → κ → α) (tgt : ι → Option κ)
    (hmiss : ∀ (r : κ → α) (n : ι) (i' : κ), tgt n ≠ some i' → g r n i' = r i')
    (L : List ι) (x : κ → α) (i' : κ) (h : ∀ n ∈ L, tgt n ≠ some i') : L.foldl g x i' = x i' := by
  induction L generalizing x with
  | nil => rfl
  | cons a L ih =>
    rw [List.foldl_cons, ih _ (fun n hn => h n (List.mem_cons_of_mem _ hn)), hmiss x a i' (h a List.mem_cons_self)]

/-- The only step that targets i' is k, which is in the list: the fold holds k's value there. -/
theorem foldl_write_hit (g : (κ → α) → ι → κ → α) (tgt : ι → Option κ) (val : ι → α)
    (hmiss : ∀ (r : κ → α) (n : ι) (i' : κ), tgt n ≠ some i' → g r n i' = r i')
    (hhit : ∀ (r : κ → α) (n : ι) (i' : κ), tgt n = some i' → g r n i' = val n)
    (L : List ι) (x : κ → α) (i' : κ) (k : ι) (hk : k ∈ L) (hkt : tgt k = some i')
    (hu : ∀ n ∈ L, tgt n = some i' → n = k) : L.foldl g x i' = val k := by
  induction L generalizing x with
  | nil => exact absurd hk List.not_mem_nil
  | cons a L ih =>
    rw [List.foldl_cons]
    by_cases hkL : k ∈ L
    · exact ih _ hkL (fun n hn => hu n (List.mem_cons_of_mem _ hn))
    · have hak : a = k := by
        rcases List.mem_cons.mp hk with h | h
        · exact h.symm
        · exact absurd h hkL
      rw [foldl_write_miss g tgt hmiss L _ i'
          (fun n hn e => hkL (by rw [← hu n (List.mem_cons_of_mem _ hn) e]; exact hn)),
        hak, hhit x k i' hkt]

end Cert.LibFoldWrite
-- ==== Proof.LibSegmentOps.lean ====
/-
  Segment sums and row gathers read at an index

  A graph layer sums, for every node, a value carried by each edge that ends at it, and reads, for every edge, a value
  carried by the node it starts from. In StableHLO the first is a `scatter` whose body adds, over an index array of shape
  `[M, 1]` (one node number per edge), and the second a `gather` over the same kind of index array. This file reads
  both at one element, at the ideal instance (a float is an extended real), for a vector of node values (`[N]`) and for
  a matrix of node rows (`[N, C]`):

  * `scatterAdd1_apply` / `scatterAdd2_apply`: element `i` (or `(i, o)`) of the accumulated array is the operand's
    element plus the sum, over the edges `e` whose index word read as a signed integer is `i`, of update `e` (or
    `(e, o)`); an edge whose index is outside `[0, N)` contributes to no element.
  * `gather1_apply` / `gather2_apply`: element `e` (or `(e, o)`) of the gathered array is the operand at the index word of
    edge `e` read as a signed integer and clamped into `[0, N - 1]`.

  The dimension numbers are abbreviations that take the proof of their side conditions as an argument, so a record with the
  same field lists is one of them by `rfl`.
-/
import Idealize.ShloMosaic.PureOps.Ideal
import Idealize.ShloMosaic.Lib.ValueIdx

noncomputable section

open scoped BigOperators

namespace Idealize.ShloMosaic.SegmentOps

open Idealize.ShloMosaic Idealize.ShloMosaic.ValueIdx

/-! ## Two general facts -/

/-- A rank-1 index set is its coordinate range. -/
def idxEquiv1 {n : Nat} : (⟨1, ![n]⟩ : Shape).Idx ≃ Fin n where
  toFun j := j 0
  invFun a := ix1 a
  left_inv j := (eq_ix1 j).symm
  right_inv _ := rfl

/-- An update index `j` lands at the operand index `i` exactly when, on every operand axis, the start read off the
    scatter indices plus the window coordinate is `i`'s coordinate (so in particular is inside the operand). -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro he a
      have h1 := congrFun (Option.some.inj he) a
      have h2 := congrArg Fin.val h1
      simp only at h2
      have := h a
      omega
    · intro he
      refine congrArg some (funext fun a => Fin.ext ?_)
      have := he a
      simp only
      omega
  · rename_i h
    constructor
    · intro he; exact absurd he (by simp)
    · intro he
      exact absurd (fun a => by have := he a; have := (i a).isLt; omega) h

/-- An operand axis is kept by a scatter's window exactly when it is not an inserted axis. -/
theorem mem_sKept {s si u : Shape} (d : ScatterDims s si u) (a : Fin s.rank) :
    a ∈ d.sKept ↔ a ∉ d.insertedWindowDims := by
  simp [ScatterDims.sKept, Shape.kept, List.mem_filter, List.mem_finRange]

/-! ## Gathering node values along the edges -/

section Gather
variable {α : Type}

/-- The dimension numbers of the gather of a vector of node values `[N]` at an index array `[M, 1]`: the one operand
    axis is collapsed and named by the start index map, every slice is one element, and the index vector lies along axis 1. -/
abbrev rowDims1 (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- The gather of a vector read at edge `e`: the operand at the index word of `e`, read signed and clamped into
    `[0, N - 1]`. -/
theorem gather1_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (rowDims1 N M wf) x idx (ix1 e) = x (ix1 ⟨min (idx (ix2 e 0)).toInt.toNat (N - 1), by omega⟩) := by
  unfold Host.gather
  congr 1
  funext a
  obtain rfl : a = 0 := Subsingleton.elim _ _
  refine Fin.ext ?_
  show (rowDims1 N M wf).start (ix1 e) idx 0 + (rowDims1 N M wf).batchCoord (ix1 e) 0
    + (rowDims1 N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (rowDims1 N M wf).startIndexMap from List.mem_singleton.mpr rfl)]
  have hsi : (rowDims1 N M wf).siIdx (ix1 e) ⟨List.idxOf (0 : Fin 1) (rowDims1 N M wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The dimension numbers of the gather of a matrix of node rows `[N, C]` at an index array `[M, 1]`: the row axis
    is collapsed and named by the start index map, a slice is one whole row, which fills the result's axis 1, and the index
    vector lies along axis 1. -/
abbrev rowDims2 (N C M : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The gather of rows read at edge `e` and column `o`: column `o` of the operand's row at the index word of `e`, read
    signed and clamped into `[0, N - 1]`. -/
theorem gather2_apply {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (o : Fin C) :
    Host.gather (rowDims2 N C M wf) x idx (ix2 e o)
      = x (ix2 ⟨min (idx (ix2 e 0)).toInt.toNat (N - 1), by omega⟩ o) := by
  unfold Host.gather
  congr 1
  funext a
  refine Fin.ext ?_
  match a with
  | ⟨0, _⟩ =>
    show (rowDims2 N C M wf).start (ix2 e o) idx 0 + (rowDims2 N C M wf).batchCoord (ix2 e o) 0
      + (rowDims2 N C M wf).offCoord (ix2 e o) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims2 N C M wf).startIndexMap from List.mem_singleton.mpr rfl)]
    have hsi : (rowDims2 N C M wf).siIdx (ix2 e o) ⟨List.idxOf (0 : Fin 2) (rowDims2 N C M wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims2 N C M wf).start (ix2 e o) idx 1 + (rowDims2 N C M wf).batchCoord (ix2 e o) 1
      + (rowDims2 N C M wf).offCoord (ix2 e o) 1 = _
    have h1 : (1 : Fin 2) ∉ (rowDims2 N C M wf).startIndexMap := by
      intro h; exact absurd (List.mem_singleton.mp h) (show ¬((1 : Fin 2) = 0) by decide)
    have h2 : (1 : Fin 2) ∈ (rowDims2 N C M wf).sKept :=
      (GatherDims.mem_sKept _ _).mpr ⟨fun h => absurd (List.mem_singleton.mp h) (show ¬((1 : Fin 2) = 0) by decide), List.not_mem_nil⟩
    rw [GatherDims.batchCoord_eq_zero _ _ _ List.not_mem_nil]
    unfold GatherDims.start GatherDims.offCoord
    rw [dif_neg h1, dif_pos h2]
    simp only [Nat.add_zero, Nat.zero_add]
    rfl

end Gather

/-! ## Summing edge values into the nodes -/

section ScatterAdd
variable {φ : FTy}

/-- The dimension numbers of the accumulation of a vector of edge values `[M]` into a vector of node values `[N]` at an
    index array `[M, 1]`: an update is a single element (no window axis), the one operand axis is inserted and named by
    the index vector, which lies along axis 1. -/
abbrev addDims1 (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Edge `e`'s value lands at node `i` exactly when the index word of `e`, read signed, is `i`. -/
theorem addDims1_lands {N M w : Nat} (wf : ScatterDims.WF ⟨1, ![N]⟩ ⟨2, ![M, 1]⟩ ⟨1, ![M]⟩ [] [0] [0] 1)
    (idx : IVec ⟨2, ![M, 1]⟩ w) (e : Fin M) (i : Fin N) :
    (addDims1 N M wf).resultIdx? (ix1 e) idx = some (ix1 i) ↔ (idx (ix2 e 0)).toInt = (i.val : Int) := by
  rw [resultIdx?_eq_some_iff]
  have hstart : (addDims1 N M wf).start (ix1 e) idx 0 = (idx (ix2 e 0)).toInt := by
    unfold ScatterDims.start
    rw [dif_pos (show (0 : Fin 1) ∈ (addDims1 N M wf).scatterDimsToOperandDims from List.mem_singleton.mpr rfl)]
    have hsi : (addDims1 N M wf).siIdx (ix1 e) ⟨List.idxOf (0 : Fin 1) (addDims1 N M wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hwin : (addDims1 N M wf).window (ix1 e) 0 = 0 := by
    unfold ScatterDims.window
    rw [dif_neg (fun h => (mem_sKept _ _).mp h (List.mem_singleton.mpr rfl))]
  constructor
  · intro h
    have h0 : (addDims1 N M wf).start (ix1 e) idx 0 + (((addDims1 N M wf).window (ix1 e) 0 : Nat) : Int)
        = (i.val : Int) := h 0
    rw [hstart, hwin] at h0
    simpa using h0
  · intro h a
    obtain rfl : a = 0 := Subsingleton.elim _ _
    show (addDims1 N M wf).start (ix1 e) idx 0 + (((addDims1 N M wf).window (ix1 e) 0 : Nat) : Int) = (i.val : Int)
    rw [hstart, hwin]
    simpa using h

/-- The accumulated vector read at node `i`: the operand's element plus the sum of the updates of the edges whose index
    word, read signed, is `i`. -/
theorem scatterAdd1_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Host.scatterAdd (F := Ideal) (φ := φ) (addDims1 N M wf) x idx upd (ix1 i)
      = x (ix1 i) + ∑ e ∈ Finset.univ.filter (fun e : Fin M => (idx (ix2 e 0)).toInt = (i.val : Int)),
          upd (ix1 e) := by
  show Ideal.hostScatterAdd (addDims1 N M wf) x idx upd (ix1 i) = _
  unfold Ideal.hostScatterAdd
  congr 1
  rw [Finset.sum_filter, Finset.sum_filter, ← Equiv.sum_comp (idxEquiv1 (n := M)).symm]
  refine Finset.sum_congr rfl fun e _ => ?_
  show (if (addDims1 N M wf).resultIdx? (ix1 e) idx = some (ix1 i) then upd (ix1 e) else 0) = _
  by_cases h : (idx (ix2 e 0)).toInt = (i.val : Int)
  · rw [if_pos ((addDims1_lands wf idx e i).mpr h), if_pos h]
  · rw [if_neg (fun h' => h ((addDims1_lands wf idx e i).mp h')), if_neg h]

/-- The dimension numbers of the accumulation of a matrix of edge rows `[M, C]` into a matrix of node rows `[N, C]` at
    an index array `[M, 1]`: an update is one whole row (axis 1 of the updates is the window, laid on axis 1 of the
    operand), the row axis of the operand is inserted and named by the index vector, which lies along axis 1. -/
abbrev addDims2 (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- Column `o'` of edge `e`'s row lands at column `o` of node `i` exactly when the index word of `e`, read signed, is
    `i` and the columns are the same. -/
theorem addDims2_lands {N C M w : Nat} (wf : ScatterDims.WF ⟨2, ![N, C]⟩ ⟨2, ![M, 1]⟩ ⟨2, ![M, C]⟩ [1] [0] [0] 1)
    (idx : IVec ⟨2, ![M, 1]⟩ w) (e : Fin M) (o' : Fin C) (i : Fin N) (o : Fin C) :
    (addDims2 N C M wf).resultIdx? (ix2 e o') idx = some (ix2 i o)
      ↔ (idx (ix2 e 0)).toInt = (i.val : Int) ∧ o' = o := by
  rw [resultIdx?_eq_some_iff]
  have hstart0 : (addDims2 N C M wf).start (ix2 e o') idx 0 = (idx (ix2 e 0)).toInt := by
    unfold ScatterDims.start
    rw [dif_pos (show (0 : Fin 2) ∈ (addDims2 N C M wf).scatterDimsToOperandDims from List.mem_singleton.mpr rfl)]
    have hsi : (addDims2 N C M wf).siIdx (ix2 e o') ⟨List.idxOf (0 : Fin 2) (addDims2 N C M wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hstart1 : (addDims2 N C M wf).start (ix2 e o') idx 1 = 0 := by
    unfold ScatterDims.start
    rw [dif_neg (fun h => absurd (List.mem_singleton.mp h) (show ¬((1 : Fin 2) = 0) by decide))]
  have hwin0 : (addDims2 N C M wf).window (ix2 e o') 0 = 0 := by
    unfold ScatterDims.window
    rw [dif_neg (fun h => (mem_sKept _ _).mp h (List.mem_singleton.mpr rfl))]
  have hwin1 : (addDims2 N C M wf).window (ix2 e o') 1 = o'.val := by
    unfold ScatterDims.window
    rw [dif_pos ((mem_sKept _ _).mpr
      (fun h => absurd (List.mem_singleton.mp h) (show ¬((1 : Fin 2) = 0) by decide)))]
    rfl
  constructor
  · intro h
    have h0 : (addDims2 N C M wf).start (ix2 e o') idx 0 + (((addDims2 N C M wf).window (ix2 e o') 0 : Nat) : Int)
        = (i.val : Int) := h 0
    have h1 : (addDims2 N C M wf).start (ix2 e o') idx 1 + (((addDims2 N C M wf).window (ix2 e o') 1 : Nat) : Int)
        = (o.val : Int) := h 1
    rw [hstart0, hwin0] at h0
    rw [hstart1, hwin1] at h1
    exact ⟨by simpa using h0, Fin.ext (by omega)⟩
  · rintro ⟨h, rfl⟩ a
    match a with
    | ⟨0, _⟩ =>
      show (addDims2 N C M wf).start (ix2 e o') idx 0 + (((addDims2 N C M wf).window (ix2 e o') 0 : Nat) : Int)
        = (i.val : Int)
      rw [hstart0, hwin0]
      simpa using h
    | ⟨1, _⟩ =>
      show (addDims2 N C M wf).start (ix2 e o') idx 1 + (((addDims2 N C M wf).window (ix2 e o') 1 : Nat) : Int)
        = (o'.val : Int)
      rw [hstart1, hwin1]
      simp

/-- The accumulated matrix read at node `i` and column `o`: the operand's element plus the sum, over the edges whose
    index word read signed is `i`, of column `o` of the edge's update row. -/
theorem scatterAdd2_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w)
    (upd : (⟨2, ![M, C]⟩ : Shape).Idx → EReal) (i : Fin N) (o : Fin C) :
    Host.scatterAdd (F := Ideal) (φ := φ) (addDims2 N C M wf) x idx upd (ix2 i o)
      = x (ix2 i o) + ∑ e ∈ Finset.univ.filter (fun e : Fin M => (idx (ix2 e 0)).toInt = (i.val : Int)),
          upd (ix2 e o) := by
  show Ideal.hostScatterAdd (addDims2 N C M wf) x idx upd (ix2 i o) = _
  unfold Ideal.hostScatterAdd
  congr 1
  rw [Finset.sum_filter, Finset.sum_filter, sum_idx2]
  refine Finset.sum_congr rfl fun e _ => ?_
  by_cases h : (idx (ix2 e 0)).toInt = (i.val : Int)
  · rw [if_pos h, Finset.sum_eq_single o]
    · exact if_pos ((addDims2_lands wf idx e o i o).mpr ⟨h, rfl⟩)
    · intro b _ hb
      exact if_neg (fun h' => hb ((addDims2_lands wf idx e b i o).mp h').2)
    · intro ho
      exact absurd (Finset.mem_univ o) ho
  · rw [if_neg h]
    exact Finset.sum_eq_zero fun b _ => if_neg (fun h' => h ((addDims2_lands wf idx e b i o).mp h').1)

end ScatterAdd

end Idealize.ShloMosaic.SegmentOps

end
-- ==== Proof.LibScatterWindow.lean ====
/-
  One update window written into a matrix, read at an index

  Writing an a × b matrix m into the rows r0 … r0 + a - 1 and columns c0 … c0 + b - 1 of an A × B matrix (every other
  element left as it was) is in StableHLO a scatter with ONE index vector [r0, c0] (a 2-element integer
  tensor whose only axis is the index vector's), both axes of the update window axes, laid on the operand's two axes in
  order, no inserted axis, and a body that returns the update. The scatter is a left fold, over the update's elements in
  row-major order, of point writes: element (p, q) of the update is written at (r0 + p, c0 + q) when that is inside the
  operand and dropped when it is not, the two offsets read as signed integers and not clamped. Distinct update elements
  land at distinct places, so the fold read at one element (j, k) of the result is decided by the at most one update
  element that lands there:

  * scatter_set_miss / scatter_set_hit: for ANY dimension numbers, a scatter whose body returns the update holds, at an
    index where no update element lands, the operand's element, and at an index where exactly one lands, that element;
  * windowDims_lands: update element (p, q) lands at (j, k) exactly when r0 + p = j and c0 + q = k;
  * scatter_window_apply: the result at (j, k) is the update at (j - r0, k - c0) when r0 ≤ j < r0 + a and
    c0 ≤ k < c0 + b, and the operand at (j, k) otherwise — for any signed offsets (a window that leaves the operand
    loses only the part outside it, which no index (j, k) of the result names);
  * scatter_window_at: the same with the two offsets given as natural numbers.

  The dimension numbers are an abbreviation that takes the proof of its side conditions as an argument, so a record with the
  same field lists over shapes of this form is one of them by rfl. The element type is arbitrary.
-/
import Idealize.ShloMosaic.PureOps.Ideal
import Idealize.ShloMosaic.Lib.ValueIdx
import proofs.«160214_j15659450761872_2_alg».proof.Proof.LibFoldWrite
import proofs.«160214_j15659450761872_2_alg».proof.Proof.LibSegmentOps

namespace Idealize.ShloMosaic.ScatterWindow

open Idealize.ShloMosaic Idealize.ShloMosaic.ValueIdx

/-- The dimension numbers of the write of one a × b window into an A × B operand at one index vector of two words: both
    update axes are window axes, no operand axis is inserted, word 0 of the index vector is the row offset and word 1 the
    column offset, and the index vector lies along axis 0 of the scatter indices. -/
abbrev windowDims (A B a b : Nat)
    (wf : ScatterDims.WF ⟨2, ![A, B]⟩ ⟨1, ![2]⟩ ⟨2, ![a, b]⟩ [0, 1] [] [0, 1] 0) :
    ScatterDims ⟨2, ![A, B]⟩ ⟨1, ![2]⟩ ⟨2, ![a, b]⟩ where
  updateWindowDims := [0, 1]
  insertedWindowDims := []
  scatterDimsToOperandDims := [0, 1]
  indexVectorDim := 0
  wf := wf

/-! ## A scatter whose body returns the update, read at an index (any dimension numbers) -/

/-- No update element lands at the index i': the scatter leaves the operand's element there. -/
theorem scatter_set_miss {s si u : Shape} {w : Nat} {α : Type} (d : ScatterDims s si u) (x : s.Idx → α)
    (idx : IVec si w) (upd : u.Idx → α) (i' : s.Idx) (h : ∀ n : u.Idx, d.resultIdx? n idx ≠ some i') :
    Host.scatter d (fun _ v => v) x idx upd i' = x i' := by
  unfold Host.scatter
  refine Cert.LibFoldWrite.foldl_write_miss _ (fun n => d.resultIdx? (u.rowMajor.symm n) idx) ?_ _ x i'
    (fun n _ => h _)
  intro r n i'' hne
  have hne' : d.resultIdx? (u.rowMajor.symm n) idx ≠ some i'' := hne
  dsimp only
  cases hc : d.resultIdx? (u.rowMajor.symm n) idx with
  | none => rfl
  | some i =>
    have hi : i'' ≠ i := fun e => hne' (by rw [hc, e])
    show (if i'' = i then _ else r i'') = r i''
    rw [if_neg hi]

/-- Exactly one update element, k, lands at the index i': the scatter holds that element of the update there. -/
theorem scatter_set_hit {s si u : Shape} {w : Nat} {α : Type} (d : ScatterDims s si u) (x : s.Idx → α)
    (idx : IVec si w) (upd : u.Idx → α) (i' : s.Idx) (k : u.Idx) (hk : d.resultIdx? k idx = some i')
    (hu : ∀ n : u.Idx, d.resultIdx? n idx = some i' → n = k) :
    Host.scatter d (fun _ v => v) x idx upd i' = upd k := by
  unfold Host.scatter
  have key := Cert.LibFoldWrite.foldl_write_hit
    (fun (r : s.Idx → α) (n : Fin u.numel) =>
      match d.resultIdx? (u.rowMajor.symm n) idx with
      | some i => fun i' => if i' = i then (fun _ v => v) (r i) (upd (u.rowMajor.symm n)) else r i'
      | none => r)
    (fun n => d.resultIdx? (u.rowMajor.symm n) idx) (fun n => upd (u.rowMajor.symm n)) ?_ ?_
    (List.finRange u.numel) x i' (u.rowMajor k) (List.mem_finRange _) ?_ ?_
  · rw [Equiv.symm_apply_apply] at key
    exact key
  · intro r n i'' hne
    have hne' : d.resultIdx? (u.rowMajor.symm n) idx ≠ some i'' := hne
    dsimp only
    cases hc : d.resultIdx? (u.rowMajor.symm n) idx with
    | none => rfl
    | some i =>
      have hi : i'' ≠ i := fun e => hne' (by rw [hc, e])
      show (if i'' = i then _ else r i'') = r i''
      rw [if_neg hi]
  · intro r n i'' he
    have he' : d.resultIdx? (u.rowMajor.symm n) idx = some i'' := he
    dsimp only
    cases hc : d.resultIdx? (u.rowMajor.symm n) idx with
    | none => exact absurd (he'.symm.trans hc) (by simp)
    | some i =>
      have hi : i'' = i := Option.some.inj (he'.symm.trans hc)
      show (if i'' = i then _ else r i'') = _
      rw [if_pos hi]
  · show d.resultIdx? (u.rowMajor.symm (u.rowMajor k)) idx = some i'
    rw [Equiv.symm_apply_apply]; exact hk
  · intro n _ hn
    have hn' : d.resultIdx? (u.rowMajor.symm n) idx = some i' := hn
    rw [← hu _ hn', Equiv.apply_symm_apply]

/-! ## One window at one index vector -/

section
variable {A B a b w : Nat} (wf : ScatterDims.WF ⟨2, ![A, B]⟩ ⟨1, ![2]⟩ ⟨2, ![a, b]⟩ [0, 1] [] [0, 1] 0)

/-- The window starts, on the row axis, at word 0 of the index vector read signed. -/
theorem start_row (u : (⟨2, ![a, b]⟩ : Shape).Idx) (idx : IVec ⟨1, ![2]⟩ w) :
    (windowDims A B a b wf).start u idx 0 = (idx (ix1 0)).toInt := by
  unfold ScatterDims.start
  rw [dif_pos (show (0 : Fin 2) ∈ (windowDims A B a b wf).scatterDimsToOperandDims from List.mem_cons_self)]
  have hsi : (windowDims A B a b wf).siIdx u ⟨List.idxOf (0 : Fin 2) (windowDims A B a b wf).scatterDimsToOperandDims,
      List.idxOf_lt_length_iff.2 List.mem_cons_self⟩ = ix1 0 := by
    funext c; refine Fin.ext ?_
    match c with
    | ⟨0, _⟩ => rfl
  rw [hsi]

/-- The window starts, on the column axis, at word 1 of the index vector read signed. -/
theorem start_col (u : (⟨2, ![a, b]⟩ : Shape).Idx) (idx : IVec ⟨1, ![2]⟩ w) :
    (windowDims A B a b wf).start u idx 1 = (idx (ix1 1)).toInt := by
  have hm : (1 : Fin 2) ∈ (windowDims A B a b wf).scatterDimsToOperandDims :=
    List.mem_cons_of_mem _ List.mem_cons_self
  unfold ScatterDims.start
  rw [dif_pos hm]
  have hsi : (windowDims A B a b wf).siIdx u ⟨List.idxOf (1 : Fin 2) (windowDims A B a b wf).scatterDimsToOperandDims,
      List.idxOf_lt_length_iff.2 hm⟩ = ix1 1 := by
    funext c; refine Fin.ext ?_
    match c with
    | ⟨0, _⟩ => rfl
  rw [hsi]

/-- The window coordinate on the row axis is the update's row. -/
theorem window_row (p : Fin a) (q : Fin b) : (windowDims A B a b wf).window (ix2 p q) 0 = p.val := by
  unfold ScatterDims.window
  rw [dif_pos ((SegmentOps.mem_sKept _ _).mpr List.not_mem_nil)]
  rfl

/-- The window coordinate on the column axis is the update's column. -/
theorem window_col (p : Fin a) (q : Fin b) : (windowDims A B a b wf).window (ix2 p q) 1 = q.val := by
  unfold ScatterDims.window
  rw [dif_pos ((SegmentOps.mem_sKept _ _).mpr List.not_mem_nil)]
  rfl

/-- Update element (p, q) lands at (j, k) exactly when the row offset plus p is j and the column offset plus q is k. -/
theorem windowDims_lands (idx : IVec ⟨1, ![2]⟩ w) (p : Fin a) (q : Fin b) (j : Fin A) (k : Fin B) :
    (windowDims A B a b wf).resultIdx? (ix2 p q) idx = some (ix2 j k) ↔
      (idx (ix1 0)).toInt + (p.val : Int) = (j.val : Int) ∧ (idx (ix1 1)).toInt + (q.val : Int) = (k.val : Int) := by
  rw [SegmentOps.resultIdx?_eq_some_iff]
  constructor
  · intro h
    have h0 : (windowDims A B a b wf).start (ix2 p q) idx 0 + (((windowDims A B a b wf).window (ix2 p q) 0 : Nat) : Int)
        = (j.val : Int) := h 0
    have h1 : (windowDims A B a b wf).start (ix2 p q) idx 1 + (((windowDims A B a b wf).window (ix2 p q) 1 : Nat) : Int)
        = (k.val : Int) := h 1
    rw [start_row, window_row] at h0
    rw [start_col, window_col] at h1
    exact ⟨h0, h1⟩
  · rintro ⟨h0, h1⟩ c
    match c with
    | ⟨0, _⟩ =>
      show (windowDims A B a b wf).start (ix2 p q) idx 0 + (((windowDims A B a b wf).window (ix2 p q) 0 : Nat) : Int)
        = (j.val : Int)
      rw [start_row, window_row]; exact h0
    | ⟨1, _⟩ =>
      show (windowDims A B a b wf).start (ix2 p q) idx 1 + (((windowDims A B a b wf).window (ix2 p q) 1 : Nat) : Int)
        = (k.val : Int)
      rw [start_col, window_col]; exact h1

/-- The written matrix read at (j, k): inside the window the update at (j, k) less the offsets, outside it the operand.
    The offsets are the two words of the index vector read signed; nothing is asked of them. -/
theorem scatter_window_apply {α : Type} (x : (⟨2, ![A, B]⟩ : Shape).Idx → α) (idx : IVec ⟨1, ![2]⟩ w)
    (upd : (⟨2, ![a, b]⟩ : Shape).Idx → α) (j : Fin A) (k : Fin B) :
    Host.scatter (windowDims A B a b wf) (fun _ v => v) x idx upd (ix2 j k) =
      if h : ((idx (ix1 0)).toInt ≤ (j.val : Int) ∧ (j.val : Int) < (idx (ix1 0)).toInt + (a : Int)) ∧
          ((idx (ix1 1)).toInt ≤ (k.val : Int) ∧ (k.val : Int) < (idx (ix1 1)).toInt + (b : Int)) then
        upd (ix2 ⟨((j.val : Int) - (idx (ix1 0)).toInt).toNat, by omega⟩
          ⟨((k.val : Int) - (idx (ix1 1)).toInt).toNat, by omega⟩)
      else x (ix2 j k) := by
  by_cases h : ((idx (ix1 0)).toInt ≤ (j.val : Int) ∧ (j.val : Int) < (idx (ix1 0)).toInt + (a : Int)) ∧
      ((idx (ix1 1)).toInt ≤ (k.val : Int) ∧ (k.val : Int) < (idx (ix1 1)).toInt + (b : Int))
  · rw [dif_pos h]
    -- inside the window: exactly one update element lands at (j, k)
    refine scatter_set_hit (windowDims A B a b wf) x idx upd (ix2 j k) _ ?_ ?_
    · refine (windowDims_lands wf idx _ _ j k).mpr ⟨?_, ?_⟩
      · show (idx (ix1 0)).toInt + ((((j.val : Int) - (idx (ix1 0)).toInt).toNat : Nat) : Int) = (j.val : Int)
        omega
      · show (idx (ix1 1)).toInt + ((((k.val : Int) - (idx (ix1 1)).toInt).toNat : Nat) : Int) = (k.val : Int)
        omega
    · intro n hn
      rw [eq_ix2 n] at hn ⊢
      obtain ⟨e0, e1⟩ := (windowDims_lands wf idx _ _ j k).mp hn
      congr 1
      · exact Fin.ext (by show (n 0).val = ((j.val : Int) - (idx (ix1 0)).toInt).toNat; omega)
      · exact Fin.ext (by show (n 1).val = ((k.val : Int) - (idx (ix1 1)).toInt).toNat; omega)
  · rw [dif_neg h]
    -- outside the window: no update element lands at (j, k)
    refine scatter_set_miss (windowDims A B a b wf) x idx upd (ix2 j k) ?_
    intro n hn
    rw [eq_ix2 n] at hn
    obtain ⟨e0, e1⟩ := (windowDims_lands wf idx _ _ j k).mp hn
    have l0 : (n 0).val < a := idx2_lt0 n
    have l1 : (n 1).val < b := idx2_lt1 n
    exact h ⟨⟨by omega, by omega⟩, ⟨by omega, by omega⟩⟩

/-- The written matrix read at (j, k) when the two offsets are the natural numbers r0 and c0: the update at
    (j - r0, k - c0) when r0 ≤ j < r0 + a and c0 ≤ k < c0 + b, the operand at (j, k) otherwise. -/
theorem scatter_window_at {α : Type} (x : (⟨2, ![A, B]⟩ : Shape).Idx → α) (idx : IVec ⟨1, ![2]⟩ w)
    (upd : (⟨2, ![a, b]⟩ : Shape).Idx → α) (r0 c0 : Nat)
    (hr : (idx (ix1 0)).toInt = (r0 : Int)) (hc : (idx (ix1 1)).toInt = (c0 : Int)) (j : Fin A) (k : Fin B) :
    Host.scatter (windowDims A B a b wf) (fun _ v => v) x idx upd (ix2 j k) =
      if h : (r0 ≤ j.val ∧ j.val < r0 + a) ∧ (c0 ≤ k.val ∧ k.val < c0 + b) then
        upd (ix2 ⟨j.val - r0, by omega⟩ ⟨k.val - c0, by omega⟩)
      else x (ix2 j k) := by
  rw [scatter_window_apply]
  by_cases h : (r0 ≤ j.val ∧ j.val < r0 + a) ∧ (c0 ≤ k.val ∧ k.val < c0 + b)
  · rw [dif_pos h, dif_pos (by rw [hr, hc]; omega)]
    congr 1
    funext c
    match c with
    | ⟨0, _⟩ => exact Fin.ext (by show ((j.val : Int) - (idx (ix1 0)).toInt).toNat = j.val - r0; rw [hr]; omega)
    | ⟨1, _⟩ => exact Fin.ext (by show ((k.val : Int) - (idx (ix1 1)).toInt).toNat = k.val - c0; rw [hc]; omega)
  · rw [dif_neg h, dif_neg (by rw [hr, hc]; omega)]

end

end Idealize.ShloMosaic.ScatterWindow
-- ==== Proof.KGlueBD.lean ====
/-
  The four block-diagonal weight packings, as the region finds them

  Before the region the program packs each layer's quantized weight for a product with four rows of the batch at once: the
  weight W (an a × b matrix after the transpose) is written into the diagonal blocks (0, 0), (1, 1), (2, 2), (3, 3) of a
  4a × 4b matrix of zeros — four writes of one window each, at the offsets (i a, i b) —, and the result is narrowed to
  bf16 (the identity on extended reals). Read at an index (j, k), the packed matrix is W at (j mod a, k mod b) when
  j / a = k / b (the block is on the diagonal) and zero otherwise. This file proves that for the four packings:

  * V_main_v56: the 128 × 256 packing of rows 1 to 64 of the 65 × 32 first-layer weight, transposed (a = 32, b = 64);
  * V_main_v75, V_main_v94: the 256 × 256 packings of the two 64 × 64 hidden-layer weights, transposed (a = b = 64);
  * V_main_v113: the 256 × 12 packing of the 3 × 64 last-layer weight, transposed (a = 64, b = 3).

  Each has a pure half and a program half. The pure half (packNN, packNN_apply) takes the packing as a function of the
  weight — transpose (after a slice), zero fill, four window writes, narrowing — and reads it at an index: every window
  write is read by the window lemma (inside the window the update less the offsets, outside it the operand), the four
  nested case distinctions are settled by linear arithmetic over the literal extents, and the zero fill is the zero word of
  f32. The program half cuts the host operations before the region at their last stretch (the buffers on entry are the last
  stretch run from the buffers before it, V0_cut), runs that stretch at the packing's buffer and at the weight's buffer
  (after_main_vNN: the packing's buffer holds packNN of the weight's buffer), and joins the two.
-/
import proofs.«160214_j15659450761872_2_alg».proof.Proof.FrameKI
import proofs.«160214_j15659450761872_2_alg».proof.Proof.LibScatterWindow
import proofs.«160214_j15659450761872_2_alg».proof.Proof.LibCallBuffers
import Idealize.ShloMosaic.Lib.ValueLayout
import Idealize.ShloMosaic.Lib.IdealHost

set_option maxRecDepth 16384

noncomputable section

namespace Cert.KernelIdeal.Glue

open Cert.KernelIdeal Cert.KernelIdeal.Gen
open Idealize.ShloMosaic Idealize.ShloMosaic.TcCoe Idealize.ShloMosaic.ValueIdx Idealize.ShloMosaic.StableHlo

/-! ## The index vectors and the zero fill -/

/-- The index vector of two words: two one-word tensors, each a scalar constant broadcast, laid end to end. -/
abbrev idxVec (r c : BitVec 32) : IVec S2 32 :=
  concatenate S2 0 [⟨S1, broadcastInDim S1 ![] bcast_S_S1 (constantI S_ 32 r)⟩,
    ⟨S1, broadcastInDim S1 ![] bcast_S_S1 (constantI S_ 32 c)⟩] concatenates_S1_S1_S2_d0

/-- Its word 0 is the first constant. -/
theorem idxVec_0 (r c : BitVec 32) : idxVec r c (ix1 0) = r := rfl
/-- Its word 1 is the second constant. -/
theorem idxVec_1 (r c : BitVec 32) : idxVec r c (ix1 1) = c := rfl

/-- Two indices with equal coordinates are equal. -/
theorem ix2_congr {n0 n1 : Nat} {a a' : Fin n0} {b b' : Fin n1} (ha : a.val = a'.val) (hb : b.val = b'.val) :
    ix2 a b = ix2 a' b' := by
  rw [Fin.ext ha, Fin.ext hb]

/-! ## The first layer's weight: four 32 × 64 windows down the diagonal of a 128 × 256 matrix of zeros -/

/-- One window written into the 128 × 256 matrix at natural offsets, read at an index. -/
theorem scat56_at (x : S128x256.Idx → EReal) (idx : IVec S2 32) (upd : S32x64.Idx → EReal) (r0 c0 : Nat)
    (hr : (idx (ix1 0)).toInt = (r0 : Int)) (hc : (idx (ix1 1)).toInt = (c0 : Int)) (j : Fin 128) (k : Fin 256) :
    Host.scatter scatter_S128x256_S2_S32x64_01_n_01_0 (fun _ b => b) x idx upd (ix2 j k) =
      if h : (r0 ≤ j.val ∧ j.val < r0 + 32) ∧ (c0 ≤ k.val ∧ k.val < c0 + 64) then
        upd (ix2 ⟨j.val - r0, by omega⟩ ⟨k.val - c0, by omega⟩)
      else x (ix2 j k) :=
  ScatterWindow.scatter_window_at (A := 128) (B := 256) (a := 32) (b := 64)
    scatter_S128x256_S2_S32x64_01_n_01_0.wf x idx upd r0 c0 hr hc j k

/-- The same at an index vector of two constants whose signed readings are the natural numbers r0 and c0. -/
theorem scat56_lit (x : S128x256.Idx → EReal) (r c : BitVec 32) (upd : S32x64.Idx → EReal) (r0 c0 : Nat)
    (hr : r.toInt = (r0 : Int)) (hc : c.toInt = (c0 : Int)) (j : Fin 128) (k : Fin 256) :
    Host.scatter scatter_S128x256_S2_S32x64_01_n_01_0 (fun _ b => b) x (idxVec r c) upd (ix2 j k) =
      if h : (r0 ≤ j.val ∧ j.val < r0 + 32) ∧ (c0 ≤ k.val ∧ k.val < c0 + 64) then
        upd (ix2 ⟨j.val - r0, by omega⟩ ⟨k.val - c0, by omega⟩)
      else x (ix2 j k) :=
  scat56_at x (idxVec r c) upd r0 c0 ((congrArg BitVec.toInt (idxVec_0 r c)).trans hr)
    ((congrArg BitVec.toInt (idxVec_1 r c)).trans hc) j k

/-- The first packing as a function of the weight: rows 1 to 64 of the 65 × 32 weight, transposed, written four times
    down the diagonal of a zero matrix, then narrowed (the identity on extended reals). -/
abbrev pack56 (x8 : S65x32.Idx → EReal) : S128x256.Idx → EReal :=
  let T : S32x64.Idx → EReal :=
    transpose S32x64 [1, 0] (extractStridedSlice S64x32 ![1, 0] x8 slices_S65x32_S64x32_1_0) transposes_S64x32_S32x64_1_0
  (truncf .bf16 (Host.scatter scatter_S128x256_S2_S32x64_01_n_01_0 (fun _ b => b)
    (Host.scatter scatter_S128x256_S2_S32x64_01_n_01_0 (fun _ b => b)
      (Host.scatter scatter_S128x256_S2_S32x64_01_n_01_0 (fun _ b => b)
        (Host.scatter scatter_S128x256_S2_S32x64_01_n_01_0 (fun _ b => b)
          (broadcastInDim S128x256 ![] bcast_S_S128x256 (constant (F := Ideal) S_ .f32 0x00000000#32))
          (idxVec 0#32 0#32) T)
        (idxVec 32#32 64#32) T)
      (idxVec 64#32 128#32) T)
    (idxVec 96#32 192#32) T) bitsLt_bf16_f32 : FVec Ideal S128x256 .bf16)

/-- The first packing read at (j, k): block (j / 32, k / 64) of the 4 × 4 grid of 32 × 64 blocks is the transposed weight
    when it is on the diagonal and zero when it is not. -/
theorem pack56_apply (x8 : S65x32.Idx → EReal) (j : Fin 128) (k : Fin 256) :
    pack56 x8 (ix2 j k) =
      if j.val / 32 = k.val / 64 then x8 (ix2 ⟨1 + k.val % 64, by omega⟩ ⟨j.val % 32, by omega⟩) else 0 := by
  have hT : ∀ (p : Fin 32) (q : Fin 64),
      (transpose S32x64 [1, 0] (extractStridedSlice S64x32 ![1, 0] x8 slices_S65x32_S64x32_1_0)
        transposes_S64x32_S32x64_1_0 : S32x64.Idx → EReal) (ix2 p q) = x8 (ix2 ⟨1 + q.val, by omega⟩ p) := fun p q => by
    rw [transpose_ix2_apply, slice2_axis0_apply 1 x8 _ q p ⟨1 + q.val, by omega⟩ rfl]
  dsimp only [pack56]
  rw [truncf_apply,
    scat56_lit _ 96#32 192#32 _ 96 192 (by decide) (by decide),
    scat56_lit _ 64#32 128#32 _ 64 128 (by decide) (by decide),
    scat56_lit _ 32#32 64#32 _ 32 64 (by decide) (by decide),
    scat56_lit _ 0#32 0#32 _ 0 0 (by decide) (by decide),
    broadcastInDim_scalar_apply, constant_apply, Ideal.ofBits_zero_f32]
  split_ifs <;> first
    | (rw [hT]; exact congrArg x8 (ix2_congr (by dsimp only; omega) (by dsimp only; omega)))
    | omega
    | rfl

/-! ## A hidden layer's weight: four 64 × 64 windows down the diagonal of a 256 × 256 matrix of zeros -/

/-- One window written into the 256 × 256 matrix at natural offsets, read at an index. -/
theorem scat64_at (x : S256x256.Idx → EReal) (idx : IVec S2 32) (upd : S64x64.Idx → EReal) (r0 c0 : Nat)
    (hr : (idx (ix1 0)).toInt = (r0 : Int)) (hc : (idx (ix1 1)).toInt = (c0 : Int)) (j : Fin 256) (k : Fin 256) :
    Host.scatter scatter_S256x256_S2_S64x64_01_n_01_0 (fun _ b => b) x idx upd (ix2 j k) =
      if h : (r0 ≤ j.val ∧ j.val < r0 + 64) ∧ (c0 ≤ k.val ∧ k.val < c0 + 64) then
        upd (ix2 ⟨j.val - r0, by omega⟩ ⟨k.val - c0, by omega⟩)
      else x (ix2 j k) :=
  ScatterWindow.scatter_window_at (A := 256) (B := 256) (a := 64) (b := 64)
    scatter_S256x256_S2_S64x64_01_n_01_0.wf x idx upd r0 c0 hr hc j k

/-- The same at an index vector of two constants whose signed readings are the natural numbers r0 and c0. -/
theorem scat64_lit (x : S256x256.Idx → EReal) (r c : BitVec 32) (upd : S64x64.Idx → EReal) (r0 c0 : Nat)
    (hr : r.toInt = (r0 : Int)) (hc : c.toInt = (c0 : Int)) (j : Fin 256) (k : Fin 256) :
    Host.scatter scatter_S256x256_S2_S64x64_01_n_01_0 (fun _ b => b) x (idxVec r c) upd (ix2 j k) =
      if h : (r0 ≤ j.val ∧ j.val < r0 + 64) ∧ (c0 ≤ k.val ∧ k.val < c0 + 64) then
        upd (ix2 ⟨j.val - r0, by omega⟩ ⟨k.val - c0, by omega⟩)
      else x (ix2 j k) :=
  scat64_at x (idxVec r c) upd r0 c0 ((congrArg BitVec.toInt (idxVec_0 r c)).trans hr)
    ((congrArg BitVec.toInt (idxVec_1 r c)).trans hc) j k

/-- A hidden layer's packing as a function of its 64 × 64 weight: the weight transposed, written four times down the
    diagonal of a zero matrix, then narrowed (the identity on extended reals). -/
abbrev pack64 (x : S64x64.Idx → EReal) : S256x256.Idx → EReal :=
  let T : S64x64.Idx → EReal :=
    transpose S64x64 [1, 0] x transposes_S64x64_S64x64_1_0
  (truncf .bf16 (Host.scatter scatter_S256x256_S2_S64x64_01_n_01_0 (fun _ b => b)
    (Host.scatter scatter_S256x256_S2_S64x64_01_n_01_0 (fun _ b => b)
      (Host.scatter scatter_S256x256_S2_S64x64_01_n_01_0 (fun _ b => b)
        (Host.scatter scatter_S256x256_S2_S64x64_01_n_01_0 (fun _ b => b)
          (broadcastInDim S256x256 ![] bcast_S_S256x256 (constant (F := Ideal) S_ .f32 0x00000000#32))
          (idxVec 0#32 0#32) T)
        (idxVec 64#32 64#32) T)
      (idxVec 128#32 128#32) T)
    (idxVec 192#32 192#32) T) bitsLt_bf16_f32 : FVec Ideal S256x256 .bf16)

/-- The packing read at (j, k): block (j / 64, k / 64) of the 4 × 4 grid of 64 × 64 blocks is the transposed weight when it
    is on the diagonal and zero when it is not. -/
theorem pack64_apply (x : S64x64.Idx → EReal) (j : Fin 256) (k : Fin 256) :
    pack64 x (ix2 j k) =
      if j.val / 64 = k.val / 64 then x (ix2 ⟨k.val % 64, by omega⟩ ⟨j.val % 64, by omega⟩) else 0 := by
  have hT : ∀ (p : Fin 64) (q : Fin 64),
      (transpose S64x64 [1, 0] x transposes_S64x64_S64x64_1_0 : S64x64.Idx → EReal) (ix2 p q) = x (ix2 q p) := fun p q => by
    rw [transpose_ix2_apply]
  dsimp only [pack64]
  rw [truncf_apply,
    scat64_lit _ 192#32 192#32 _ 192 192 (by decide) (by decide),
    scat64_lit _ 128#32 128#32 _ 128 128 (by decide) (by decide),
    scat64_lit _ 64#32 64#32 _ 64 64 (by decide) (by decide),
    scat64_lit _ 0#32 0#32 _ 0 0 (by decide) (by decide),
    broadcastInDim_scalar_apply, constant_apply, Ideal.ofBits_zero_f32]
  split_ifs <;> first
    | (rw [hT]; exact congrArg x (ix2_congr (by dsimp only; omega) (by dsimp only; omega)))
    | omega
    | rfl

/-! ## The last layer's weight: four 64 × 3 windows down the diagonal of a 256 × 12 matrix of zeros -/

/-- One window written into the 256 × 12 matrix at natural offsets, read at an index. -/
theorem scat113_at (x : S256x12.Idx → EReal) (idx : IVec S2 32) (upd : S64x3.Idx → EReal) (r0 c0 : Nat)
    (hr : (idx (ix1 0)).toInt = (r0 : Int)) (hc : (idx (ix1 1)).toInt = (c0 : Int)) (j : Fin 256) (k : Fin 12) :
    Host.scatter scatter_S256x12_S2_S64x3_01_n_01_0 (fun _ b => b) x idx upd (ix2 j k) =
      if h : (r0 ≤ j.val ∧ j.val < r0 + 64) ∧ (c0 ≤ k.val ∧ k.val < c0 + 3) then
        upd (ix2 ⟨j.val - r0, by omega⟩ ⟨k.val - c0, by omega⟩)
      else x (ix2 j k) :=
  ScatterWindow.scatter_window_at (A := 256) (B := 12) (a := 64) (b := 3)
    scatter_S256x12_S2_S64x3_01_n_01_0.wf x idx upd r0 c0 hr hc j k

/-- The same at an index vector of two constants whose signed readings are the natural numbers r0 and c0. -/
theorem scat113_lit (x : S256x12.Idx → EReal) (r c : BitVec 32) (upd : S64x3.Idx → EReal) (r0 c0 : Nat)
    (hr : r.toInt = (r0 : Int)) (hc : c.toInt = (c0 : Int)) (j : Fin 256) (k : Fin 12) :
    Host.scatter scatter_S256x12_S2_S64x3_01_n_01_0 (fun _ b => b) x (idxVec r c) upd (ix2 j k) =
      if h : (r0 ≤ j.val ∧ j.val < r0 + 64) ∧ (c0 ≤ k.val ∧ k.val < c0 + 3) then
        upd (ix2 ⟨j.val - r0, by omega⟩ ⟨k.val - c0, by omega⟩)
      else x (ix2 j k) :=
  scat113_at x (idxVec r c) upd r0 c0 ((congrArg BitVec.toInt (idxVec_0 r c)).trans hr)
    ((congrArg BitVec.toInt (idxVec_1 r c)).trans hc) j k

/-- The last packing as a function of the 3 × 64 weight: the weight transposed, written four times down the diagonal of a
    zero matrix, then narrowed (the identity on extended reals). -/
abbrev pack113 (x : S3x64.Idx → EReal) : S256x12.Idx → EReal :=
  let T : S64x3.Idx → EReal :=
    transpose S64x3 [1, 0] x transposes_S3x64_S64x3_1_0
  (truncf .bf16 (Host.scatter scatter_S256x12_S2_S64x3_01_n_01_0 (fun _ b => b)
    (Host.scatter scatter_S256x12_S2_S64x3_01_n_01_0 (fun _ b => b)
      (Host.scatter scatter_S256x12_S2_S64x3_01_n_01_0 (fun _ b => b)
        (Host.scatter scatter_S256x12_S2_S64x3_01_n_01_0 (fun _ b => b)
          (broadcastInDim S256x12 ![] bcast_S_S256x12 (constant (F := Ideal) S_ .f32 0x00000000#32))
          (idxVec 0#32 0#32) T)
        (idxVec 64#32 3#32) T)
      (idxVec 128#32 6#32) T)
    (idxVec 192#32 9#32) T) bitsLt_bf16_f32 : FVec Ideal S256x12 .bf16)

/-- The last packing read at (j, k): block (j / 64, k / 3) of the 4 × 4 grid of 64 × 3 blocks is the transposed weight when
    it is on the diagonal and zero when it is not. -/
theorem pack113_apply (x : S3x64.Idx → EReal) (j : Fin 256) (k : Fin 12) :
    pack113 x (ix2 j k) =
      if j.val / 64 = k.val / 3 then x (ix2 ⟨k.val % 3, by omega⟩ ⟨j.val % 64, by omega⟩) else 0 := by
  have hT : ∀ (p : Fin 64) (q : Fin 3),
      (transpose S64x3 [1, 0] x transposes_S3x64_S64x3_1_0 : S64x3.Idx → EReal) (ix2 p q) = x (ix2 q p) := fun p q => by
    rw [transpose_ix2_apply]
  dsimp only [pack113]
  rw [truncf_apply,
    scat113_lit _ 192#32 9#32 _ 192 9 (by decide) (by decide),
    scat113_lit _ 128#32 6#32 _ 128 6 (by decide) (by decide),
    scat113_lit _ 64#32 3#32 _ 64 3 (by decide) (by decide),
    scat113_lit _ 0#32 0#32 _ 0 0 (by decide) (by decide),
    broadcastInDim_scalar_apply, constant_apply, Ideal.ofBits_zero_f32]
  split_ifs <;> first
    | (rw [hT]; exact congrArg x (ix2_congr (by dsimp only; omega) (by dsimp only; omega)))
    | omega
    | rfl

/-! ## The host operations before the region, cut before their last stretch -/

/-- The stretches of host operations before the last one. -/
def pre16 : List (List (HloOp τ sig (Elt Ideal))) :=
  [hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15]

/-- Core c's buffers before the last stretch of host operations. -/
def W (m : (ℓ : Loc nD τ sig) → Buf (Elt Ideal) ℓ) (c : Dev nD) : Valuation τ sig (Elt Ideal) :=
  StableHlo.after (List.flatten pre16) (fun b => m (c, b))

/-- A list of one list, flattened. -/
theorem flatten_one {α : Type} (l : List α) : List.flatten [l] = l := by simp

/-- The buffers when the region is entered are the last stretch run from the buffers before it. -/
theorem V0_cut (m : (ℓ : Loc nD τ sig) → Buf (Elt Ideal) ℓ) (c : Dev nD) :
    Fr.V0 (F := Ideal) m c = StableHlo.after hostOps0_16 (W m c) := by
  have e : (Fr.preOps (F := Ideal)) = pre16 ++ [hostOps0_16] := rfl
  show StableHlo.after (List.flatten (Fr.preOps (F := Ideal))) _ = _
  rw [e, List.flatten_append, after_append, flatten_one]
  rfl

/-- The same read at a reference. -/
theorem V_cut (m : (ℓ : Loc nD τ sig) → Buf (Elt Ideal) ℓ) (c : Dev nD) (b : Ref sig .tc) :
    Fr.V (F := Ideal) m c b = StableHlo.after hostOps0_16 (W m c) (Proc.devRef .tc b) :=
  congrFun (V0_cut m c) (Proc.devRef .tc b)

/-- The results of a line of operations that a single pass leaves inside a list of pieces: rewritten one by one. -/
local macro "results_rw" : tactic =>
  `(tactic| repeat (first
      | rw [nullary_result] | rw [unary_result] | rw [binary_result] | rw [ternary_result]
      | (rw [nullary_result_ne]; rotate_left; decide)
      | (rw [unary_result_ne]; rotate_left; decide)
      | (rw [binary_result_ne]; rotate_left; decide)
      | (rw [ternary_result_ne]; rotate_left; decide)))

/-! ## The four packings when the region is entered -/

set_option maxHeartbeats 4000000 in
/-- The last stretch computes this packing from the weight it finds. -/
theorem after_main_v56 (W0 : Valuation τ sig (Elt Ideal)) :
    (StableHlo.after (hostOps0_16 (F := Ideal)) W0 (Proc.devRef .tc main_v56) : S128x256.Idx → EReal)
      = pack56 (StableHlo.after (hostOps0_16 (F := Ideal)) W0 (Proc.devRef .tc main_v8) : S65x32.Idx → EReal) := by
  after_results_simp
  results_rw
  all_goals rfl

/-- The first layer's packed weight when the region is entered: block (j / 32, k / 64) is the quantized weight's rows 1 to
    64, transposed, on the diagonal, and zero off it. -/
theorem V_main_v56 (m : (ℓ : Loc nD τ sig) → Buf (Elt Ideal) ℓ) (c : Dev nD) (j : Fin 128) (k : Fin 256) :
    (Fr.V (F := Ideal) m c main_v56 : S128x256.Idx → EReal) (ix2 j k) =
      if j.val / 32 = k.val / 64 then
        (Fr.V (F := Ideal) m c main_v8 : S65x32.Idx → EReal) (ix2 ⟨1 + k.val % 64, by omega⟩ ⟨j.val % 32, by omega⟩)
      else (0 : EReal) := by
  rw [V_cut m c main_v56, V_cut m c main_v8, after_main_v56]
  exact pack56_apply _ j k

set_option maxHeartbeats 4000000 in
/-- The last stretch computes this packing from the weight it finds. -/
theorem after_main_v75 (W0 : Valuation τ sig (Elt Ideal)) :
    (StableHlo.after (hostOps0_16 (F := Ideal)) W0 (Proc.devRef .tc main_v75) : S256x256.Idx → EReal)
      = pack64 (StableHlo.after (hostOps0_16 (F := Ideal)) W0 (Proc.devRef .tc main_v17) : S64x64.Idx → EReal) := by
  after_results_simp
  results_rw
  all_goals rfl

/-- The second layer's packed weight when the region is entered: block (j / 64, k / 64) is the quantized 64 × 64 weight,
    transposed, on the diagonal, and zero off it. -/
theorem V_main_v75 (m : (ℓ : Loc nD τ sig) → Buf (Elt Ideal) ℓ) (c : Dev nD) (j : Fin 256) (k : Fin 256) :
    (Fr.V (F := Ideal) m c main_v75 : S256x256.Idx → EReal) (ix2 j k) =
      if j.val / 64 = k.val / 64 then
        (Fr.V (F := Ideal) m c main_v17 : S64x64.Idx → EReal) (ix2 ⟨k.val % 64, by omega⟩ ⟨j.val % 64, by omega⟩)
      else (0 : EReal) := by
  rw [V_cut m c main_v75, V_cut m c main_v17, after_main_v75]
  exact pack64_apply _ j k

set_option maxHeartbeats 4000000 in
/-- The last stretch computes this packing from the weight it finds. -/
theorem after_main_v94 (W0 : Valuation τ sig (Elt Ideal)) :
    (StableHlo.after (hostOps0_16 (F := Ideal)) W0 (Proc.devRef .tc main_v94) : S256x256.Idx → EReal)
      = pack64 (StableHlo.after (hostOps0_16 (F := Ideal)) W0 (Proc.devRef .tc main_v26) : S64x64.Idx → EReal) := by
  after_results_simp
  results_rw
  all_goals rfl

/-- The third layer's packed weight when the region is entered: block (j / 64, k / 64) is the quantized 64 × 64 weight,
    transposed, on the diagonal, and zero off it. -/
theorem V_main_v94 (m : (ℓ : Loc nD τ sig) → Buf (Elt Ideal) ℓ) (c : Dev nD) (j : Fin 256) (k : Fin 256) :
    (Fr.V (F := Ideal) m c main_v94 : S256x256.Idx → EReal) (ix2 j k) =
      if j.val / 64 = k.val / 64 then
        (Fr.V (F := Ideal) m c main_v26 : S64x64.Idx → EReal) (ix2 ⟨k.val % 64, by omega⟩ ⟨j.val % 64, by omega⟩)
      else (0 : EReal) := by
  rw [V_cut m c main_v94, V_cut m c main_v26, after_main_v94]
  exact pack64_apply _ j k

set_option maxHeartbeats 4000000 in
/-- The last stretch computes this packing from the weight it finds. -/
theorem after_main_v113 (W0 : Valuation τ sig (Elt Ideal)) :
    (StableHlo.after (hostOps0_16 (F := Ideal)) W0 (Proc.devRef .tc main_v113) : S256x12.Idx → EReal)
      = pack113 (StableHlo.after (hostOps0_16 (F := Ideal)) W0 (Proc.devRef .tc main_v35) : S3x64.Idx → EReal) := by
  after_results_simp
  results_rw
  all_goals rfl

/-- The last layer's packed weight when the region is entered: block (j / 64, k / 3) is the quantized 3 × 64 weight,
    transposed, on the diagonal, and zero off it. -/
theorem V_main_v113 (m : (ℓ : Loc nD τ sig) → Buf (Elt Ideal) ℓ) (c : Dev nD) (j : Fin 256) (k : Fin 12) :
    (Fr.V (F := Ideal) m c main_v113 : S256x12.Idx → EReal) (ix2 j k) =
      if j.val / 64 = k.val / 3 then
        (Fr.V (F := Ideal) m c main_v35 : S3x64.Idx → EReal) (ix2 ⟨k.val % 3, by omega⟩ ⟨j.val % 64, by omega⟩)
      else (0 : EReal) := by
  rw [V_cut m c main_v113, V_cut m c main_v35, after_main_v113]
  exact pack113_apply _ j k

end Cert.KernelIdeal.Glue
-- ==== Proof.LibFakeQuant.lean ====
import Idealize.ShloMosaic.PureOps.Ideal
import Idealize.ShloMosaic.PureOps.Ideal.Laws

/-!
# Fake quantisation on the extended reals

General facts about floats read as extended reals (`EReal`), where every float operation is its
exact textbook operation and a division by zero answers an infinity.

* Straight-through rounding `x + (round x - x)` of a real `x` IS `round x`, and the rounding of a
  real is a real.
* Multiplying by the reciprocal `1 / s` is dividing by `s` when `s ≠ 0`; a quotient of reals by a
  nonzero real is a real.
* The fake-quantise law: clamp (round (x · (1 / s))) · s and clamp (q + (round q - q)) · s with
  `q = x / s` are the same extended real for ALL real `x` and `s` — for `s ≠ 0` by the two facts
  above, for `s = 0` because both are a product with `0`, which is `0` on the extended reals.
  The clamp of anything to real bounds is a real, so each such result is a real.
* The routing threshold: `1 / (1 + e^(-a)) ≥ 1/2` exactly when `a ≥ 0`.
* The blend `m · c + (1 - m) · d` with `m ∈ {0, 1}` selects `c` or `d`, whatever `c` and `d` are.
* A finite sum of reals, and of products of reals, is a real.
* The values of the IEEE single-precision patterns of `0`, `1/2`, `1`, `127`, `-127`, `255`, `-∞`.
-/

namespace Idealize.ShloMosaic.FakeQuant

open Idealize.ShloMosaic

/-! ### Rounding -/

/-- A rounding of a real is a real: the integer the rounding picks. -/
theorem liftRound_coe_eq (f : ℝ → ℤ) (x : ℝ) :
    Ideal.liftRound f ((x : ℝ) : EReal) = (((f x : ℤ) : ℝ) : EReal) := rfl

/-- A rounding of a real is a real. -/
theorem liftRound_coe_isReal (f : ℝ → ℤ) (x : ℝ) :
    ∃ r : ℝ, Ideal.liftRound f ((x : ℝ) : EReal) = ((r : ℝ) : EReal) := ⟨_, rfl⟩

/-- Round-to-nearest-even of a real is a real. -/
theorem roundeven_coe_isReal (x : ℝ) :
    ∃ r : ℝ, Ideal.liftRound Ideal.roundHalfEven ((x : ℝ) : EReal) = ((r : ℝ) : EReal) := ⟨_, rfl⟩

/-- Straight-through rounding of a real is the rounding: `x + (f x - x) = f x`, the subtraction
    and the addition being exact on the reals. -/
theorem ste_liftRound (f : ℝ → ℤ) (x : ℝ) :
    ((x : ℝ) : EReal) + (Ideal.liftRound f ((x : ℝ) : EReal) - ((x : ℝ) : EReal))
      = Ideal.liftRound f ((x : ℝ) : EReal) := by
  rw [Ideal.liftRound_coe, ← EReal.coe_sub, ← EReal.coe_add]
  congr 1
  ring

/-- Straight-through round-to-nearest-even of a real is round-to-nearest-even. -/
theorem ste_roundeven (x : ℝ) :
    ((x : ℝ) : EReal)
        + (Ideal.liftRound Ideal.roundHalfEven ((x : ℝ) : EReal) - ((x : ℝ) : EReal))
      = Ideal.liftRound Ideal.roundHalfEven ((x : ℝ) : EReal) :=
  ste_liftRound _ x

/-! ### Division off zero -/

/-- The quotient of reals by a nonzero real is the real quotient. -/
theorem div_coe_of_ne_zero (x s : ℝ) (hs : s ≠ 0) :
    Ideal.div ((x : ℝ) : EReal) ((s : ℝ) : EReal) = (((x / s : ℝ)) : EReal) := by
  rw [Ideal.div, if_neg (EReal.coe_ne_zero.2 hs), ← EReal.coe_inv, ← EReal.coe_mul, div_eq_mul_inv]

/-- The quotient of reals by a nonzero real is a real. -/
theorem div_coe_isReal (x s : ℝ) (hs : s ≠ 0) :
    ∃ r : ℝ, Ideal.div ((x : ℝ) : EReal) ((s : ℝ) : EReal) = ((r : ℝ) : EReal) :=
  ⟨_, div_coe_of_ne_zero x s hs⟩

/-- The reciprocal of a nonzero real is the real reciprocal. -/
theorem div_one_coe_of_ne_zero (s : ℝ) (hs : s ≠ 0) :
    Ideal.div 1 ((s : ℝ) : EReal) = (((s⁻¹ : ℝ)) : EReal) := by
  rw [Ideal.div, if_neg (EReal.coe_ne_zero.2 hs), one_mul, ← EReal.coe_inv]

/-- Scaling by the reciprocal is dividing, off zero. -/
theorem mul_div_one_eq_div (x s : ℝ) (hs : s ≠ 0) :
    ((x : ℝ) : EReal) * Ideal.div 1 ((s : ℝ) : EReal)
      = Ideal.div ((x : ℝ) : EReal) ((s : ℝ) : EReal) := by
  rw [Ideal.div, Ideal.div, if_neg (EReal.coe_ne_zero.2 hs), if_neg (EReal.coe_ne_zero.2 hs), one_mul]

/-! ### The fake-quantise law -/

/-- The embedding of the reals preserves `min`. -/
theorem coe_min (a b : ℝ) : ((min a b : ℝ) : EReal) = min ((a : ℝ) : EReal) ((b : ℝ) : EReal) :=
  EReal.coe_strictMono.monotone.map_min

/-- The embedding of the reals preserves `max`. -/
theorem coe_max (a b : ℝ) : ((max a b : ℝ) : EReal) = max ((a : ℝ) : EReal) ((b : ℝ) : EReal) :=
  EReal.coe_strictMono.monotone.map_max

/-- A clamp to real bounds is a real, whatever is clamped (an infinity included): the result
    lies between `min hi lo` and `hi`. -/
theorem clamp_isReal (lo hi : ℝ) (y : EReal) :
    ∃ r : ℝ, min ((hi : ℝ) : EReal) (max ((lo : ℝ) : EReal) y) = ((r : ℝ) : EReal) := by
  induction y using EReal.rec with
  | bot => exact ⟨min hi lo, by rw [max_bot_right, coe_min]⟩
  | top => exact ⟨hi, by rw [max_top_right, min_top_right]⟩
  | coe y => exact ⟨min hi (max lo y), by rw [coe_min, coe_max]⟩

/-- The law for an arbitrary post-processing `c` of the rounded value (a clamp, in any argument
    order): rounding the product with the reciprocal, and straight-through rounding of the
    quotient, give the same extended real once multiplied back by the scale — for a nonzero scale
    because the two rounded values agree, for a zero scale because both sides are a product
    with `0`. -/
theorem fakeQuant_mul_law (c : EReal → EReal) (x s : ℝ) :
    c (Ideal.liftRound Ideal.roundHalfEven (((x : ℝ) : EReal) * Ideal.div 1 ((s : ℝ) : EReal)))
        * ((s : ℝ) : EReal)
      = c (Ideal.div ((x : ℝ) : EReal) ((s : ℝ) : EReal)
            + (Ideal.liftRound Ideal.roundHalfEven (Ideal.div ((x : ℝ) : EReal) ((s : ℝ) : EReal))
                - Ideal.div ((x : ℝ) : EReal) ((s : ℝ) : EReal)))
        * ((s : ℝ) : EReal) := by
  by_cases hs : s = 0
  · subst hs
    rw [EReal.coe_zero, mul_zero, mul_zero]
  · rw [mul_div_one_eq_div x s hs, div_coe_of_ne_zero x s hs, ste_roundeven]

/-- The law where both sides divide (the weight form). -/
theorem fakeQuant_div_law (c : EReal → EReal) (x s : ℝ) :
    c (Ideal.liftRound Ideal.roundHalfEven (Ideal.div ((x : ℝ) : EReal) ((s : ℝ) : EReal)))
        * ((s : ℝ) : EReal)
      = c (Ideal.div ((x : ℝ) : EReal) ((s : ℝ) : EReal)
            + (Ideal.liftRound Ideal.roundHalfEven (Ideal.div ((x : ℝ) : EReal) ((s : ℝ) : EReal))
                - Ideal.div ((x : ℝ) : EReal) ((s : ℝ) : EReal)))
        * ((s : ℝ) : EReal) := by
  by_cases hs : s = 0
  · subst hs
    rw [EReal.coe_zero, mul_zero, mul_zero]
  · rw [div_coe_of_ne_zero x s hs, ste_roundeven]

/-- THE FAKE-QUANTISE LAW, activation form, for all real `x` and `s` (zero scale included) and
    any bounds: `min hi (max lo (round (x · (1 / s)))) · s` is
    `min hi (max lo (q + (round q - q))) · s` with `q = x / s`. -/
theorem fakeQuant_mul (lo hi : EReal) (x s : ℝ) :
    min hi (max lo
        (Ideal.liftRound Ideal.roundHalfEven (((x : ℝ) : EReal) * Ideal.div 1 ((s : ℝ) : EReal))))
        * ((s : ℝ) : EReal)
      = min hi (max lo
          (Ideal.div ((x : ℝ) : EReal) ((s : ℝ) : EReal)
            + (Ideal.liftRound Ideal.roundHalfEven (Ideal.div ((x : ℝ) : EReal) ((s : ℝ) : EReal))
                - Ideal.div ((x : ℝ) : EReal) ((s : ℝ) : EReal))))
        * ((s : ℝ) : EReal) :=
  fakeQuant_mul_law (fun y => min hi (max lo y)) x s

/-- THE FAKE-QUANTISE LAW, weight form (both sides divide), for all real `x` and `s`. -/
theorem fakeQuant_div (lo hi : EReal) (x s : ℝ) :
    min hi (max lo
        (Ideal.liftRound Ideal.roundHalfEven (Ideal.div ((x : ℝ) : EReal) ((s : ℝ) : EReal))))
        * ((s : ℝ) : EReal)
      = min hi (max lo
          (Ideal.div ((x : ℝ) : EReal) ((s : ℝ) : EReal)
            + (Ideal.liftRound Ideal.roundHalfEven (Ideal.div ((x : ℝ) : EReal) ((s : ℝ) : EReal))
                - Ideal.div ((x : ℝ) : EReal) ((s : ℝ) : EReal))))
        * ((s : ℝ) : EReal) :=
  fakeQuant_div_law (fun y => min hi (max lo y)) x s

/-- A clamp to real bounds times a real scale is a real, whatever is clamped. -/
theorem clamp_mul_isReal (lo hi s : ℝ) (y : EReal) :
    ∃ r : ℝ, min ((hi : ℝ) : EReal) (max ((lo : ℝ) : EReal) y) * ((s : ℝ) : EReal)
      = ((r : ℝ) : EReal) := by
  obtain ⟨r, hr⟩ := clamp_isReal lo hi y
  exact ⟨r * s, by rw [hr, EReal.coe_mul]⟩

/-- With real bounds the activation form's value is a real. -/
theorem fakeQuant_mul_isReal (lo hi x s : ℝ) :
    ∃ r : ℝ, min ((hi : ℝ) : EReal) (max ((lo : ℝ) : EReal)
        (Ideal.liftRound Ideal.roundHalfEven (((x : ℝ) : EReal) * Ideal.div 1 ((s : ℝ) : EReal))))
        * ((s : ℝ) : EReal) = ((r : ℝ) : EReal) :=
  clamp_mul_isReal lo hi s _

/-- With real bounds the weight form's value is a real. -/
theorem fakeQuant_div_isReal (lo hi x s : ℝ) :
    ∃ r : ℝ, min ((hi : ℝ) : EReal) (max ((lo : ℝ) : EReal)
        (Ideal.liftRound Ideal.roundHalfEven (Ideal.div ((x : ℝ) : EReal) ((s : ℝ) : EReal))))
        * ((s : ℝ) : EReal) = ((r : ℝ) : EReal) :=
  clamp_mul_isReal lo hi s _

/-- With real bounds the straight-through form's value is a real. -/
theorem fakeQuant_ste_isReal (lo hi x s : ℝ) :
    ∃ r : ℝ, min ((hi : ℝ) : EReal) (max ((lo : ℝ) : EReal)
        (Ideal.div ((x : ℝ) : EReal) ((s : ℝ) : EReal)
          + (Ideal.liftRound Ideal.roundHalfEven (Ideal.div ((x : ℝ) : EReal) ((s : ℝ) : EReal))
              - Ideal.div ((x : ℝ) : EReal) ((s : ℝ) : EReal))))
        * ((s : ℝ) : EReal) = ((r : ℝ) : EReal) :=
  clamp_mul_isReal lo hi s _

/-! ### The routing threshold -/

/-- On the reals `1/2 ≤ 1 / (1 + e^(-a))` exactly when `0 ≤ a`: the denominator is at most `2`
    exactly when `e^(-a) ≤ 1`. -/
theorem half_le_logistic_iff (a : ℝ) :
    (((1 / 2 : ℝ)) : EReal) ≤ Ideal.logistic ((a : ℝ) : EReal) ↔ (0 : EReal) ≤ ((a : ℝ) : EReal) := by
  have hpos : (0 : ℝ) < 1 + Real.exp (-a) := by positivity
  rw [Ideal.logistic_coe, EReal.coe_le_coe_iff, EReal.coe_nonneg, ← one_div, le_div_iff₀ hpos]
  constructor
  · intro h
    have h1 : Real.exp (-a) ≤ 1 := by linarith
    have h2 := Real.exp_le_one_iff.mp h1
    linarith
  · intro h
    have h1 : Real.exp (-a) ≤ 1 := Real.exp_le_one_iff.mpr (by linarith)
    linarith

/-- The routing threshold: comparing the logistic of a real with `1/2` is comparing the real
    with `0`. -/
theorem cmp_oge_logistic_half (a : ℝ) :
    Ideal.cmp .oge (Ideal.logistic ((a : ℝ) : EReal)) (((1 / 2 : ℝ)) : EReal)
      = Ideal.cmp .oge ((a : ℝ) : EReal) 0 := by
  simp only [Ideal.cmp]
  rw [decide_eq_decide.mpr (half_le_logistic_iff a)]

/-- The same with the logistic written out as `1 / (1 + e^(-a))`. -/
theorem cmp_oge_div_one_add_exp_neg_half (a : ℝ) :
    Ideal.cmp .oge (Ideal.div 1 (1 + Ideal.exp (-((a : ℝ) : EReal)))) (((1 / 2 : ℝ)) : EReal)
      = Ideal.cmp .oge ((a : ℝ) : EReal) 0 :=
  cmp_oge_logistic_half a

/-- The threshold as a statement about the answer bit. -/
theorem cmp_oge_logistic_half_eq_one_iff (a : ℝ) :
    Ideal.cmp .oge (Ideal.logistic ((a : ℝ) : EReal)) (((1 / 2 : ℝ)) : EReal) = 1#1
      ↔ Ideal.cmp .oge ((a : ℝ) : EReal) 0 = 1#1 := by
  rw [cmp_oge_logistic_half]

/-! ### IEEE single-precision patterns -/

/-- The pattern of `0.0`. -/
theorem ofBits_f32_zero : Ideal.ofBits .f32 0x00000000#32 = 0 := Ideal.ofBits_zero_f32

/-- The pattern of `1.0`. -/
theorem ofBits_f32_one : Ideal.ofBits .f32 0x3F800000#32 = 1 := by
  simp [Ideal.ofBits, Ideal.ieee, -EReal.coe_mul]; norm_num

/-- The pattern of `0.5`. -/
theorem ofBits_f32_half : Ideal.ofBits .f32 0x3F000000#32 = (((1 / 2 : ℝ)) : EReal) := by
  simp [Ideal.ofBits, Ideal.ieee, -EReal.coe_mul]; norm_num

/-- The pattern of `127.0`. -/
theorem ofBits_f32_127 : Ideal.ofBits .f32 0x42FE0000#32 = (((127 : ℝ)) : EReal) := by
  simp [Ideal.ofBits, Ideal.ieee, -EReal.coe_mul]; norm_num

/-- The pattern of `-127.0`. -/
theorem ofBits_f32_neg127 : Ideal.ofBits .f32 0xC2FE0000#32 = (((-127 : ℝ)) : EReal) := by
  simp [Ideal.ofBits, Ideal.ieee, -EReal.coe_mul]; norm_num

/-- The pattern of `255.0`. -/
theorem ofBits_f32_255 : Ideal.ofBits .f32 0x437F0000#32 = (((255 : ℝ)) : EReal) := by
  simp [Ideal.ofBits, Ideal.ieee, -EReal.coe_mul]; norm_num

/-- The pattern of `-∞`. -/
theorem ofBits_f32_neg_inf : Ideal.ofBits .f32 0xFF800000#32 = ⊥ := by
  simp [Ideal.ofBits, Ideal.ieee]

/-- The routing threshold with the constants as the programs spell them: `1.0 / (1.0 + e^(-a))`
    against the pattern of `0.5`, and `a` against the pattern of `0.0`. -/
theorem cmp_oge_logistic_half_bits (a : ℝ) :
    Ideal.cmp .oge
        (Ideal.div (Ideal.ofBits .f32 0x3F800000#32)
          (Ideal.ofBits .f32 0x3F800000#32 + Ideal.exp (-((a : ℝ) : EReal))))
        (Ideal.ofBits .f32 0x3F000000#32)
      = Ideal.cmp .oge ((a : ℝ) : EReal) (Ideal.ofBits .f32 0x00000000#32) := by
  rw [ofBits_f32_one, ofBits_f32_half, ofBits_f32_zero]
  exact cmp_oge_logistic_half a

/-! ### The blend -/

/-- A `{0, 1}`-valued mask blends by selection, whatever the two blended values are (an infinity
    included): `1 · c + 0 · d = c` and `0 · c + 1 · d = d`, a product with `0` being `0`. -/
theorem blend_eq_ite (m c d : EReal) (hm : m = 1 ∨ m = 0) :
    m * c + (1 - m) * d = if m = 1 then c else d := by
  have h11 : (1 : EReal) - 1 = 0 := by
    rw [← EReal.coe_one, ← EReal.coe_sub, sub_self, EReal.coe_zero]
  have h10 : (1 : EReal) - 0 = 1 := by
    rw [← EReal.coe_one, ← EReal.coe_zero, ← EReal.coe_sub, sub_zero]
  rcases hm with rfl | rfl
  · rw [if_pos rfl, h11, one_mul, zero_mul, add_zero]
  · rw [if_neg (zero_ne_one), h10, zero_mul, one_mul, zero_add]

/-- The blend at mask `1`. -/
theorem blend_one (c d : EReal) : (1 : EReal) * c + (1 - 1) * d = c := by
  rw [blend_eq_ite 1 c d (Or.inl rfl), if_pos rfl]

/-- The blend at mask `0`. -/
theorem blend_zero (c d : EReal) : (0 : EReal) * c + (1 - 0) * d = d := by
  rw [blend_eq_ite 0 c d (Or.inr rfl), if_neg zero_ne_one]

/-! ### Finite sums of reals -/

/-- A finite sum of reals is the real sum. -/
theorem coe_finset_sum {ι : Type*} (t : Finset ι) (f : ι → ℝ) :
    ∑ k ∈ t, ((f k : ℝ) : EReal) = (((∑ k ∈ t, f k : ℝ)) : EReal) := by
  classical
  induction t using Finset.induction_on with
  | empty => simp
  | insert a t ha ih => rw [Finset.sum_insert ha, Finset.sum_insert ha, ih, EReal.coe_add]

/-- A sum over `Fin n` of reals is the real sum. -/
theorem coe_fin_sum {n : ℕ} (f : Fin n → ℝ) :
    ∑ k, ((f k : ℝ) : EReal) = (((∑ k, f k : ℝ)) : EReal) :=
  coe_finset_sum Finset.univ f

/-- A finite sum of reals is a real. -/
theorem fin_sum_isReal {n : ℕ} (f : Fin n → ℝ) :
    ∃ r : ℝ, ∑ k, ((f k : ℝ) : EReal) = ((r : ℝ) : EReal) := ⟨_, coe_fin_sum f⟩

/-- A finite sum of products of reals is the real sum of products. -/
theorem coe_fin_sum_mul {n : ℕ} (a b : Fin n → ℝ) :
    ∑ k, ((a k : ℝ) : EReal) * ((b k : ℝ) : EReal) = (((∑ k, a k * b k : ℝ)) : EReal) := by
  rw [← coe_fin_sum]
  exact Finset.sum_congr rfl fun k _ => (EReal.coe_mul _ _).symm

/-- A finite sum of products of reals is a real. -/
theorem fin_sum_mul_isReal {n : ℕ} (a b : Fin n → ℝ) :
    ∃ r : ℝ, ∑ k, ((a k : ℝ) : EReal) * ((b k : ℝ) : EReal) = ((r : ℝ) : EReal) :=
  ⟨_, coe_fin_sum_mul a b⟩

/-- A sum of reals over any finite index type is the real sum. -/
theorem coe_fintype_sum {ι : Type*} [Fintype ι] (f : ι → ℝ) :
    ∑ k, ((f k : ℝ) : EReal) = (((∑ k, f k : ℝ)) : EReal) :=
  coe_finset_sum Finset.univ f

/-- The same over any finite index type. -/
theorem coe_fintype_sum_mul {ι : Type*} [Fintype ι] (a b : ι → ℝ) :
    ∑ k, ((a k : ℝ) : EReal) * ((b k : ℝ) : EReal) = (((∑ k, a k * b k : ℝ)) : EReal) := by
  rw [← coe_finset_sum]
  exact Finset.sum_congr rfl fun k _ => (EReal.coe_mul _ _).symm

end Idealize.ShloMosaic.FakeQuant
-- ==== Proof.SpecEq.lean ====
import proofs.«160214_j15659450761872_2_alg».proof.Proof.Spec
import proofs.«160214_j15659450761872_2_alg».proof.Proof.LibFakeQuant

/-!
# The reference's network is the kernel's, on real data

`netR` and `netK` (Spec) spell three things differently: the fake-quantisation (round the quotient
through `q + (round q - q)`, or round the product with the reciprocal), the routing test (logistic
against `1/2`, or the score against `0`) and the choice (a selection, or a blend with a `0/1` factor).
On real weights, real scales and a real row every intermediate value is a real — a fake-quantised value
is a clamp to real bounds times a real scale, a pre-activation is a finite sum of products of reals —
so each pair of spellings agrees, layer by layer, and the two networks are the same extended real.
A zero scale needs no separate treatment: both fake-quantisations are then a product with `0`.
-/

noncomputable section

namespace Cert.QNet

open Idealize.ShloMosaic Idealize.ShloMosaic.FakeQuant

/-! ### Reals among the extended reals -/

/-- An extended real that is (the image of) a real. -/
def IsReal (v : EReal) : Prop := ∃ r : ℝ, v = ((r : ℝ) : EReal)

theorem isReal_coe (r : ℝ) : IsReal ((r : ℝ) : EReal) := ⟨r, rfl⟩

theorem isReal_mul {a b : EReal} (ha : IsReal a) (hb : IsReal b) : IsReal (a * b) := by
  obtain ⟨x, rfl⟩ := ha
  obtain ⟨y, rfl⟩ := hb
  exact ⟨x * y, (EReal.coe_mul x y).symm⟩

theorem isReal_max {a b : EReal} (ha : IsReal a) (hb : IsReal b) : IsReal (max a b) := by
  obtain ⟨x, rfl⟩ := ha
  obtain ⟨y, rfl⟩ := hb
  exact ⟨max x y, (FakeQuant.coe_max x y).symm⟩

/-- A finite sum of reals is a real. -/
theorem isReal_sum {n : ℕ} {f : Fin n → EReal} (hf : ∀ k, IsReal (f k)) : IsReal (∑ k, f k) := by
  choose g hg using hf
  exact ⟨∑ k, g k, by rw [← FakeQuant.coe_fin_sum]; exact Finset.sum_congr rfl fun k _ => hg k⟩

/-- A selection between two reals is a real. -/
theorem isReal_select {a b : EReal} (g : BitVec 1) (ha : IsReal a) (hb : IsReal b) :
    IsReal (Scalar.select g a b) := by
  unfold Scalar.select
  split
  · exact ha
  · exact hb

/-! ### The constants -/

theorem c0_eq : c0 = 0 := ofBits_f32_zero
theorem c1_eq : c1 = 1 := ofBits_f32_one
theorem chalf_eq : chalf = (((1 / 2 : ℝ)) : EReal) := ofBits_f32_half
theorem c127_eq : c127 = (((127 : ℝ)) : EReal) := ofBits_f32_127
theorem cm127_eq : cm127 = (((-127 : ℝ)) : EReal) := ofBits_f32_neg127
theorem c255_eq : c255 = (((255 : ℝ)) : EReal) := ofBits_f32_255

theorem isReal_c0 : IsReal c0 := ⟨0, by rw [c0_eq, EReal.coe_zero]⟩
theorem isReal_c1 : IsReal c1 := ⟨1, by rw [c1_eq, EReal.coe_one]⟩
theorem isReal_c127 : IsReal c127 := ⟨_, c127_eq⟩
theorem isReal_cm127 : IsReal cm127 := ⟨_, cm127_eq⟩
theorem isReal_c255 : IsReal c255 := ⟨_, c255_eq⟩

/-! ### One fake-quantisation -/

/-- A fake-quantised value with real bounds and a real scale is a real, whatever is quantised and
    whatever stands for the reciprocal scale. -/
theorem isReal_fqRaw {lo hi : EReal} (hlo : IsReal lo) (hhi : IsReal hi) (v inv : EReal) (s : ℝ) :
    IsReal (fqRaw lo hi v inv ((s : ℝ) : EReal)) := by
  obtain ⟨l, rfl⟩ := hlo
  obtain ⟨h, rfl⟩ := hhi
  exact clamp_mul_isReal l h s _

theorem isReal_fqK {lo hi : EReal} (hlo : IsReal lo) (hhi : IsReal hi) (v : EReal) (s : ℝ) :
    IsReal (fqK lo hi v ((s : ℝ) : EReal)) :=
  isReal_fqRaw hlo hhi v _ s

/-- The two spellings of a fake-quantisation agree on a real at a real scale (zero included). -/
theorem fqR_eq_fqK (lo hi : EReal) {v : EReal} (hv : IsReal v) (s : ℝ) :
    fqR lo hi v ((s : ℝ) : EReal) = fqK lo hi v ((s : ℝ) : EReal) := by
  obtain ⟨x, rfl⟩ := hv
  show _ = min hi (max lo (RE (((x : ℝ) : EReal) * Ideal.div c1 ((s : ℝ) : EReal)))) * ((s : ℝ) : EReal)
  rw [c1_eq]
  exact (fakeQuant_mul lo hi x s).symm

/-- The two spellings of a fake-quantised weight agree on a real at a real scale. -/
theorem qwR_eq_qwK (w t : ℝ) : qwR ((w : ℝ) : EReal) ((t : ℝ) : EReal) = qwK ((w : ℝ) : EReal) ((t : ℝ) : EReal) :=
  (fakeQuant_div cm127 c127 w t).symm

/-- A fake-quantised weight at a real scale is a real. -/
theorem isReal_qwK (w : EReal) (t : ℝ) : IsReal (qwK w ((t : ℝ) : EReal)) := by
  obtain ⟨l, hl⟩ := isReal_cm127
  obtain ⟨h, hh⟩ := isReal_c127
  unfold qwK
  rw [hl, hh]
  exact clamp_mul_isReal l h t _

/-- The logistic of a real is a real. -/
theorem isReal_logistic {v : EReal} (hv : IsReal v) : IsReal (Ideal.logistic v) := by
  obtain ⟨x, rfl⟩ := hv
  exact ⟨_, Ideal.logistic_coe x⟩

/-- The reference's logistic, written out with the constant `1.0`, is the logistic. -/
theorem div_c1_add_exp_neg (y : EReal) : Ideal.div c1 (c1 + Ideal.exp (-y)) = Ideal.logistic y := by
  rw [c1_eq]
  rfl

/-! ### Selection and blend -/

theorem select_ofBool_true {α : Type} (a b : α) : Scalar.select (BitVec.ofBool true) a b = a := by
  simp [Scalar.select]

theorem select_ofBool_false {α : Type} (a b : α) : Scalar.select (BitVec.ofBool false) a b = b := by
  simp [Scalar.select]

/-- Selecting by a bit is blending with the `0/1` factor the bit selects. -/
theorem select_eq_blend (t : Bool) (A B : EReal) :
    Scalar.select (BitVec.ofBool t) A B
      = Scalar.select (BitVec.ofBool t) c1 c0 * A + (c1 - Scalar.select (BitVec.ofBool t) c1 c0) * B := by
  cases t
  · simp only [select_ofBool_false]
    rw [c1_eq, c0_eq, blend_zero]
  · simp only [select_ofBool_true]
    rw [c1_eq, blend_one]

/-- The same for a comparison's answer. -/
theorem select_cmp_eq_blend (p : CmpFPredicate) (u v A B : EReal) :
    Scalar.select (Ideal.cmp p u v) A B
      = Scalar.select (Ideal.cmp p u v) c1 c0 * A + (c1 - Scalar.select (Ideal.cmp p u v) c1 c0) * B :=
  select_eq_blend _ A B

/-! ### The layers, named -/

/-- The reference's first hidden layer: outputs `1..64`, rectified and fake-quantised. -/
def r0R (W0 : Fin 65 → Fin 32 → EReal) (s0 : EReal) (x : Fin 32 → EReal) : Fin 64 → EReal :=
  fun k => fqR c0 c255 (max (pre0 W0 x k.succ) c0) s0
/-- The kernel's. -/
def r0K (W0 : Fin 65 → Fin 32 → EReal) (s0 : EReal) (x : Fin 32 → EReal) : Fin 64 → EReal :=
  fun k => fqK c0 c255 (max (pre0 W0 x k.succ) c0) s0
/-- The reference's width-64 layer, rectified and fake-quantised. -/
def layR (W : Fin 64 → Fin 64 → EReal) (s : EReal) (a : Fin 64 → EReal) : Fin 64 → EReal :=
  fun k => fqR c0 c255 (max (lin64 W a k) c0) s
/-- The kernel's. -/
def layK (W : Fin 64 → Fin 64 → EReal) (s : EReal) (a : Fin 64 → EReal) : Fin 64 → EReal :=
  fun k => fqK c0 c255 (max (lin64 W a k) c0) s

/-- The reference's network over the named layers. -/
theorem netR_eq (W0 : Fin 65 → Fin 32 → EReal) (W1 W2 : Fin 64 → Fin 64 → EReal) (W3 : Fin 3 → Fin 64 → EReal)
    (s0 s1 s2 si so : EReal) (x : Fin 32 → EReal) (o : Fin 3) :
    netR W0 W1 W2 W3 s0 s1 s2 si so x o
      = fqR c0 c255 (Ideal.div c1 (c1 + Ideal.exp (-(fqR cm127 c127
          (lin3 W3 (fun k => Scalar.select
              (Ideal.cmp .oge (Ideal.div c1 (c1 + Ideal.exp (-(pre0 W0 x 0)))) chalf)
              (layR W2 s2 (layR W1 s1 (r0R W0 s0 x)) k) (r0R W0 s0 x k)) o) si)))) so := rfl

/-- The kernel's network over the named layers. -/
theorem netK_eq (W0 : Fin 65 → Fin 32 → EReal) (W1 W2 : Fin 64 → Fin 64 → EReal) (W3 : Fin 3 → Fin 64 → EReal)
    (s0 s1 s2 si so : EReal) (x : Fin 32 → EReal) (o : Fin 3) :
    netK W0 W1 W2 W3 s0 s1 s2 si so x o
      = fqK c0 c255 (Ideal.logistic (fqK cm127 c127
          (lin3 W3 (fun k =>
              Scalar.select (Ideal.cmp .oge (pre0 W0 x 0) c0) c1 c0 * layK W2 s2 (layK W1 s1 (r0K W0 s0 x)) k
                + (c1 - Scalar.select (Ideal.cmp .oge (pre0 W0 x 0) c0) c1 c0) * r0K W0 s0 x k) o) si)) so := rfl

/-! ### The two networks agree -/

/-- On real weights, real scales and a real row the reference's network is the kernel's. -/
theorem netR_eq_netK_of_isReal (W0 : Fin 65 → Fin 32 → EReal) (W1 W2 : Fin 64 → Fin 64 → EReal)
    (W3 : Fin 3 → Fin 64 → EReal) (h0 : ∀ j k, IsReal (W0 j k)) (h1 : ∀ a b, IsReal (W1 a b))
    (h2 : ∀ a b, IsReal (W2 a b)) (h3 : ∀ a b, IsReal (W3 a b)) (s0 s1 s2 si so : ℝ)
    (x : Fin 32 → EReal) (hx : ∀ k, IsReal (x k)) (o : Fin 3) :
    netR W0 W1 W2 W3 s0 s1 s2 si so x o = netK W0 W1 W2 W3 s0 s1 s2 si so x o := by
  rw [netR_eq, netK_eq]
  -- every output of the first layer is a real
  have hP : ∀ j, IsReal (pre0 W0 x j) := fun j => isReal_sum fun k => isReal_mul (hx k) (h0 j k)
  -- the first hidden layer
  have e0 : r0R W0 s0 x = r0K W0 s0 x := funext fun k => fqR_eq_fqK _ _ (isReal_max (hP _) isReal_c0) s0
  have hr0 : ∀ k, IsReal (r0K W0 s0 x k) := fun k => isReal_fqK isReal_c0 isReal_c255 _ s0
  -- a width-64 layer
  have hlin : ∀ (W : Fin 64 → Fin 64 → EReal), (∀ a b, IsReal (W a b)) → ∀ (a : Fin 64 → EReal),
      (∀ k, IsReal (a k)) → ∀ k, IsReal (lin64 W a k) :=
    fun W hW a ha k => isReal_sum fun j => isReal_mul (ha j) (hW k j)
  have elay : ∀ (W : Fin 64 → Fin 64 → EReal), (∀ a b, IsReal (W a b)) → ∀ (s : ℝ) (a : Fin 64 → EReal),
      (∀ k, IsReal (a k)) → layR W s a = layK W s a :=
    fun W hW s a ha => funext fun k => fqR_eq_fqK _ _ (isReal_max (hlin W hW a ha k) isReal_c0) s
  have hlay : ∀ (W : Fin 64 → Fin 64 → EReal) (s : ℝ) (a : Fin 64 → EReal) (k : Fin 64),
      IsReal (layK W s a k) := fun W s a k => isReal_fqK isReal_c0 isReal_c255 _ s
  -- the routing test
  obtain ⟨p0, hp0⟩ := hP 0
  have eg : Ideal.cmp .oge (Ideal.div c1 (c1 + Ideal.exp (-(pre0 W0 x 0)))) chalf
      = Ideal.cmp .oge (pre0 W0 x 0) c0 := by
    rw [hp0]
    exact cmp_oge_logistic_half_bits p0
  rw [eg, e0, elay W1 h1 s1 _ hr0, elay W2 h2 s2 _ (hlay W1 s1 _)]
  -- the kernel's blend is the reference's selection
  simp only [← select_cmp_eq_blend]
  -- the last linear layer, its fake-quantisation, the logistic and the last fake-quantisation
  have hL : IsReal (lin3 W3 (fun k => Scalar.select (Ideal.cmp .oge (pre0 W0 x 0) c0)
      (layK W2 s2 (layK W1 s1 (r0K W0 s0 x)) k) (r0K W0 s0 x k)) o) :=
    isReal_sum fun j => isReal_mul (isReal_select _ (hlay W2 s2 _ j) (hr0 j)) (h3 o j)
  rw [fqR_eq_fqK cm127 c127 hL si, div_c1_add_exp_neg]
  exact fqR_eq_fqK c0 c255 (isReal_logistic (isReal_fqK isReal_cm127 isReal_c127 _ si)) so

/-- THE STATEMENT: with each weight tensor fake-quantised at its own real scale — the reference's way on
    the one side, the kernel's on the other — the reference's network on a real row is the kernel's. -/
theorem netR_eq_netK (w0 : Fin 65 → Fin 32 → ℝ) (w1 w2 : Fin 64 → Fin 64 → ℝ) (w3 : Fin 3 → Fin 64 → ℝ)
    (t0 t1 t2 t3 : ℝ) (s0 s1 s2 si so : ℝ) (x : Fin 32 → ℝ) (o : Fin 3) :
    netR (fun j k => qwR (w0 j k) t0) (fun a b => qwR (w1 a b) t1) (fun a b => qwR (w2 a b) t2)
        (fun a b => qwR (w3 a b) t3) s0 s1 s2 si so (fun k => (x k : EReal)) o
      = netK (fun j k => qwK (w0 j k) t0) (fun a b => qwK (w1 a b) t1) (fun a b => qwK (w2 a b) t2)
        (fun a b => qwK (w3 a b) t3) s0 s1 s2 si so (fun k => (x k : EReal)) o := by
  have e0 : (fun (j : Fin 65) (k : Fin 32) => qwR ((w0 j k : ℝ) : EReal) ((t0 : ℝ) : EReal))
      = fun j k => qwK ((w0 j k : ℝ) : EReal) ((t0 : ℝ) : EReal) := by
    funext j k; exact qwR_eq_qwK _ _
  have e1 : (fun (a b : Fin 64) => qwR ((w1 a b : ℝ) : EReal) ((t1 : ℝ) : EReal))
      = fun a b => qwK ((w1 a b : ℝ) : EReal) ((t1 : ℝ) : EReal) := by
    funext a b; exact qwR_eq_qwK _ _
  have e2 : (fun (a b : Fin 64) => qwR ((w2 a b : ℝ) : EReal) ((t2 : ℝ) : EReal))
      = fun a b => qwK ((w2 a b : ℝ) : EReal) ((t2 : ℝ) : EReal) := by
    funext a b; exact qwR_eq_qwK _ _
  have e3 : (fun (a : Fin 3) (b : Fin 64) => qwR ((w3 a b : ℝ) : EReal) ((t3 : ℝ) : EReal))
      = fun a b => qwK ((w3 a b : ℝ) : EReal) ((t3 : ℝ) : EReal) := by
    funext a b; exact qwR_eq_qwK _ _
  rw [e0, e1, e2, e3]
  exact netR_eq_netK_of_isReal _ _ _ _ (fun _ _ => isReal_qwK _ t0) (fun _ _ => isReal_qwK _ t1)
    (fun _ _ => isReal_qwK _ t2) (fun _ _ => isReal_qwK _ t3) s0 s1 s2 si so _ (fun k => isReal_coe (x k)) o

end Cert.QNet

end
-- ==== Proof.RefNet.lean ====
import proofs.«160214_j15659450761872_2_alg».proof.Proof.RefReadP
import proofs.«160214_j15659450761872_2_alg».proof.Proof.Spec

/-!
# The reference program computes `netR`

Read at row `n` and output `o`, the reference program's last value is the network `netR` (Spec) of row
`n`, with each weight tensor fake-quantised at its own scale (its largest absolute value over `127`,
kept as the program's own term) and the activation scales read from the scale arguments.

The route is the program's own: the four fake-quantised weight tensors entry by entry; the first linear
layer as a sum over the row (the transposed weights read back with their coordinates swapped); its
outputs `1..64` rectified and fake-quantised, its output `0` through the logistic against `1/2`; two
width-64 layers; the selection; the last linear layer, its fake-quantisation, the logistic written out,
and the last fake-quantisation. Every step is a reading of one operation at an index; no arithmetic fact
is used, so nothing here needs a value to be finite.
-/

noncomputable section

namespace Cert.ReferenceIdeal.RefNet

open Cert.ReferenceIdeal Cert.ReferenceIdeal.Gen Idealize.ShloMosaic Idealize.ShloMosaic.ValueIdx Cert.QNet

/-! ### Scalars -/

/-- The rank-zero shape has one index. -/
instance : Subsingleton S_.Idx := ⟨fun a b => funext fun d => d.elim0⟩

/-- The first activation scale: the reshape of the slice `[0:1]` of the scales, at its one index. -/
theorem v17_read (x5 : (⟨S3, .f32⟩ : BufTy).Contents (Elt Ideal)) (j : S_.Idx) : Read.val_main_v17 (F := Ideal) x5 j = x5 (ix1 0) := by
  show Read.val_main_v16 (F := Ideal) x5 (Shape.reshapeEquiv _ j) = _
  generalize Shape.reshapeEquiv _ j = e
  rw [Read.val_main_v16_apply]
  refine congrArg x5 (funext fun a => ?_)
  match a with
  | ⟨0, _⟩ =>
    have h0 : (e 0).val < 1 := (e 0).isLt
    exact Fin.ext (by show (e 0).val = 0; omega)

/-- The second activation scale: the slice `[1:2]`. -/
theorem v49_read (x5 : (⟨S3, .f32⟩ : BufTy).Contents (Elt Ideal)) (j : S_.Idx) : Read.val_main_v49 (F := Ideal) x5 j = x5 (ix1 1) := by
  show Read.val_main_v48 (F := Ideal) x5 (Shape.reshapeEquiv _ j) = _
  generalize Shape.reshapeEquiv _ j = e
  rw [Read.val_main_v48_apply]
  refine congrArg x5 (funext fun a => ?_)
  match a with
  | ⟨0, _⟩ =>
    have h0 : (e 0).val < 1 := (e 0).isLt
    exact Fin.ext (by show 1 + (e 0).val = 1; omega)

/-- The third activation scale: the slice `[2:3]`. -/
theorem v73_read (x5 : (⟨S3, .f32⟩ : BufTy).Contents (Elt Ideal)) (j : S_.Idx) : Read.val_main_v73 (F := Ideal) x5 j = x5 (ix1 2) := by
  show Read.val_main_v72 (F := Ideal) x5 (Shape.reshapeEquiv _ j) = _
  generalize Shape.reshapeEquiv _ j = e
  rw [Read.val_main_v72_apply]
  refine congrArg x5 (funext fun a => ?_)
  match a with
  | ⟨0, _⟩ =>
    have h0 : (e 0).val < 1 := (e 0).isLt
    exact Fin.ext (by show 2 + (e 0).val = 2; omega)

/-! ### The fake-quantised weights -/

/-- The reference's fake-quantised first-layer weights: entry `i` is `qwR` of the entry at the tensor's scale. -/
theorem v10_read (x1 : (⟨S65x32, .f32⟩ : BufTy).Contents (Elt Ideal)) (i : S65x32.Idx) :
    Read.val_main_v10 (F := Ideal) x1 i = qwR (x1 i) (Read.val_main_v2 (F := Ideal) x1 ix0) := by
  simp only [Read.val_main_v10_apply, Read.val_main_v8_apply, Read.val_main_v9_apply, Read.val_main_call1_v4_apply, Read.val_main_call1_v3_apply, Read.val_main_cst_2_apply, Read.val_main_call1_v2_apply, Read.val_main_call1_v1_apply, Read.val_main_call1_v0_apply, Read.val_main_cst_1_apply, Read.val_main_v7_apply, Read.val_main_v6_apply, Read.val_main_v5_apply, Read.val_main_v4_apply, Read.val_main_v3_apply]
  rfl

/-- The reference's fake-quantised second-layer weights: entry `i` is `qwR` of the entry at the tensor's scale. -/
theorem v44_read (x2 : (⟨S64x64, .f32⟩ : BufTy).Contents (Elt Ideal)) (i : S64x64.Idx) :
    Read.val_main_v44 (F := Ideal) x2 i = qwR (x2 i) (Read.val_main_v36 (F := Ideal) x2 ix0) := by
  simp only [Read.val_main_v44_apply, Read.val_main_v42_apply, Read.val_main_v43_apply, Read.val_main_call6_v4_apply, Read.val_main_call6_v3_apply, Read.val_main_cst_11_apply, Read.val_main_call6_v2_apply, Read.val_main_call6_v1_apply, Read.val_main_call6_v0_apply, Read.val_main_cst_10_apply, Read.val_main_v41_apply, Read.val_main_v40_apply, Read.val_main_v39_apply, Read.val_main_v38_apply, Read.val_main_v37_apply]
  rfl

/-- The reference's fake-quantised third-layer weights: entry `i` is `qwR` of the entry at the tensor's scale. -/
theorem v68_read (x3 : (⟨S64x64, .f32⟩ : BufTy).Contents (Elt Ideal)) (i : S64x64.Idx) :
    Read.val_main_v68 (F := Ideal) x3 i = qwR (x3 i) (Read.val_main_v60 (F := Ideal) x3 ix0) := by
  simp only [Read.val_main_v68_apply, Read.val_main_v66_apply, Read.val_main_v67_apply, Read.val_main_call11_v4_apply, Read.val_main_call11_v3_apply, Read.val_main_cst_17_apply, Read.val_main_call11_v2_apply, Read.val_main_call11_v1_apply, Read.val_main_call11_v0_apply, Read.val_main_cst_16_apply, Read.val_main_v65_apply, Read.val_main_v64_apply, Read.val_main_v63_apply, Read.val_main_v62_apply, Read.val_main_v61_apply]
  rfl

/-- The reference's fake-quantised last-layer weights: entry `i` is `qwR` of the entry at the tensor's scale. -/
theorem v93_read (x4 : (⟨S3x64, .f32⟩ : BufTy).Contents (Elt Ideal)) (i : S3x64.Idx) :
    Read.val_main_v93 (F := Ideal) x4 i = qwR (x4 i) (Read.val_main_v85 (F := Ideal) x4 ix0) := by
  simp only [Read.val_main_v93_apply, Read.val_main_v91_apply, Read.val_main_v92_apply, Read.val_main_call17_v4_apply, Read.val_main_call17_v3_apply, Read.val_main_cst_23_apply, Read.val_main_call17_v2_apply, Read.val_main_call17_v1_apply, Read.val_main_call17_v0_apply, Read.val_main_cst_22_apply, Read.val_main_v90_apply, Read.val_main_v89_apply, Read.val_main_v88_apply, Read.val_main_v87_apply, Read.val_main_v86_apply]
  rfl

/-! ### The network's pieces, for one row -/

/-- The first layer's weights as the network takes them. -/
def W0 (x1 : (⟨S65x32, .f32⟩ : BufTy).Contents (Elt Ideal)) : Fin 65 → Fin 32 → EReal :=
  fun j k => qwR (x1 (ix2 j k)) (Read.val_main_v2 (F := Ideal) x1 ix0)
/-- The second layer's. -/
def W1 (x2 : (⟨S64x64, .f32⟩ : BufTy).Contents (Elt Ideal)) : Fin 64 → Fin 64 → EReal :=
  fun a b => qwR (x2 (ix2 a b)) (Read.val_main_v36 (F := Ideal) x2 ix0)
/-- The third layer's. -/
def W2 (x3 : (⟨S64x64, .f32⟩ : BufTy).Contents (Elt Ideal)) : Fin 64 → Fin 64 → EReal :=
  fun a b => qwR (x3 (ix2 a b)) (Read.val_main_v60 (F := Ideal) x3 ix0)
/-- The last layer's. -/
def W3 (x4 : (⟨S3x64, .f32⟩ : BufTy).Contents (Elt Ideal)) : Fin 3 → Fin 64 → EReal :=
  fun a b => qwR (x4 (ix2 a b)) (Read.val_main_v85 (F := Ideal) x4 ix0)
/-- Row `n` of the input. -/
def row (x0 : (⟨S1048576x32, .f32⟩ : BufTy).Contents (Elt Ideal)) (n : Fin 1048576) : Fin 32 → EReal := fun k => x0 (ix2 n k)

/-- The first hidden layer of row `n`. -/
def r0 (x0 : (⟨S1048576x32, .f32⟩ : BufTy).Contents (Elt Ideal)) (x1 : (⟨S65x32, .f32⟩ : BufTy).Contents (Elt Ideal)) (x5 : (⟨S3, .f32⟩ : BufTy).Contents (Elt Ideal)) (n : Fin 1048576) : Fin 64 → EReal :=
  fun k => fqR c0 c255 (max (pre0 (W0 x1) (row x0 n) k.succ) c0) (x5 (ix1 0))
/-- The routing bit of row `n`. -/
def gate (x0 : (⟨S1048576x32, .f32⟩ : BufTy).Contents (Elt Ideal)) (x1 : (⟨S65x32, .f32⟩ : BufTy).Contents (Elt Ideal)) (n : Fin 1048576) : BitVec 1 :=
  Ideal.cmp .oge (Ideal.div c1 (c1 + Ideal.exp (-(pre0 (W0 x1) (row x0 n) 0)))) chalf
/-- The second hidden layer of row `n`. -/
def a1 (x0 : (⟨S1048576x32, .f32⟩ : BufTy).Contents (Elt Ideal)) (x1 : (⟨S65x32, .f32⟩ : BufTy).Contents (Elt Ideal)) (x2 : (⟨S64x64, .f32⟩ : BufTy).Contents (Elt Ideal)) (x5 : (⟨S3, .f32⟩ : BufTy).Contents (Elt Ideal)) (n : Fin 1048576) :
    Fin 64 → EReal :=
  fun k => fqR c0 c255 (max (lin64 (W1 x2) (r0 x0 x1 x5 n) k) c0) (x5 (ix1 1))
/-- The third hidden layer of row `n`. -/
def a2 (x0 : (⟨S1048576x32, .f32⟩ : BufTy).Contents (Elt Ideal)) (x1 : (⟨S65x32, .f32⟩ : BufTy).Contents (Elt Ideal)) (x2 x3 : (⟨S64x64, .f32⟩ : BufTy).Contents (Elt Ideal)) (x5 : (⟨S3, .f32⟩ : BufTy).Contents (Elt Ideal)) (n : Fin 1048576) :
    Fin 64 → EReal :=
  fun k => fqR c0 c255 (max (lin64 (W2 x3) (a1 x0 x1 x2 x5 n) k) c0) (x5 (ix1 2))
/-- What row `n` continues with. -/
def rr (x0 : (⟨S1048576x32, .f32⟩ : BufTy).Contents (Elt Ideal)) (x1 : (⟨S65x32, .f32⟩ : BufTy).Contents (Elt Ideal)) (x2 x3 : (⟨S64x64, .f32⟩ : BufTy).Contents (Elt Ideal)) (x5 : (⟨S3, .f32⟩ : BufTy).Contents (Elt Ideal)) (n : Fin 1048576) :
    Fin 64 → EReal :=
  fun k => Scalar.select (gate x0 x1 n) (a2 x0 x1 x2 x3 x5 n k) (r0 x0 x1 x5 n k)

/-! ### Layer by layer -/

/-- The first linear layer: output `j` of row `n`. -/
theorem v12_read (x0 : (⟨S1048576x32, .f32⟩ : BufTy).Contents (Elt Ideal)) (x1 : (⟨S65x32, .f32⟩ : BufTy).Contents (Elt Ideal)) (n : Fin 1048576) (j : Fin 65) :
    Read.val_main_v12 (F := Ideal) x0 x1 (ix2 n j) = pre0 (W0 x1) (row x0 n) j := by
  rw [Read.val_main_v12_apply]
  refine Finset.sum_congr rfl fun k _ => ?_
  have hl : Read.lidx_main_v12 (ix2 n j) k = ix2 n k :=
    funext fun a => match a with | ⟨0, _⟩ => rfl | ⟨1, _⟩ => rfl
  have hr : Read.idx_main_v11 (Read.ridx_main_v12 (ix2 n j) k) = ix2 j k :=
    funext fun a => match a with | ⟨0, _⟩ => rfl | ⟨1, _⟩ => rfl
  rw [Read.val_main_v11_apply, v10_read, hl, hr]
  rfl

/-- The first hidden layer. -/
theorem v25_read (x0 : (⟨S1048576x32, .f32⟩ : BufTy).Contents (Elt Ideal)) (x1 : (⟨S65x32, .f32⟩ : BufTy).Contents (Elt Ideal)) (x5 : (⟨S3, .f32⟩ : BufTy).Contents (Elt Ideal)) (n : Fin 1048576) (k : Fin 64) :
    Read.val_main_v25 (F := Ideal) x0 x1 x5 (ix2 n k) = r0 x0 x1 x5 n k := by
  have hi : Read.idx_main_v14 (ix2 n k) = ix2 n k.succ :=
    funext fun a => match a with | ⟨0, _⟩ => rfl | ⟨1, _⟩ => Fin.ext (Nat.add_comm 1 k.val)
  simp only [Read.val_main_v25_apply, Read.val_main_v23_apply, Read.val_main_v24_apply, Read.val_main_call4_v4_apply,
    Read.val_main_call4_v3_apply, Read.val_main_cst_4_apply, Read.val_main_call4_v2_apply, Read.val_main_call4_v1_apply,
    Read.val_main_call4_v0_apply, Read.val_main_cst_3_apply, Read.val_main_v22_apply, Read.val_main_v21_apply,
    Read.val_main_v20_apply, Read.val_main_v19_apply, Read.val_main_v18_apply, Read.val_main_v15_apply,
    Read.val_main_v14_apply, Read.val_main_call2_v0_apply, Read.val_main_call2_cst_apply, v17_read, hi, v12_read]
  rfl

/-- The routing bit. -/
theorem v33_read (x0 : (⟨S1048576x32, .f32⟩ : BufTy).Contents (Elt Ideal)) (x1 : (⟨S65x32, .f32⟩ : BufTy).Contents (Elt Ideal)) (n : Fin 1048576) (z : Fin 1) :
    Read.val_main_v33 (F := Ideal) x0 x1 (ix2 n z) = gate x0 x1 n := by
  have hi : Read.idx_main_v13 (ix2 n z) = ix2 n 0 :=
    funext fun a => match a with | ⟨0, _⟩ => rfl | ⟨1, _⟩ => Fin.ext (by show z.val = 0; omega)
  simp only [Read.val_main_v33_apply, Read.val_main_v31_apply, Read.val_main_v32_apply, Read.val_main_v30_apply,
    Read.val_main_v29_apply, Read.val_main_v28_apply, Read.val_main_v27_apply, Read.val_main_v26_apply,
    Read.val_main_v13_apply, Read.val_main_cst_5_apply, Read.val_main_cst_6_apply, Read.val_main_cst_7_apply, hi, v12_read]
  rfl

/-- The second linear layer. -/
theorem v46_read (x0 : (⟨S1048576x32, .f32⟩ : BufTy).Contents (Elt Ideal)) (x1 : (⟨S65x32, .f32⟩ : BufTy).Contents (Elt Ideal)) (x2 : (⟨S64x64, .f32⟩ : BufTy).Contents (Elt Ideal)) (x5 : (⟨S3, .f32⟩ : BufTy).Contents (Elt Ideal)) (n : Fin 1048576) (k : Fin 64) :
    Read.val_main_v46 (F := Ideal) x0 x1 x2 x5 (ix2 n k) = lin64 (W1 x2) (r0 x0 x1 x5 n) k := by
  rw [Read.val_main_v46_apply]
  refine Finset.sum_congr rfl fun j _ => ?_
  have hl : Read.lidx_main_v46 (ix2 n k) j = ix2 n j :=
    funext fun a => match a with | ⟨0, _⟩ => rfl | ⟨1, _⟩ => rfl
  have hr : Read.idx_main_v45 (Read.ridx_main_v46 (ix2 n k) j) = ix2 k j :=
    funext fun a => match a with | ⟨0, _⟩ => rfl | ⟨1, _⟩ => rfl
  rw [Read.val_main_v45_apply, v44_read, hl, hr, v25_read]
  rfl

/-- The second hidden layer. -/
theorem v57_read (x0 : (⟨S1048576x32, .f32⟩ : BufTy).Contents (Elt Ideal)) (x1 : (⟨S65x32, .f32⟩ : BufTy).Contents (Elt Ideal)) (x2 : (⟨S64x64, .f32⟩ : BufTy).Contents (Elt Ideal)) (x5 : (⟨S3, .f32⟩ : BufTy).Contents (Elt Ideal)) (n : Fin 1048576) (k : Fin 64) :
    Read.val_main_v57 (F := Ideal) x0 x1 x2 x5 (ix2 n k) = a1 x0 x1 x2 x5 n k := by
  simp only [Read.val_main_v57_apply, Read.val_main_v55_apply, Read.val_main_v56_apply, Read.val_main_call9_v4_apply,
    Read.val_main_call9_v3_apply, Read.val_main_cst_13_apply, Read.val_main_call9_v2_apply, Read.val_main_call9_v1_apply,
    Read.val_main_call9_v0_apply, Read.val_main_cst_12_apply, Read.val_main_v54_apply, Read.val_main_v53_apply,
    Read.val_main_v52_apply, Read.val_main_v51_apply, Read.val_main_v50_apply, Read.val_main_v47_apply,
    Read.val_main_call7_v0_apply, Read.val_main_call7_cst_apply, v49_read, v46_read]
  rfl

/-- The third linear layer. -/
theorem v70_read (x0 : (⟨S1048576x32, .f32⟩ : BufTy).Contents (Elt Ideal)) (x1 : (⟨S65x32, .f32⟩ : BufTy).Contents (Elt Ideal)) (x2 x3 : (⟨S64x64, .f32⟩ : BufTy).Contents (Elt Ideal)) (x5 : (⟨S3, .f32⟩ : BufTy).Contents (Elt Ideal)) (n : Fin 1048576) (k : Fin 64) :
    Read.val_main_v70 (F := Ideal) x0 x1 x2 x3 x5 (ix2 n k) = lin64 (W2 x3) (a1 x0 x1 x2 x5 n) k := by
  rw [Read.val_main_v70_apply]
  refine Finset.sum_congr rfl fun j _ => ?_
  have hl : Read.lidx_main_v70 (ix2 n k) j = ix2 n j :=
    funext fun a => match a with | ⟨0, _⟩ => rfl | ⟨1, _⟩ => rfl
  have hr : Read.idx_main_v69 (Read.ridx_main_v70 (ix2 n k) j) = ix2 k j :=
    funext fun a => match a with | ⟨0, _⟩ => rfl | ⟨1, _⟩ => rfl
  rw [Read.val_main_v69_apply, v68_read, hl, hr, v57_read]
  rfl

/-- The third hidden layer. -/
theorem v81_read (x0 : (⟨S1048576x32, .f32⟩ : BufTy).Contents (Elt Ideal)) (x1 : (⟨S65x32, .f32⟩ : BufTy).Contents (Elt Ideal)) (x2 x3 : (⟨S64x64, .f32⟩ : BufTy).Contents (Elt Ideal)) (x5 : (⟨S3, .f32⟩ : BufTy).Contents (Elt Ideal)) (n : Fin 1048576) (k : Fin 64) :
    Read.val_main_v81 (F := Ideal) x0 x1 x2 x3 x5 (ix2 n k) = a2 x0 x1 x2 x3 x5 n k := by
  simp only [Read.val_main_v81_apply, Read.val_main_v79_apply, Read.val_main_v80_apply, Read.val_main_call14_v4_apply,
    Read.val_main_call14_v3_apply, Read.val_main_cst_19_apply, Read.val_main_call14_v2_apply, Read.val_main_call14_v1_apply,
    Read.val_main_call14_v0_apply, Read.val_main_cst_18_apply, Read.val_main_v78_apply, Read.val_main_v77_apply,
    Read.val_main_v76_apply, Read.val_main_v75_apply, Read.val_main_v74_apply, Read.val_main_v71_apply,
    Read.val_main_call12_v0_apply, Read.val_main_call12_cst_apply, v73_read, v70_read]
  rfl

/-- The selection. -/
theorem v82_read (x0 : (⟨S1048576x32, .f32⟩ : BufTy).Contents (Elt Ideal)) (x1 : (⟨S65x32, .f32⟩ : BufTy).Contents (Elt Ideal)) (x2 x3 : (⟨S64x64, .f32⟩ : BufTy).Contents (Elt Ideal)) (x5 : (⟨S3, .f32⟩ : BufTy).Contents (Elt Ideal)) (n : Fin 1048576) (k : Fin 64) :
    Read.val_main_v82 (F := Ideal) x0 x1 x2 x3 x5 (ix2 n k) = rr x0 x1 x2 x3 x5 n k := by
  have hi : Read.idx_main_call15_v0 (ix2 n k) = ix2 n (0 : Fin 1) :=
    funext fun a => match a with | ⟨0, _⟩ => rfl | ⟨1, _⟩ => rfl
  rw [Read.val_main_v82_apply, Read.val_main_call15_v0_apply, hi, v33_read, v81_read, v25_read]
  rfl

/-- The last linear layer. -/
theorem v95_read (x0 : (⟨S1048576x32, .f32⟩ : BufTy).Contents (Elt Ideal)) (x1 : (⟨S65x32, .f32⟩ : BufTy).Contents (Elt Ideal)) (x2 x3 : (⟨S64x64, .f32⟩ : BufTy).Contents (Elt Ideal)) (x4 : (⟨S3x64, .f32⟩ : BufTy).Contents (Elt Ideal)) (x5 : (⟨S3, .f32⟩ : BufTy).Contents (Elt Ideal)) (n : Fin 1048576) (o : Fin 3) :
    Read.val_main_v95 (F := Ideal) x0 x1 x2 x3 x4 x5 (ix2 n o) = lin3 (W3 x4) (rr x0 x1 x2 x3 x5 n) o := by
  rw [Read.val_main_v95_apply]
  refine Finset.sum_congr rfl fun j _ => ?_
  have hl : Read.lidx_main_v95 (ix2 n o) j = ix2 n j :=
    funext fun a => match a with | ⟨0, _⟩ => rfl | ⟨1, _⟩ => rfl
  have hr : Read.idx_main_v94 (Read.ridx_main_v95 (ix2 n o) j) = ix2 o j :=
    funext fun a => match a with | ⟨0, _⟩ => rfl | ⟨1, _⟩ => rfl
  rw [Read.val_main_v94_apply, v93_read, hl, hr, v82_read]
  rfl

/-- The last linear layer, fake-quantised (signed). -/
theorem v103_read (x0 : (⟨S1048576x32, .f32⟩ : BufTy).Contents (Elt Ideal)) (x1 : (⟨S65x32, .f32⟩ : BufTy).Contents (Elt Ideal)) (x2 x3 : (⟨S64x64, .f32⟩ : BufTy).Contents (Elt Ideal)) (x4 : (⟨S3x64, .f32⟩ : BufTy).Contents (Elt Ideal)) (x5 : (⟨S3, .f32⟩ : BufTy).Contents (Elt Ideal)) (x6 : (⟨S_, .f32⟩ : BufTy).Contents (Elt Ideal)) (n : Fin 1048576) (o : Fin 3) :
    Read.val_main_v103 (F := Ideal) x0 x1 x2 x3 x4 x5 x6 (ix2 n o)
      = fqR cm127 c127 (lin3 (W3 x4) (rr x0 x1 x2 x3 x5 n) o) (x6 ix0) := by
  simp only [Read.val_main_v103_apply, Read.val_main_v101_apply, Read.val_main_v102_apply, Read.val_main_call19_v4_apply,
    Read.val_main_call19_v3_apply, Read.val_main_cst_25_apply, Read.val_main_call19_v2_apply, Read.val_main_call19_v1_apply,
    Read.val_main_call19_v0_apply, Read.val_main_cst_24_apply, Read.val_main_v100_apply, Read.val_main_v99_apply,
    Read.val_main_v98_apply, Read.val_main_v97_apply, Read.val_main_v96_apply, v95_read]
  rfl

/-! ### The statement -/

/-- THE REFERENCE IS `netR`: its last value at row `n`, output `o`. -/
theorem val_main_v117_eq_netR (x0 : (⟨S1048576x32, .f32⟩ : BufTy).Contents (Elt Ideal)) (x1 : (⟨S65x32, .f32⟩ : BufTy).Contents (Elt Ideal)) (x2 x3 : (⟨S64x64, .f32⟩ : BufTy).Contents (Elt Ideal)) (x4 : (⟨S3x64, .f32⟩ : BufTy).Contents (Elt Ideal)) (x5 : (⟨S3, .f32⟩ : BufTy).Contents (Elt Ideal)) (x6 x7 : (⟨S_, .f32⟩ : BufTy).Contents (Elt Ideal)) (n : Fin 1048576) (o : Fin 3) :
    Read.val_main_v117 (F := Ideal) x0 x1 x2 x3 x4 x5 x6 x7 (ix2 n o)
      = netR (fun j k => qwR (x1 (ix2 j k)) (Read.val_main_v2 (F := Ideal) x1 ix0))
          (fun a b => qwR (x2 (ix2 a b)) (Read.val_main_v36 (F := Ideal) x2 ix0))
          (fun a b => qwR (x3 (ix2 a b)) (Read.val_main_v60 (F := Ideal) x3 ix0))
          (fun a b => qwR (x4 (ix2 a b)) (Read.val_main_v85 (F := Ideal) x4 ix0))
          (x5 (ix1 0)) (x5 (ix1 1)) (x5 (ix1 2)) (x6 ix0) (x7 ix0) (fun k => x0 (ix2 n k)) o := by
  simp only [Read.val_main_v117_apply, Read.val_main_v115_apply, Read.val_main_v116_apply, Read.val_main_call21_v4_apply,
    Read.val_main_call21_v3_apply, Read.val_main_cst_29_apply, Read.val_main_call21_v2_apply, Read.val_main_call21_v1_apply,
    Read.val_main_call21_v0_apply, Read.val_main_cst_28_apply, Read.val_main_v114_apply, Read.val_main_v113_apply,
    Read.val_main_v112_apply, Read.val_main_v111_apply, Read.val_main_v110_apply, Read.val_main_v109_apply,
    Read.val_main_v108_apply, Read.val_main_v107_apply, Read.val_main_v106_apply, Read.val_main_v105_apply,
    Read.val_main_v104_apply, Read.val_main_cst_26_apply, Read.val_main_cst_27_apply, v103_read]
  rfl

end Cert.ReferenceIdeal.RefNet

end
-- ==== Proof.LibFiniteEntries.lean ====
/-
  Real entries from a finiteness test, at the ideal values.

  A precondition "every float input is finite" is printed, per argument, as: the absolute value of the array, compared
  entry by entry below the bit pattern of plus infinity broadcast from a scalar, the bits then reduced by conjunction
  to one bit. At the ideal values an entry is an extended real, its absolute value is max x (-x), and the pattern
  0x7F800000 denotes plus infinity; max x (-x) < plus infinity fails exactly at the two infinities. So where the
  reduced bit is one, every entry of the array is a real number, whatever the array's shape.
-/
import Idealize.ShloMosaic.PureOps.Ideal
import Idealize.ShloMosaic.Lib.ValueIdx
import Idealize.ShloMosaic.Lib.ReduceAll

noncomputable section

namespace Cert.LibFiniteEntries

open Idealize.ShloMosaic Idealize.ShloMosaic.ValueIdx

/-- The rank-0 shape has one index. -/
instance subsingleton_scalar_idx : Subsingleton (⟨0, ![]⟩ : Shape).Idx := ⟨fun a b => funext fun d => d.elim0⟩

/-- The f32 bit pattern 0x7F800000 denotes plus infinity. -/
theorem inf_pattern_f32 : Ideal.ofBits .f32 0x7F800000#32 = ⊤ := by simp [Ideal.ofBits, Ideal.ieee]

/-- An extended real whose absolute value max x (-x) compares below plus infinity is a real number. -/
theorem real_of_abs_lt_inf (x : EReal)
    (h : Ideal.cmp .olt (max x (-x)) (Ideal.ofBits .f32 0x7F800000#32) = 1#1) : ∃ v : ℝ, x = v := by
  rw [inf_pattern_f32] at h
  induction x using EReal.rec with
  | bot => simp [Ideal.cmp] at h
  | top => simp [Ideal.cmp] at h
  | coe r => exact ⟨r, rfl⟩

/-- The printed test of one argument: if the conjunction, over every entry of an f32 array of any shape, of
    "absolute value below the plus-infinity pattern" is one, every entry is a real number. -/
theorem real_entries_of_all_lt_inf {s : Shape} {axes : List (Fin s.rank)} (a : FVec Ideal s .f32)
    (hb : (⟨0, ![]⟩ : Shape).BroadcastsInDim s (![] : Fin 0 → Fin s.rank))
    (h : s.ReducesTo axes ⟨0, ![]⟩) (hu : 0 < (⟨0, ![]⟩ : Shape).numel) (init : (⟨0, ![]⟩ : Shape).Idx → BitVec 1)
    (e : Host.reduce IntOp.andi
        (cmpf .olt (Host.absf a) (broadcastInDim s ![] hb (constant (F := Ideal) ⟨0, ![]⟩ .f32 0x7F800000#32))) init h hu ix0 = 1#1)
    (i : s.Idx) : ∃ v : ℝ, a i = v :=
  real_of_abs_lt_inf (a i) (Host.reduce_andi_all _ _ _ _ ix0 e i)

end Cert.LibFiniteEntries

end
-- ==== Proof.Finite.lean ====
/-
  Under the precondition every entry of every argument is a real number: the precondition is the conjunction, argument
  by argument, of "every entry's absolute value is below plus infinity", and an extended real with that property is real.
-/
import proofs.«160214_j15659450761872_2_alg».proof.Pre_finite_inputs
import proofs.«160214_j15659450761872_2_alg».proof.Proof.LibFiniteEntries
import Idealize.ShloMosaic.Lib.Affine

noncomputable section

namespace Cert.Proof.Finite

open Idealize.ShloMosaic Idealize.ShloMosaic.ValueIdx Cert.Pre_finite_inputs Cert.LibFiniteEntries

variable [Cert.Pre_finite_inputs.Facts]

theorem real_inputs (a0 : FVec Ideal S1048576x32 .f32) (a1 : FVec Ideal S65x32 .f32) (a2 a3 : FVec Ideal S64x64 .f32)
    (a4 : FVec Ideal S3x64 .f32) (a5 : FVec Ideal S3 .f32) (a6 a7 : FVec Ideal S_ .f32)
    (h : fn (F := Ideal) a0 a1 a2 a3 a4 a5 a6 a7 = fun _ => 1#1) :
    (∀ i, ∃ v : ℝ, a0 i = v) ∧ (∀ i, ∃ v : ℝ, a1 i = v) ∧ (∀ i, ∃ v : ℝ, a2 i = v) ∧ (∀ i, ∃ v : ℝ, a3 i = v)
      ∧ (∀ i, ∃ v : ℝ, a4 i = v) ∧ (∀ i, ∃ v : ℝ, a5 i = v) ∧ (∀ i, ∃ v : ℝ, a6 i = v) ∧ (∀ i, ∃ v : ℝ, a7 i = v) := by
  have h0 := congrFun h ix0
  simp only [fn, fn_part1, fn_part2, andi, IntOp.andi_eq_one] at h0
  obtain ⟨⟨⟨⟨⟨⟨⟨e0, e1⟩, e2⟩, e3⟩, e4⟩, e5⟩, e6⟩, e7⟩ := h0
  refine ⟨fun i => real_entries_of_all_lt_inf a0 _ _ _ _ e0 i, fun i => real_entries_of_all_lt_inf a1 _ _ _ _ e1 i,
    fun i => real_entries_of_all_lt_inf a2 _ _ _ _ e2 i, fun i => real_entries_of_all_lt_inf a3 _ _ _ _ e3 i,
    fun i => real_entries_of_all_lt_inf a4 _ _ _ _ e4 i, fun i => real_entries_of_all_lt_inf a5 _ _ _ _ e5 i,
    fun i => real_of_abs_lt_inf (a6 i) (Host.reduce_andi_all _ _ _ _ ix0 e6 i),
    fun i => real_of_abs_lt_inf (a7 i) (Host.reduce_andi_all _ _ _ _ ix0 e7 i)⟩

end Cert.Proof.Finite

end
-- ==== Proof.LibAbsMax.lean ====
import Idealize.ShloMosaic.PureOps.Ideal
import Idealize.ShloMosaic.PureOps.Ideal.Laws
import Idealize.ShloMosaic.PureOps.Reduce
import Idealize.ShloMosaic.Lib.ValueIdx

/-!
# The largest absolute value of a tensor of reals, and the scale it gives

On the extended reals a host reduction by `max` of the absolute values of a tensor, started from `-∞`,
is a left fold of `max` over the entries that reduce to each result index. When every entry is a real
and at least one entry reduces to the index, the first step replaces `-∞` by a real and every later
step is the maximum of two reals: the result is a real. Its quotient by the constant `127` (not zero)
is then a real too — the scale of a symmetric 8-bit quantisation.

Stated for any shape, any reduced axes and any result index that some entry reduces to; and for a
reduction over all axes into the rank-zero shape, where every entry reduces to the one index.
-/

noncomputable section

namespace Idealize.ShloMosaic.AbsMax

open Idealize.ShloMosaic Idealize.ShloMosaic.ValueIdx

/-! ### Folds of `max` over reals -/

/-- The embedding of the reals preserves `max`. -/
theorem coe_real_max (a b : ℝ) : ((max a b : ℝ) : EReal) = max ((a : ℝ) : EReal) ((b : ℝ) : EReal) :=
  EReal.coe_strictMono.monotone.map_max

/-- A left fold of `max` over reals, from a real, is a real. -/
theorem foldl_max_coe {ι : Type} (g : ι → ℝ) :
    ∀ (l : List ι) (a : ℝ),
      ∃ v : ℝ, l.foldl (fun (r : EReal) n => max r ((g n : ℝ) : EReal)) ((a : ℝ) : EReal) = ((v : ℝ) : EReal)
  | [], a => ⟨a, rfl⟩
  | n :: l, a => by
    obtain ⟨v, hv⟩ := foldl_max_coe g l (max a (g n))
    exact ⟨v, by rw [List.foldl_cons, ← coe_real_max, hv]⟩

/-- A left fold of `max` over a nonempty list of reals, from `-∞`, is a real: the first step
    replaces `-∞` by the first real. -/
theorem foldl_max_bot_coe {ι : Type} (g : ι → ℝ) (l : List ι) (hl : l ≠ []) :
    ∃ v : ℝ, l.foldl (fun (r : EReal) n => max r ((g n : ℝ) : EReal)) ⊥ = ((v : ℝ) : EReal) := by
  cases l with
  | nil => exact absurd rfl hl
  | cons n l =>
    rw [List.foldl_cons, max_bot_left]
    exact foldl_max_coe g l (g n)

/-! ### Constants -/

/-- The pattern of `-∞`. -/
theorem ofBits_neg_inf_f32 : Ideal.ofBits .f32 0xFF800000#32 = ⊥ := by
  simp [Ideal.ofBits, Ideal.ieee]

/-- The pattern of `127.0`. -/
theorem ofBits_127_f32 : Ideal.ofBits .f32 0x42FE0000#32 = (((127 : ℝ)) : EReal) := by
  simp [Ideal.ofBits, Ideal.ieee, -EReal.coe_mul]; norm_num

/-- The absolute value of a real is the real `max v (-v)`. -/
theorem hostAbsf_coe {φ : FTy} (v : ℝ) :
    FloatOps.hostAbsf (F := Ideal) (φ := φ) ((v : ℝ) : EReal) = (((max v (-v) : ℝ)) : EReal) := by
  show max ((v : ℝ) : EReal) (-((v : ℝ) : EReal)) = _
  rw [← EReal.coe_neg, ← coe_real_max]

/-! ### The reduction -/

/-- The maximum of the absolute values of a tensor of reals, from an initial value `-∞`, is a real at
    every result index that some entry `i0` reduces to. -/
theorem reduce_max_absf_isReal {s t u : Shape} {axes : List (Fin s.rank)} {φ : FTy} (w : FVec Ideal s φ)
    (hw : ∀ i, ∃ v : ℝ, w i = ((v : ℝ) : EReal)) (init : FVec Ideal u φ) (h : s.ReducesTo axes t)
    (hu : 0 < u.numel) (hinit : init (Shape.Idx.first hu) = ⊥) (j : t.Idx) (i0 : s.Idx)
    (hi0 : h.drop i0 = j) :
    ∃ v : ℝ, Host.reduce FloatOps.maximumf (Host.absf w) init h hu j = ((v : ℝ) : EReal) := by
  choose g hg using hw
  have habs : (fun (r : Ideal φ) (i : s.Idx) => FloatOps.maximumf r (Host.absf w i))
      = fun (r : EReal) i => max r (((max (g i) (-(g i)) : ℝ)) : EReal) := by
    funext r i
    show max r (FloatOps.hostAbsf (F := Ideal) (φ := φ) (w i)) = _
    rw [hg i, hostAbsf_coe]
  rw [Host.reduce_eq_foldl, hinit, habs]
  refine foldl_max_bot_coe (fun i => max (g i) (-(g i))) _ (List.ne_nil_of_mem (a := i0) ?_)
  rw [List.mem_filter]
  exact ⟨List.mem_map.2 ⟨s.rowMajor i0, List.mem_finRange _, Equiv.symm_apply_apply _ _⟩, by simp [hi0]⟩

/-- Over all axes, into the rank-zero shape, from the constant `-∞`: the largest absolute value of a
    tensor of reals with at least one entry is a real. -/
theorem absMax_isReal {s : Shape} {axes : List (Fin s.rank)} (w : FVec Ideal s .f32)
    (hw : ∀ i, ∃ v : ℝ, w i = ((v : ℝ) : EReal)) (i0 : s.Idx) (h : s.ReducesTo axes ⟨0, ![]⟩)
    (hu : 0 < (⟨0, ![]⟩ : Shape).numel) :
    ∃ v : ℝ, Host.reduce (FloatOps.maximumf (F := Ideal) (φ := .f32)) (Host.absf w)
        (constant (F := Ideal) ⟨0, ![]⟩ .f32 0xFF800000#32) h hu ix0 = ((v : ℝ) : EReal) :=
  reduce_max_absf_isReal w hw _ h hu ofBits_neg_inf_f32 ix0 i0 (funext fun a => a.elim0)

/-- The scale: that largest absolute value divided by the constant `127` is a real. -/
theorem absMax_div_127_isReal {s : Shape} {axes : List (Fin s.rank)} (w : FVec Ideal s .f32)
    (hw : ∀ i, ∃ v : ℝ, w i = ((v : ℝ) : EReal)) (i0 : s.Idx) (h : s.ReducesTo axes ⟨0, ![]⟩)
    (hu : 0 < (⟨0, ![]⟩ : Shape).numel) :
    ∃ t : ℝ, Host.divf (Host.reduce (FloatOps.maximumf (F := Ideal) (φ := .f32)) (Host.absf w)
          (constant (F := Ideal) ⟨0, ![]⟩ .f32 0xFF800000#32) h hu)
        (constant (F := Ideal) ⟨0, ![]⟩ .f32 0x42FE0000#32) ix0 = ((t : ℝ) : EReal) := by
  obtain ⟨v, hv⟩ := absMax_isReal w hw i0 h hu
  refine ⟨v / 127, ?_⟩
  show Ideal.div (Host.reduce (FloatOps.maximumf (F := Ideal) (φ := .f32)) (Host.absf w)
      (constant (F := Ideal) ⟨0, ![]⟩ .f32 0xFF800000#32) h hu ix0) (Ideal.ofBits .f32 0x42FE0000#32) = _
  rw [hv, ofBits_127_f32, Ideal.div, if_neg (EReal.coe_ne_zero.2 (by norm_num)), ← EReal.coe_inv,
    ← EReal.coe_mul, div_eq_mul_inv]

end Idealize.ShloMosaic.AbsMax

end
-- ==== Proof.Algebraic.lean ====
/-
  The two idealized programs end with equal results.

  Kernel side: the result array is the packed output re-laid, the packed output is the four-rows-at-once network of each
  packed row against the staged arrays, the staged arrays are the host operations' values — the input re-laid four rows
  to a packed row, the fake-quantized weights repeated along the diagonal, the routing row, the table of scales — and four
  rows at once against block-diagonal weights is the one-row network on each of the four rows.  So entry (n, o) of the
  kernel's result is the kernel's one-row network of logical row n.
  Reference side: entry (n, o) of its result is the reference's one-row network of row n.
  Under the precondition every entry of every argument is a real number, so the weights' scales are real, and on real data
  the reference's network is the kernel's: rounding through q + (round q − q) is rounding, multiplying by 1/s is dividing
  by s off zero while at s = 0 both fake-quantized values are 0, the logistic of a real is at least 1/2 exactly when the
  real is nonnegative, and blending with a 0/1 factor is selecting.
-/
import proofs.«160214_j15659450761872_2_alg».proof.Defs
import proofs.«160214_j15659450761872_2_alg».proof.Proof.KValue
import proofs.«160214_j15659450761872_2_alg».proof.Proof.KGlueA
import proofs.«160214_j15659450761872_2_alg».proof.Proof.KGlue
import proofs.«160214_j15659450761872_2_alg».proof.Proof.KGlueBD
import proofs.«160214_j15659450761872_2_alg».proof.Proof.SpecEq
import proofs.«160214_j15659450761872_2_alg».proof.Proof.RefNet
import proofs.«160214_j15659450761872_2_alg».proof.Proof.Finite
import proofs.«160214_j15659450761872_2_alg».proof.Proof.LibAbsMax
import proofs.«160214_j15659450761872_2_alg».proof.Proof.Gen.Pre_finite_inputs

set_option maxRecDepth 16384

noncomputable section

namespace Cert.Proof.Alg

open Idealize.ShloMosaic Idealize.ShloMosaic.TcCoe Idealize.SL.Sem Idealize.ShloMosaic.ValueIdx
open Cert.QNet

open Cert.KernelIdeal Cert.KernelIdeal.Fr in
set_option maxHeartbeats 16000000 in
/-- Entry by entry the reference's result is the kernel's, on arguments that agree and satisfy the precondition. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) = fun _ => 1#1)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.res_main_v117 m' c = Cert.KernelIdeal.KV.result m c := by
  obtain ⟨g0, g1, g2, g3, g4, g5, g6, g7⟩ := hag
  rw [Cert.ReferenceIdeal.Read.val_main_v117_eq, g0, g1, g2, g3, g4, g5, g6, g7]
  obtain ⟨r0, r1, r2, r3, r4, r5, r6, r7⟩ := Cert.Proof.Finite.real_inputs _ _ _ _ _ _ _ _ hpre
  funext i
  obtain ⟨n, o, rfl⟩ : ∃ (n : Fin 1048576) (o : Fin 3), i = ix2 n o := ⟨i 0, i 1, eq_ix2 i⟩
  rw [Cert.ReferenceIdeal.RefNet.val_main_v117_eq_netR]
  -- the kernel's entry is its one-row network of row n
  have hk := Cert.KernelIdeal.KV.result_apply m c
    (fun j k => qwK ((m ((c.tc : Thread Cert.KernelIdeal.nD Cert.KernelIdeal.τ).loc Cert.KernelIdeal.main_arg1) : Cert.KernelIdeal.S65x32.Idx → EReal) (ix2 j k)) (Cert.KernelIdeal.Glue.scale0 m c))
    (fun a b => qwK ((m ((c.tc : Thread Cert.KernelIdeal.nD Cert.KernelIdeal.τ).loc Cert.KernelIdeal.main_arg2) : Cert.KernelIdeal.S64x64.Idx → EReal) (ix2 a b)) (Cert.KernelIdeal.Glue.scale1 m c))
    (fun a b => qwK ((m ((c.tc : Thread Cert.KernelIdeal.nD Cert.KernelIdeal.τ).loc Cert.KernelIdeal.main_arg3) : Cert.KernelIdeal.S64x64.Idx → EReal) (ix2 a b)) (Cert.KernelIdeal.Glue.scale2 m c))
    (fun a b => qwK ((m ((c.tc : Thread Cert.KernelIdeal.nD Cert.KernelIdeal.τ).loc Cert.KernelIdeal.main_arg4) : Cert.KernelIdeal.S3x64.Idx → EReal) (ix2 a b)) (Cert.KernelIdeal.Glue.scale3 m c))
    ((m ((c.tc : Thread Cert.KernelIdeal.nD Cert.KernelIdeal.τ).loc Cert.KernelIdeal.main_arg5) : Cert.KernelIdeal.S3.Idx → EReal) (ix1 0)) ((m ((c.tc : Thread Cert.KernelIdeal.nD Cert.KernelIdeal.τ).loc Cert.KernelIdeal.main_arg5) : Cert.KernelIdeal.S3.Idx → EReal) (ix1 1)) ((m ((c.tc : Thread Cert.KernelIdeal.nD Cert.KernelIdeal.τ).loc Cert.KernelIdeal.main_arg5) : Cert.KernelIdeal.S3.Idx → EReal) (ix1 2)) ((m ((c.tc : Thread Cert.KernelIdeal.nD Cert.KernelIdeal.τ).loc Cert.KernelIdeal.main_arg6) : Cert.KernelIdeal.S_.Idx → EReal) ix0) ((m ((c.tc : Thread Cert.KernelIdeal.nD Cert.KernelIdeal.τ).loc Cert.KernelIdeal.main_arg7) : Cert.KernelIdeal.S_.Idx → EReal) ix0) (m ((c.tc : Thread Cert.KernelIdeal.nD Cert.KernelIdeal.τ).loc Cert.KernelIdeal.main_arg0) : Cert.KernelIdeal.S1048576x32.Idx → EReal)
    (Cert.KernelIdeal.GlueA.v149_apply m c)
    (funext fun j => funext fun k => by
      rw [Cert.KernelIdeal.Glue.V_main_v56]; unfold pack0
      exact if_congr Iff.rfl (Cert.KernelIdeal.Glue.v8_apply m c _ _) rfl)
    (funext fun j => Cert.KernelIdeal.Glue.v36_apply m c j)
    (funext fun j => funext fun k => by
      rw [Cert.KernelIdeal.Glue.V_main_v75]; unfold pack64
      exact if_congr Iff.rfl (Cert.KernelIdeal.Glue.v17_apply m c _ _) rfl)
    (funext fun j => funext fun k => by
      rw [Cert.KernelIdeal.Glue.V_main_v94]; unfold pack64
      exact if_congr Iff.rfl (Cert.KernelIdeal.Glue.v26_apply m c _ _) rfl)
    (funext fun j => funext fun k => by
      rw [Cert.KernelIdeal.Glue.V_main_v113]; unfold pack3
      exact if_congr Iff.rfl (Cert.KernelIdeal.Glue.v35_apply m c _ _) rfl)
    (Cert.KernelIdeal.Glue.v148_apply m c)
    n o
  refine Eq.trans ?_ hk.symm
  -- the weights' scales: the same term in both programs, and a real
  have hs0 : Cert.ReferenceIdeal.Read.val_main_v2 (F := Ideal) (m ((c.tc : Thread Cert.KernelIdeal.nD Cert.KernelIdeal.τ).loc Cert.KernelIdeal.main_arg1) : Cert.KernelIdeal.S65x32.Idx → EReal) ix0 = Cert.KernelIdeal.Glue.scale0 m c := rfl
  have hs1 : Cert.ReferenceIdeal.Read.val_main_v36 (F := Ideal) (m ((c.tc : Thread Cert.KernelIdeal.nD Cert.KernelIdeal.τ).loc Cert.KernelIdeal.main_arg2) : Cert.KernelIdeal.S64x64.Idx → EReal) ix0 = Cert.KernelIdeal.Glue.scale1 m c := rfl
  have hs2 : Cert.ReferenceIdeal.Read.val_main_v60 (F := Ideal) (m ((c.tc : Thread Cert.KernelIdeal.nD Cert.KernelIdeal.τ).loc Cert.KernelIdeal.main_arg3) : Cert.KernelIdeal.S64x64.Idx → EReal) ix0 = Cert.KernelIdeal.Glue.scale2 m c := rfl
  have hs3 : Cert.ReferenceIdeal.Read.val_main_v85 (F := Ideal) (m ((c.tc : Thread Cert.KernelIdeal.nD Cert.KernelIdeal.τ).loc Cert.KernelIdeal.main_arg4) : Cert.KernelIdeal.S3x64.Idx → EReal) ix0 = Cert.KernelIdeal.Glue.scale3 m c := rfl
  obtain ⟨t0, ht0'⟩ : ∃ t : ℝ, Cert.KernelIdeal.Glue.scale0 m c = ((t : ℝ) : EReal) :=
    Idealize.ShloMosaic.AbsMax.absMax_div_127_isReal _ r1 (ix2 0 0) _ _
  obtain ⟨t1, ht1'⟩ : ∃ t : ℝ, Cert.KernelIdeal.Glue.scale1 m c = ((t : ℝ) : EReal) :=
    Idealize.ShloMosaic.AbsMax.absMax_div_127_isReal _ r2 (ix2 0 0) _ _
  obtain ⟨t2, ht2'⟩ : ∃ t : ℝ, Cert.KernelIdeal.Glue.scale2 m c = ((t : ℝ) : EReal) :=
    Idealize.ShloMosaic.AbsMax.absMax_div_127_isReal _ r3 (ix2 0 0) _ _
  obtain ⟨t3, ht3'⟩ : ∃ t : ℝ, Cert.KernelIdeal.Glue.scale3 m c = ((t : ℝ) : EReal) :=
    Idealize.ShloMosaic.AbsMax.absMax_div_127_isReal _ r4 (ix2 0 0) _ _
  rw [hs0, hs1, hs2, hs3, ht0', ht1', ht2', ht3']
  choose f0 hf0 using r0
  choose f1 hf1 using r1
  choose f2 hf2 using r2
  choose f3 hf3 using r3
  choose f4 hf4 using r4
  choose f5 hf5 using r5
  choose f6 hf6 using r6
  choose f7 hf7 using r7
  simp only [hf0, hf1, hf2, hf3, hf4, hf5, hf6, hf7]
  exact netR_eq_netK (fun j k => f1 (ix2 j k)) (fun a b => f2 (ix2 a b)) (fun a b => f3 (ix2 a b)) (fun a b => f4 (ix2 a b))
    t0 t1 t2 t3 (f5 (ix1 0)) (f5 (ix1 1)) (f5 (ix1 2)) (f6 ix0) (f7 ix0) (fun k => f0 (ix2 n k)) o

/-- The algebraic claim: both idealized programs run, end with equal results, and leave their arguments unchanged. -/
theorem algebraic : Cert.algebraic_KernelIdeal_ReferenceIdeal := by
  intro m ρ m' ρ' hpre hagree
  refine ⟨fun c => Cert.KernelIdeal.KV.result m c, Cert.KernelIdeal.KV.run m ρ, ?_⟩
  refine (θ_run Cert.ReferenceIdeal.defs _ _).mono (fun _ h c => ⟨(h c).1.trans ?_, (h c).2⟩)
    (Cert.ReferenceIdeal.Value.run (F := Ideal) m' ρ')
  exact value_eq m m' c (hpre c) (hagree c)

end Cert.Proof.Alg

end
-- ==== Proof.lean ====
/-
  The proof of `Cert.Claim`: the three frames, the (empty) idealization ledger, and the equality of the two idealized
  programs' results.

  The kernel is a quantized three-layer network with a routed middle: each row of 32 inputs goes through a linear layer
  whose first output is a routing score; the other 64 outputs are rectified and fake-quantized; two more layers of
  width 64 follow and are kept only where the score is nonnegative; a last layer with 3 outputs is fake-quantized,
  passed through the logistic function and fake-quantized again.  The kernel packs four rows side by side against
  block-diagonal weights; the reference runs row by row.  On the extended reals the two agree wherever every input is a
  real number (Proof/Algebraic.lean says which laws join the two spellings).

  Frames: @main of the kernel is host operations, one region on 128 grid points, and one host operation after it; its
  body loads whole blocks and stores one whole block (Proof/FrameK.lean at the word level, Proof/FrameKI.lean idealized).
  The reference has no kernel; its run gives its frame.
-/
import proofs.«160214_j15659450761872_2_alg».proof.Defs
import proofs.«160214_j15659450761872_2_alg».proof.Proof.Gen.Kernel
import proofs.«160214_j15659450761872_2_alg».proof.Proof.Gen.KernelIdeal
import proofs.«160214_j15659450761872_2_alg».proof.Proof.Gen.ReferenceIdeal
import proofs.«160214_j15659450761872_2_alg».proof.Proof.Gen.Pre_finite_inputs
import proofs.«160214_j15659450761872_2_alg».proof.Proof.FrameK
import proofs.«160214_j15659450761872_2_alg».proof.Proof.FrameKI
import proofs.«160214_j15659450761872_2_alg».proof.Proof.RefRunP
import proofs.«160214_j15659450761872_2_alg».proof.Proof.Algebraic
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Proof.Alg.algebraic⟩

end Cert.Proof

end
